-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v127) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1000000 : Shape := ⟨2, ![2, 1000000]⟩
abbrev S50000x768 : Shape := ⟨2, ![50000, 768]⟩
abbrev S400000x2 : Shape := ⟨2, ![400000, 2]⟩
abbrev S50000 : Shape := ⟨1, ![50000]⟩
abbrev S50000x128 : Shape := ⟨2, ![50000, 128]⟩
abbrev S2x128x128 : Shape := ⟨3, ![2, 128, 128]⟩
abbrev S2x128 : Shape := ⟨2, ![2, 128]⟩
abbrev S768x128 : Shape := ⟨2, ![768, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S50000 : S_.BroadcastsInDim S50000 (![] : Fin 0 → Fin S50000.rank)
  reducesTo_S50000_S_d0 : S50000.ReducesTo [0] S_
  bcast_S_S50000x128 : S_.BroadcastsInDim S50000x128 (![] : Fin 0 → Fin S50000x128.rank)
  reducesTo_S50000x128_S_d0_1 : S50000x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg10 : FVec F S256x128 .f32) (main_arg11 : FVec F S128 .f32) (main_arg12 : FVec F S128x1 .f32) (main_arg13 : FVec F S1 .f32) (main_v33 : IVec S_ 1) : IVec S_ 1 :=
  let main_v34 : FVec F S256x128 .f32 := Host.absf main_arg10
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg12
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg7 : FVec F S2x128 .f32) (main_arg8 : FVec F S768x128 .f32) (main_arg9 : FVec F S128 .f32) (main_arg10 : FVec F S256x128 .f32) (main_arg11 : FVec F S128 .f32) (main_arg12 : FVec F S128x1 .f32) (main_arg13 : FVec F S1 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg7
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S768x128 .f32 := Host.absf main_arg8
  let main_cst_8 : FVec F S_ .f32 := constant S_ .f32 0x7F800000#32
  let main_v25 : FVec F S768x128 .f32 := broadcastInDim S768x128 ![] bcast_S_S768x128 main_cst_8
  let main_v26 : IVec S768x128 1 := cmpf .olt main_v24 main_v25
  let main_c_9 : IVec S_ 1 := constantI S_ 1 1#1
  let main_v27 : IVec S_ 1 := (fun x v => Host.reduce IntOp.andi x v reducesTo_S768x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : IVec S2x1000000 32) (main_arg1 : FVec F S50000x768 .f32) (main_arg2 : IVec S400000x2 32) (main_arg3 : IVec S400000x2 32) (main_arg4 : FVec F S50000 .f32) (main_arg5 : FVec F S50000x128 .f32) (main_arg6 : FVec F S2x128x128 .f32) (main_arg7 : FVec F S2x128 .f32) (main_arg8 : FVec F S768x128 .f32) (main_arg9 : FVec F S128 .f32) (main_arg10 : FVec F S256x128 .f32) (main_arg11 : FVec F S128 .f32) (main_arg12 : FVec F S128x1 .f32) (main_arg13 : FVec F S1 .f32) : IVec S_ 1 :=
  let main_v0 : FVec F S50000x768 .f32 := Host.absf main_arg1
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S50000 .f32 := Host.absf main_arg4
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S50000x128 .f32 := Host.absf main_arg5
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S2x128x128 .f32 := Host.absf main_arg6
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg7 main_arg8 main_arg9 main_arg10 main_arg11 main_arg12 main_arg13 main_v13 main_v16
-- ==== Kernel.lean ====
abbrev S2x1000000 : Shape := ⟨2, ![2, 1000000]⟩
abbrev S50000x768 : Shape := ⟨2, ![50000, 768]⟩
abbrev S400000x2 : Shape := ⟨2, ![400000, 2]⟩
abbrev S50000 : Shape := ⟨1, ![50000]⟩
abbrev S50000x128 : Shape := ⟨2, ![50000, 128]⟩
abbrev S2x128x128 : Shape := ⟨3, ![2, 128, 128]⟩
abbrev S2x128 : Shape := ⟨2, ![2, 128]⟩
abbrev S768x128 : Shape := ⟨2, ![768, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S50000x1 : Shape := ⟨2, ![50000, 1]⟩
abbrev S1x128x128 : Shape := ⟨3, ![1, 128, 128]⟩
abbrev S128x128 : Shape := ⟨2, ![128, 128]⟩
abbrev S5000x128 : Shape := ⟨2, ![5000, 128]⟩
abbrev S5000x1 : Shape := ⟨2, ![5000, 1]⟩
abbrev S1000000x128 : Shape := ⟨2, ![1000000, 128]⟩
abbrev S1x128 : Shape := ⟨2, ![1, 128]⟩
abbrev S2000x768 : Shape := ⟨2, ![2000, 768]⟩
abbrev S2000x1 : Shape := ⟨2, ![2000, 1]⟩
abbrev S2000x128 : Shape := ⟨2, ![2000, 128]⟩
abbrev S128x8 : Shape := ⟨2, ![128, 8]⟩
abbrev S8 : Shape := ⟨1, ![8]⟩
abbrev S400000x1 : Shape := ⟨2, ![400000, 1]⟩
abbrev S400000 : Shape := ⟨1, ![400000]⟩
abbrev S400000x128 : Shape := ⟨2, ![400000, 128]⟩
abbrev S400000x8 : Shape := ⟨2, ![400000, 8]⟩
abbrev S4000x128 : Shape := ⟨2, ![4000, 128]⟩
abbrev S4000x8 : Shape := ⟨2, ![4000, 8]⟩
abbrev S1x8 : Shape := ⟨2, ![1, 8]⟩

abbrev nBuf : Space → Nat
  | .hbm => 176
  | .vmem => 52
  | .smem => 0
  | _ => 0

abbrev hbmTy0_0 (i : Nat) : BufTy := match i % 128 with
  | 0 => ⟨S2x1000000, .i32⟩
  | 1 => ⟨S50000x768, .f32⟩
  | 2 => ⟨S400000x2, .i32⟩
  | 3 => ⟨S400000x2, .i32⟩
  | 4 => ⟨S50000, .f32⟩
  | 5 => ⟨S50000x128, .f32⟩
  | 6 => ⟨S2x128x128, .f32⟩
  | 7 => ⟨S2x128, .f32⟩
  | 8 => ⟨S768x128, .f32⟩
  | 9 => ⟨S128, .f32⟩
  | 10 => ⟨S256x128, .f32⟩
  | 11 => ⟨S128, .f32⟩
  | 12 => ⟨S128x1, .f32⟩
  | 13 => ⟨S1, .f32⟩
  | 14 => ⟨S1x1000000, .i32⟩
  | 15 => ⟨S1000000, .i32⟩
  | 16 => ⟨S1x1000000, .i32⟩
  | 17 => ⟨S1000000, .i32⟩
  | 18 => ⟨S_, .f32⟩
  | 19 => ⟨S1000000, .f32⟩
  | 20 => ⟨S_, .f32⟩
  | 21 => ⟨S50000, .f32⟩
  | 22 => ⟨S1000000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S50000x1, .f32⟩
  | 39 => ⟨S1x128x128, .f32⟩
  | 40 => ⟨S128x128, .f32⟩
  | 41 => ⟨S50000x128, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1000000x128, .f32⟩
  | 51 => ⟨S_, .f32⟩
  | 52 => ⟨S50000x128, .f32⟩
  | 53 => ⟨S1000000x1, .i32⟩
  | 54 => ⟨S50000x128, .f32⟩
  | 55 => ⟨S1x128, .f32⟩
  | 56 => ⟨S128, .f32⟩
  | 57 => ⟨S1x128x128, .f32⟩
  | 58 => ⟨S128x128, .f32⟩
  | 59 => ⟨S50000x128, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x128, .f32⟩
  | 69 => ⟨S_, .f32⟩
  | 70 => ⟨S50000x128, .f32⟩
  | 71 => ⟨S1000000x1, .i32⟩
  | 72 => ⟨S50000x128, .f32⟩
  | 73 => ⟨S1x128, .f32⟩
  | 74 => ⟨S128, .f32⟩
  | 75 => ⟨S50000x128, .f32⟩
  | 76 => ⟨S50000x1, .f32⟩
  | 77 => ⟨S50000x128, .f32⟩
  | 78 => ⟨S128x128, .f32⟩
  | 79 => ⟨S128x128, .f32⟩
  | 80 => ⟨S_, .i32⟩
  | 81 => ⟨S_, .f32⟩
  | 82 => ⟨S128x8, .f32⟩
  | 83 => ⟨S_, .i32⟩
  | 84 => ⟨S_, .f32⟩
  | 85 => ⟨S8, .f32⟩
  | 86 => ⟨S400000x1, .i32⟩
  | 87 => ⟨S400000, .i32⟩
  | 88 => ⟨S400000x1, .i32⟩
  | 89 => ⟨S400000, .i32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S400000x128, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000x128, .f32⟩
  | 108 => ⟨S400000x128, .f32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S400000x128, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S400000x128, .f32⟩
  | 127 => ⟨S400000x128, .f32⟩
  | _ => ⟨S2x1000000, .i32⟩

abbrev hbmTy0_1 (i : Nat) : BufTy := match i % 128 with
  | 0 => ⟨S400000x8, .f32⟩
  | 1 => ⟨S400000x1, .f32⟩
  | 2 => ⟨S400000, .f32⟩
  | 3 => ⟨S400000x1, .i32⟩
  | 4 => ⟨S400000, .i32⟩
  | 5 => ⟨S400000x1, .i32⟩
  | 6 => ⟨S400000, .i32⟩
  | 7 => ⟨S_, .i32⟩
  | 8 => ⟨S400000, .i32⟩
  | 9 => ⟨S400000, .i1⟩
  | 10 => ⟨S_, .i32⟩
  | 11 => ⟨S400000, .i32⟩
  | 12 => ⟨S400000, .i32⟩
  | 13 => ⟨S400000, .i32⟩
  | 14 => ⟨S400000x1, .i32⟩
  | 15 => ⟨S400000x128, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x128, .f32⟩
  | 25 => ⟨S400000x128, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x128, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x128, .f32⟩
  | 44 => ⟨S400000x128, .f32⟩
  | 45 => ⟨S400000x8, .f32⟩
  | 46 => ⟨S400000x1, .f32⟩
  | 47 => ⟨S400000, .f32⟩
  | _ => ⟨S2x1000000, .i32⟩

abbrev hbmTy (i : Nat) : BufTy := match i / 128 with
  | 0 => hbmTy0_0 i
  | 1 => hbmTy0_1 i
  | _ => ⟨S2x1000000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S2000x768, .f32⟩
  | .local _ .vmem, ⟨23, _⟩ => ⟨S2000x768, .f32⟩
  | .local _ .vmem, ⟨24, _⟩ => ⟨S768x128, .f32⟩
  | .local _ .vmem, ⟨25, _⟩ => ⟨S128, .f32⟩
  | .local _ .vmem, ⟨26, _⟩ => ⟨S2000x1, .f32⟩
  | .local _ .vmem, ⟨27, _⟩ => ⟨S2000x1, .f32⟩
  | .local _ .vmem, ⟨28, _⟩ => ⟨S2000x128, .f32⟩
  | .local _ .vmem, ⟨29, _⟩ => ⟨S2000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S128x128, .f32⟩
  | .local _ .vmem, ⟨35, _⟩ => ⟨S128x128, .f32⟩
  | .local _ .vmem, ⟨36, _⟩ => ⟨S128, .f32⟩
  | .local _ .vmem, ⟨37, _⟩ => ⟨S128x8, .f32⟩
  | .local _ .vmem, ⟨38, _⟩ => ⟨S8, .f32⟩
  | .local _ .vmem, ⟨39, _⟩ => ⟨S4000x8, .f32⟩
  | .local _ .vmem, ⟨40, _⟩ => ⟨S4000x8, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S128x128, .f32⟩
  | .local _ .vmem, ⟨46, _⟩ => ⟨S128x128, .f32⟩
  | .local _ .vmem, ⟨47, _⟩ => ⟨S128, .f32⟩
  | .local _ .vmem, ⟨48, _⟩ => ⟨S128x8, .f32⟩
  | .local _ .vmem, ⟨49, _⟩ => ⟨S8, .f32⟩
  | .local _ .vmem, ⟨50, _⟩ => ⟨S4000x8, .f32⟩
  | .local _ .vmem, ⟨51, _⟩ => ⟨S4000x8, .f32⟩
  | _, _ => ⟨S2x1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_call1_v0 : Ref sig .tc := ⟨.hbm, 81, rfl⟩
abbrev main_v52 : Ref sig .tc := ⟨.hbm, 82, rfl⟩
abbrev main_c_11 : Ref sig .tc := ⟨.hbm, 83, rfl⟩
abbrev main_call2_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_c_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_14 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_16 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_18 : Ref sig .tc := ⟨.hbm, 118, rfl⟩
abbrev main_v80 : Ref sig .tc := ⟨.hbm, 119, rfl⟩
abbrev main_v81 : Ref sig .tc := ⟨.hbm, 120, rfl⟩
abbrev main_c_19 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_20 : Ref sig .tc := ⟨.hbm, 135, rfl⟩
abbrev main_v95 : Ref sig .tc := ⟨.hbm, 136, rfl⟩
abbrev main_v96 : Ref sig .tc := ⟨.hbm, 137, rfl⟩
abbrev main_c_21 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c_22 : Ref sig .tc := ⟨.hbm, 144, rfl⟩
abbrev main_v102 : Ref sig .tc := ⟨.hbm, 145, rfl⟩
abbrev main_v103 : Ref sig .tc := ⟨.hbm, 146, rfl⟩
abbrev main_c_23 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_c_24 : Ref sig .tc := ⟨.hbm, 154, rfl⟩
abbrev main_v110 : Ref sig .tc := ⟨.hbm, 155, rfl⟩
abbrev main_v111 : Ref sig .tc := ⟨.hbm, 156, rfl⟩
abbrev main_c_25 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_c_26 : Ref sig .tc := ⟨.hbm, 163, rfl⟩
abbrev main_v117 : Ref sig .tc := ⟨.hbm, 164, rfl⟩
abbrev main_v118 : Ref sig .tc := ⟨.hbm, 165, rfl⟩
abbrev main_c_27 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc4_stg7_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg7_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem7_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem7_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S768x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x8 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S8 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4000x8 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x8 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S8 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S4000x8 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  shapeCasts_S50000_S50000x1 : S50000.ShapeCasts S50000x1
  slices_S2x128x128_S1x128x128_0_0_0 : S2x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  shapeCasts_S5000x128_S5000x128 : S5000x128.ShapeCasts S5000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S2x128_S1x128_1_0 : S2x128.Slices ![1, 0] S1x128
  inb_S2000x768_S2000x768_0_0 : ∀ a, (![0, 0] : Fin 2 → Nat) a + S2000x768.size a ≤ S2000x768.size a
  h_S2000x768 : 0 < S2000x768.numel
  inb_S768x128_S768x128_0_0 : ∀ a, (![0, 0] : Fin 2 → Nat) a + S768x128.size a ≤ S768x128.size a
  h_S768x128 : 0 < S768x128.numel
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  slices_S256x128_S128x128_0_0 : S256x128.Slices ![0, 0] S128x128
  slices_S256x128_S128x128_128_0 : S256x128.Slices ![128, 0] S128x128
  pads_S128x1_S128x8_000_070 : S128x1.Pads (![0, 0] : Fin 2 → Nat) ![0, 7] ![0, 0] S128x8
  h_S_ : 0 < S_.numel
  pads_S1_S8_070 : S1.Pads (![0] : Fin 1 → Nat) ![7] ![0] S8
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S8_S8_0 : ∀ a, (![0] : Fin 1 → Nat) a + S8.size a ≤ S8.size a
  h_S8 : 0 < S8.numel
  shapeCasts_S8_S8 : S8.ShapeCasts S8
  shapeCasts_S8_S1x8 : S8.ShapeCasts S1x8
  broadcasts_S1x8_S4000x8 : S1x8.Broadcasts S4000x8
  inb_S4000x8_S4000x8_0_0 : ∀ a, (![0, 0] : Fin 2 → Nat) a + S4000x8.size a ≤ S4000x8.size a
  h_S4000x8 : 0 < S4000x8.numel
  slices_S400000x8_S400000x1_0_0 : S400000x8.Slices ![0, 0] S400000x1
  scatter_S50000_S1000000x1_S1000000_n_0_0_1_wf : ScatterDims.WF S50000 S1000000x1 S1000000 [] [0] [0] 1
  dot_S5000x128_S128x128_S5000x128_1_0_0_1_n_n_wf : DotDims.WF S5000x128 S128x128 S5000x128 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  dot_S2000x768_S768x128_S2000x128_1_0_0_1_n_n_wf : DotDims.WF S2000x768 S768x128 S2000x128 [1] [0] [0] [1] [] []
  gather_S50000x128_S400000x1_S400000x128_1_0_n_n_0_1_1128_wf : GatherDims.WF S50000x128 S400000x1 S400000x128 [1] [0] [] [0] [] 1 ![1, 128]
  dot_S4000x128_S128x128_S4000x128_1_0_0_1_n_n_wf : DotDims.WF S4000x128 S128x128 S4000x128 [1] [0] [0] [1] [] []
  dot_S4000x128_S128x8_S4000x8_1_0_0_1_n_n_wf : DotDims.WF S4000x128 S128x8 S4000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x768.size a ≤ S50000x768.size a
  hwx3_0 : ∀ i : grid3.Coords, EltTy.bits .f32 = 32 ∨ (Rect.block (s := S50000x768) S2000x768.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x128.size a ≤ S768x128.size a
  hwx3_1 : ∀ i : grid3.Coords, EltTy.bits .f32 = 32 ∨ (Rect.block (s := S768x128) S768x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .f32 = 32 ∨ (Rect.block (s := S50000x1) S2000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S400000x128.size a
  hwx4_0 : ∀ i : grid4.Coords, EltTy.bits .f32 = 32 ∨ (Rect.block (s := S400000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S400000x128.size a
  hwx4_1 : ∀ i : grid4.Coords, EltTy.bits .f32 = 32 ∨ (Rect.block (s := S400000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x8.size a ≤ S128x8.size a
  hwx4_5 : ∀ i : grid4.Coords, EltTy.bits .f32 = 32 ∨ (Rect.block (s := S128x8) S128x8.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S8.size a ≤ S8.size a
  hwx4_6 : ∀ i : grid4.Coords, EltTy.bits .f32 = 32 ∨ (Rect.block (s := S8) S8.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x8.size a ≤ S400000x8.size a
  hwx4_7 : ∀ i : grid4.Coords, EltTy.bits .f32 = 32 ∨ (Rect.block (s := S400000x8) S4000x8.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S400000x128.size a
  hwx5_0 : ∀ i : grid5.Coords, EltTy.bits .f32 = 32 ∨ (Rect.block (s := S400000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S400000x128.size a
  hwx5_1 : ∀ i : grid5.Coords, EltTy.bits .f32 = 32 ∨ (Rect.block (s := S400000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x8.size a ≤ S128x8.size a
  hwx5_5 : ∀ i : grid5.Coords, EltTy.bits .f32 = 32 ∨ (Rect.block (s := S128x8) S128x8.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S8.size a ≤ S8.size a
  hwx5_6 : ∀ i : grid5.Coords, EltTy.bits .f32 = 32 ∨ (Rect.block (s := S8) S8.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S4000x8.size a ≤ S400000x8.size a
  hwx5_7 : ∀ i : grid5.Coords, EltTy.bits .f32 = 32 ∨ (Rect.block (s := S400000x8) S4000x8.size (cc5_transform_7 i) (hinb5_7 i)).WholeWords (EltTy.packing .f32)

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x8_S4000x8_1_0_0_1_n_n : DotDims S4000x128 S128x8 S4000x8 where
  lhsContracting := [1]
  rhsContracting := [0]
  lhsNonContracting := [0]
  rhsNonContracting := [1]
  lhsBatch := []
  rhsBatch := []
  wf := dot_S4000x128_S128x8_S4000x8_1_0_0_1_n_n_wf

abbrev win0_0 : Pipeline.Window sig grid0 :=
  Pipeline.Window.ofSpec (Memref.whole main_arg5) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S2000x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S768x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v49) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v72) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg11) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v52) S128x8.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v53) S8.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v88) S4000x8.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v109) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v124) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v50) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v51) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg11) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v52) S128x8.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v53) S8.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v125) S4000x8.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S2x1000000 : Shape := ⟨2, ![2, 1000000]⟩
abbrev S50000x768 : Shape := ⟨2, ![50000, 768]⟩
abbrev S400000x2 : Shape := ⟨2, ![400000, 2]⟩
abbrev S50000 : Shape := ⟨1, ![50000]⟩
abbrev S50000x128 : Shape := ⟨2, ![50000, 128]⟩
abbrev S2x128x128 : Shape := ⟨3, ![2, 128, 128]⟩
abbrev S2x128 : Shape := ⟨2, ![2, 128]⟩
abbrev S768x128 : Shape := ⟨2, ![768, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1x128x128 : Shape := ⟨3, ![1, 128, 128]⟩
abbrev S128x128 : Shape := ⟨2, ![128, 128]⟩
abbrev S1000000x128 : Shape := ⟨2, ![1000000, 128]⟩
abbrev S1x128 : Shape := ⟨2, ![1, 128]⟩
abbrev S50000x1 : Shape := ⟨2, ![50000, 1]⟩
abbrev S400000x1 : Shape := ⟨2, ![400000, 1]⟩
abbrev S400000 : Shape := ⟨1, ![400000]⟩
abbrev S400000x128 : Shape := ⟨2, ![400000, 128]⟩
abbrev S400000x256 : Shape := ⟨2, ![400000, 256]⟩
abbrev S1x1 : Shape := ⟨2, ![1, 1]⟩

abbrev nBuf : Space → Nat
  | .hbm => 231
  | .vmem => 0
  | .smem => 0
  | _ => 0

abbrev hbmTy0_0 (i : Nat) : BufTy := match i % 128 with
  | 0 => ⟨S2x1000000, .i32⟩
  | 1 => ⟨S50000x768, .f32⟩
  | 2 => ⟨S400000x2, .i32⟩
  | 3 => ⟨S400000x2, .i32⟩
  | 4 => ⟨S50000, .f32⟩
  | 5 => ⟨S50000x128, .f32⟩
  | 6 => ⟨S2x128x128, .f32⟩
  | 7 => ⟨S2x128, .f32⟩
  | 8 => ⟨S768x128, .f32⟩
  | 9 => ⟨S128, .f32⟩
  | 10 => ⟨S256x128, .f32⟩
  | 11 => ⟨S128, .f32⟩
  | 12 => ⟨S128x1, .f32⟩
  | 13 => ⟨S1, .f32⟩
  | 14 => ⟨S1x1000000, .i32⟩
  | 15 => ⟨S1000000, .i32⟩
  | 16 => ⟨S1x1000000, .i32⟩
  | 17 => ⟨S1000000, .i32⟩
  | 18 => ⟨S_, .f32⟩
  | 19 => ⟨S1000000, .f32⟩
  | 20 => ⟨S_, .f32⟩
  | 21 => ⟨S50000, .f32⟩
  | 22 => ⟨S1000000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000, .f32⟩
  | 47 => ⟨S_, .i32⟩
  | 48 => ⟨S1000000, .i32⟩
  | 49 => ⟨S1000000, .i1⟩
  | 50 => ⟨S_, .i32⟩
  | 51 => ⟨S1000000, .i32⟩
  | 52 => ⟨S1000000, .i32⟩
  | 53 => ⟨S1000000, .i32⟩
  | 54 => ⟨S1000000x1, .i32⟩
  | 55 => ⟨S1000000, .f32⟩
  | 56 => ⟨S1000000, .f32⟩
  | 57 => ⟨S1x128x128, .f32⟩
  | 58 => ⟨S128x128, .f32⟩
  | 59 => ⟨S50000x128, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x128, .f32⟩
  | 69 => ⟨S1000000x1, .f32⟩
  | 70 => ⟨S1000000x128, .f32⟩
  | 71 => ⟨S1000000x128, .f32⟩
  | 72 => ⟨S_, .f32⟩
  | 73 => ⟨S50000x128, .f32⟩
  | 74 => ⟨S1000000x1, .i32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S1x128x128, .f32⟩
  | 85 => ⟨S128x128, .f32⟩
  | 86 => ⟨S50000x128, .f32⟩
  | 87 => ⟨S_, .i32⟩
  | 88 => ⟨S1000000, .i32⟩
  | 89 => ⟨S1000000, .i1⟩
  | 90 => ⟨S_, .i32⟩
  | 91 => ⟨S1000000, .i32⟩
  | 92 => ⟨S1000000, .i32⟩
  | 93 => ⟨S1000000, .i32⟩
  | 94 => ⟨S1000000x1, .i32⟩
  | 95 => ⟨S1000000x128, .f32⟩
  | 96 => ⟨S1000000x1, .f32⟩
  | 97 => ⟨S1000000x128, .f32⟩
  | 98 => ⟨S1000000x128, .f32⟩
  | 99 => ⟨S_, .f32⟩
  | 100 => ⟨S50000x128, .f32⟩
  | 101 => ⟨S1000000x1, .i32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S50000x1, .f32⟩
  | 119 => ⟨S50000x128, .f32⟩
  | 120 => ⟨S50000x128, .f32⟩
  | 121 => ⟨S400000x1, .i32⟩
  | 122 => ⟨S400000, .i32⟩
  | 123 => ⟨S400000x1, .i32⟩
  | 124 => ⟨S400000, .i32⟩
  | 125 => ⟨S_, .i32⟩
  | 126 => ⟨S400000, .i32⟩
  | 127 => ⟨S400000, .i1⟩
  | _ => ⟨S2x1000000, .i32⟩

abbrev hbmTy0_1 (i : Nat) : BufTy := match i % 128 with
  | 0 => ⟨S_, .i32⟩
  | 1 => ⟨S400000, .i32⟩
  | 2 => ⟨S400000, .i32⟩
  | 3 => ⟨S400000, .i32⟩
  | 4 => ⟨S400000x1, .i32⟩
  | 5 => ⟨S400000x128, .f32⟩
  | 6 => ⟨S_, .i32⟩
  | 7 => ⟨S400000, .i32⟩
  | 8 => ⟨S400000, .i1⟩
  | 9 => ⟨S_, .i32⟩
  | 10 => ⟨S400000, .i32⟩
  | 11 => ⟨S400000, .i32⟩
  | 12 => ⟨S400000, .i32⟩
  | 13 => ⟨S400000x1, .i32⟩
  | 14 => ⟨S400000x128, .f32⟩
  | 15 => ⟨S400000x128, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x128, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x128, .f32⟩
  | 34 => ⟨S400000x128, .f32⟩
  | 35 => ⟨S400000x256, .f32⟩
  | 36 => ⟨S400000x128, .f32⟩
  | 37 => ⟨S1x128, .f32⟩
  | 38 => ⟨S400000x128, .f32⟩
  | 39 => ⟨S400000x128, .f32⟩
  | 40 => ⟨S_, .f32⟩
  | 41 => ⟨S400000x128, .f32⟩
  | 42 => ⟨S400000x128, .f32⟩
  | 43 => ⟨S400000x1, .f32⟩
  | 44 => ⟨S1x1, .f32⟩
  | 45 => ⟨S400000x1, .f32⟩
  | 46 => ⟨S400000x1, .f32⟩
  | 47 => ⟨S400000, .f32⟩
  | 48 => ⟨S400000x1, .i32⟩
  | 49 => ⟨S400000, .i32⟩
  | 50 => ⟨S400000x1, .i32⟩
  | 51 => ⟨S400000, .i32⟩
  | 52 => ⟨S_, .i32⟩
  | 53 => ⟨S400000, .i32⟩
  | 54 => ⟨S400000, .i1⟩
  | 55 => ⟨S_, .i32⟩
  | 56 => ⟨S400000, .i32⟩
  | 57 => ⟨S400000, .i32⟩
  | 58 => ⟨S400000, .i32⟩
  | 59 => ⟨S400000x1, .i32⟩
  | 60 => ⟨S400000x128, .f32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000x128, .f32⟩
  | 70 => ⟨S400000x128, .f32⟩
  | 71 => ⟨S_, .i32⟩
  | 72 => ⟨S400000, .i32⟩
  | 73 => ⟨S400000, .i1⟩
  | 74 => ⟨S_, .i32⟩
  | 75 => ⟨S400000, .i32⟩
  | 76 => ⟨S400000, .i32⟩
  | 77 => ⟨S400000, .i32⟩
  | 78 => ⟨S400000x1, .i32⟩
  | 79 => ⟨S400000x128, .f32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S400000x128, .f32⟩
  | 89 => ⟨S400000x128, .f32⟩
  | 90 => ⟨S400000x256, .f32⟩
  | 91 => ⟨S400000x128, .f32⟩
  | 92 => ⟨S1x128, .f32⟩
  | 93 => ⟨S400000x128, .f32⟩
  | 94 => ⟨S400000x128, .f32⟩
  | 95 => ⟨S_, .f32⟩
  | 96 => ⟨S400000x128, .f32⟩
  | 97 => ⟨S400000x128, .f32⟩
  | 98 => ⟨S400000x1, .f32⟩
  | 99 => ⟨S1x1, .f32⟩
  | 100 => ⟨S400000x1, .f32⟩
  | 101 => ⟨S400000x1, .f32⟩
  | 102 => ⟨S400000, .f32⟩
  | _ => ⟨S2x1000000, .i32⟩

abbrev hbmTy (i : Nat) : BufTy := match i / 128 with
  | 0 => hbmTy0_0 i
  | 1 => hbmTy0_1 i
  | _ => ⟨S2x1000000, .i32⟩

abbrev bufTy : (tb : Table) → Fin (tcTables nBuf tb) → BufTy
  | .hbm, ⟨i, _⟩ => hbmTy i
  | _, _ => ⟨S2x1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_c_7 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_8 : Ref sig .tc := ⟨.hbm, 60, rfl⟩
abbrev main_v34 : Ref sig .tc := ⟨.hbm, 61, rfl⟩
abbrev main_v35 : Ref sig .tc := ⟨.hbm, 62, rfl⟩
abbrev main_c_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call1_cst : Ref sig .tc := ⟨.hbm, 81, rfl⟩
abbrev main_call1_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call2_cst : Ref sig .tc := ⟨.hbm, 108, rfl⟩
abbrev main_call2_v0 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_call3_cst : Ref sig .tc := ⟨.hbm, 115, rfl⟩
abbrev main_call3_v0 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_14 : Ref sig .tc := ⟨.hbm, 125, rfl⟩
abbrev main_v87 : Ref sig .tc := ⟨.hbm, 126, rfl⟩
abbrev main_v88 : Ref sig .tc := ⟨.hbm, 127, rfl⟩
abbrev main_c_15 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_c_16 : Ref sig .tc := ⟨.hbm, 134, rfl⟩
abbrev main_v94 : Ref sig .tc := ⟨.hbm, 135, rfl⟩
abbrev main_v95 : Ref sig .tc := ⟨.hbm, 136, rfl⟩
abbrev main_c_17 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c_18 : Ref sig .tc := ⟨.hbm, 144, rfl⟩
abbrev main_v102 : Ref sig .tc := ⟨.hbm, 145, rfl⟩
abbrev main_v103 : Ref sig .tc := ⟨.hbm, 146, rfl⟩
abbrev main_c_19 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_c_20 : Ref sig .tc := ⟨.hbm, 153, rfl⟩
abbrev main_v109 : Ref sig .tc := ⟨.hbm, 154, rfl⟩
abbrev main_v110 : Ref sig .tc := ⟨.hbm, 155, rfl⟩
abbrev main_c_21 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_call4_cst : Ref sig .tc := ⟨.hbm, 168, rfl⟩
abbrev main_call4_v0 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_c_22 : Ref sig .tc := ⟨.hbm, 180, rfl⟩
abbrev main_v132 : Ref sig .tc := ⟨.hbm, 181, rfl⟩
abbrev main_v133 : Ref sig .tc := ⟨.hbm, 182, rfl⟩
abbrev main_c_23 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_c_24 : Ref sig .tc := ⟨.hbm, 189, rfl⟩
abbrev main_v139 : Ref sig .tc := ⟨.hbm, 190, rfl⟩
abbrev main_v140 : Ref sig .tc := ⟨.hbm, 191, rfl⟩
abbrev main_c_25 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_c_26 : Ref sig .tc := ⟨.hbm, 199, rfl⟩
abbrev main_v147 : Ref sig .tc := ⟨.hbm, 200, rfl⟩
abbrev main_v148 : Ref sig .tc := ⟨.hbm, 201, rfl⟩
abbrev main_c_27 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_c_28 : Ref sig .tc := ⟨.hbm, 208, rfl⟩
abbrev main_v154 : Ref sig .tc := ⟨.hbm, 209, rfl⟩
abbrev main_v155 : Ref sig .tc := ⟨.hbm, 210, rfl⟩
abbrev main_c_29 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_call5_cst : Ref sig .tc := ⟨.hbm, 223, rfl⟩
abbrev main_call5_v0 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S50000 : S_.BroadcastsInDim S50000 (![] : Fin 0 → Fin S50000.rank)
  bcast_S1000000_S1000000x1_0 : S1000000.BroadcastsInDim S1000000x1 (![0] : Fin 1 → Fin S1000000x1.rank)
  slices_S2x128x128_S1x128x128_0_0_0 : S2x128x128.Slices ![0, 0, 0] S1x128x128
  shapeCasts_S1x128x128_S128x128 : S1x128x128.ShapeCasts S128x128
  bcast_S1000000x1_S1000000x128_0_1 : S1000000x1.BroadcastsInDim S1000000x128 (![0, 1] : Fin 2 → Fin S1000000x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x128_S1x128x128_1_0_0 : S2x128x128.Slices ![1, 0, 0] S1x128x128
  slices_S2x128_S1x128_1_0 : S2x128.Slices ![1, 0] S1x128
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x256_d1 : Shape.Concatenates [S400000x128, S400000x128] S400000x256 1
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  scatter_S50000_S1000000x1_S1000000_n_0_0_1_wf : ScatterDims.WF S50000 S1000000x1 S1000000 [] [0] [0] 1
  gather_S50000_S1000000x1_S1000000_n_0_n_n_0_1_1_wf : GatherDims.WF S50000 S1000000x1 S1000000 [] [0] [] [0] [] 1 ![1]
  dot_S50000x128_S128x128_S50000x128_1_0_0_1_n_n_wf : DotDims.WF S50000x128 S128x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S50000x128_S1000000x1_S1000000x128_1_0_0_1_wf : ScatterDims.WF S50000x128 S1000000x1 S1000000x128 [1] [0] [0] 1
  dot_S50000x768_S768x128_S50000x128_1_0_0_1_n_n_wf : DotDims.WF S50000x768 S768x128 S50000x128 [1] [0] [0] [1] [] []
  gather_S50000x128_S400000x1_S400000x128_1_0_n_n_0_1_1128_wf : GatherDims.WF S50000x128 S400000x1 S400000x128 [1] [0] [] [0] [] 1 ![1, 128]
  dot_S400000x256_S256x128_S400000x128_1_0_0_1_n_n_wf : DotDims.WF S400000x256 S256x128 S400000x128 [1] [0] [0] [1] [] []
  dot_S400000x128_S128x1_S400000x1_1_0_0_1_n_n_wf : DotDims.WF S400000x128 S128x1 S400000x1 [1] [0] [0] [1] [] []

variable [Facts₀]

def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S50000x768_S768x128_S50000x128_1_0_0_1_n_n : DotDims S50000x768 S768x128 S50000x128 where
  lhsContracting := [1]
  rhsContracting := [0]
  lhsNonContracting := [0]
  rhsNonContracting := [1]
  lhsBatch := []
  rhsBatch := []
  wf := dot_S50000x768_S768x128_S50000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf

class Facts : Prop extends Facts₀ where

variable [Facts]
-- ==== Proof.Spec.lean ====
/-
  What each piece of the link-prediction network computes, element by element, on the extended reals.

  A graph of 50000 nodes and 1000000 directed edges (source row, destination column).  Two graph-convolution
  layers with the symmetric normalization d(src)·d(dst), d = 1/sqrt(max(deg, 1)) on nodes of positive in-degree
  and 0 elsewhere; a dense projection of the chemistry features, masked; and a two-layer decoder over pairs of
  nodes.  One arrangement scales by d(src) before aggregating and by d(dst) after (the per-node factoring);
  the other multiplies every edge's message by the product d(src)·d(dst).  Both are spelt here over the same
  index data so that their equality is a statement about sums.
-/
import Idealize.ShloMosaic.PureOps.Ideal
import Idealize.ShloMosaic.Lib.ValueIdx

noncomputable section

open scoped BigOperators

namespace Cert.LinkPred

open Idealize.ShloMosaic Idealize.ShloMosaic.ValueIdx

/-- An array of extended reals of a given shape. -/
abbrev Arr (s : Shape) : Type := s.Idx → EReal

/-! ## The dense blocks -/

/-- A projection followed by the per-node scale: (z·W)(n, j) · d(n). -/
def lin (z : Arr ⟨2, ![50000, 128]⟩) (w : Arr ⟨2, ![128, 128]⟩) (d : Arr ⟨2, ![50000, 1]⟩) : Arr ⟨2, ![50000, 128]⟩ :=
  fun i => (∑ k : Fin 128, z (ix2 (i 0) k) * w (ix2 k (i 1))) * d (ix2 (i 0) (0 : Fin 1))

/-- The destination-side scale, the bias and the rectifier: max(agg(n, j) · d(n) + b(j), 0). -/
def epi (agg : Arr ⟨2, ![50000, 128]⟩) (d : Arr ⟨2, ![50000, 1]⟩) (b : Arr ⟨1, ![128]⟩) : Arr ⟨2, ![50000, 128]⟩ :=
  fun i => max (agg i * d (ix2 (i 0) (0 : Fin 1)) + b (ix1 (i 1))) 0

/-- The previous layer's closing step fused in front of the next layer's projection. -/
def linEpi (agg : Arr ⟨2, ![50000, 128]⟩) (d : Arr ⟨2, ![50000, 1]⟩) (b : Arr ⟨1, ![128]⟩) (w : Arr ⟨2, ![128, 128]⟩) :
    Arr ⟨2, ![50000, 128]⟩ :=
  lin (epi agg d b) w d

/-- The chemistry projection: max((x·W)(n, j) + b(j), 0) · mask(n). -/
def chem (x : Arr ⟨2, ![50000, 768]⟩) (w : Arr ⟨2, ![768, 128]⟩) (b : Arr ⟨1, ![128]⟩) (mk : Arr ⟨2, ![50000, 1]⟩) :
    Arr ⟨2, ![50000, 128]⟩ :=
  fun i => max ((∑ k : Fin 768, x (ix2 (i 0) k) * w (ix2 k (i 1))) + b (ix1 (i 1))) 0 * mk (ix2 (i 0) (0 : Fin 1))

/-- The decoder's hidden layer over the two halves of its input: max(zp·W1z + cp·W1c + b1, 0). -/
def hid (zp cp : Arr ⟨2, ![400000, 128]⟩) (w1z w1c : Arr ⟨2, ![128, 128]⟩) (b1 : Arr ⟨1, ![128]⟩) : Arr ⟨2, ![400000, 128]⟩ :=
  fun i => max (((∑ k : Fin 128, zp (ix2 (i 0) k) * w1z (ix2 k (i 1))) + (∑ k : Fin 128, cp (ix2 (i 0) k) * w1c (ix2 k (i 1))))
    + b1 (ix1 (i 1))) 0

/-- The decoder, its last layer widened to eight columns: hid·W2 + b2. -/
def dec (zp cp : Arr ⟨2, ![400000, 128]⟩) (w1z w1c : Arr ⟨2, ![128, 128]⟩) (b1 : Arr ⟨1, ![128]⟩) (w2 : Arr ⟨2, ![128, 8]⟩)
    (b2 : Arr ⟨1, ![8]⟩) : Arr ⟨2, ![400000, 8]⟩ :=
  fun i => (∑ k : Fin 128, hid zp cp w1z w1c b1 (ix2 (i 0) k) * w2 (ix2 k (i 1))) + b2 (ix1 (i 1))

/-! ## Index data -/

/-- The node a start word selects when rows are gathered: the word read signed, clamped into the node range. -/
def node (w : BitVec 32) : Fin 50000 := ⟨min w.toInt.toNat 49999, by omega⟩

/-- A negative word counts from the end. -/
def wrap (w : BitVec 32) : BitVec 32 := if w.slt 0#32 then w + 50000#32 else w

/-- The edges whose destination word, read signed, is node n (a word out of range names no node). -/
def hit (cI : IVec ⟨2, ![1000000, 1]⟩ 32) (n : Fin 50000) : Finset (Fin 1000000) :=
  Finset.univ.filter fun e => (cI (ix2 e (0 : Fin 1))).toInt = (n.val : Int)

/-! ## The aggregation, in its two arrangements -/

/-- Summing the source rows of the edges that arrive at a node (from a zero start). -/
def aggK (rI cI : IVec ⟨2, ![1000000, 1]⟩ 32) (h : Arr ⟨2, ![50000, 128]⟩) : Arr ⟨2, ![50000, 128]⟩ :=
  fun i => 0 + ∑ e ∈ hit cI (i 0), h (ix2 (node (rI (ix2 e (0 : Fin 1)))) (i 1))

/-- The per-edge weight d(src)·d(dst), both ends gathered. -/
def nrm (rI cnI : IVec ⟨2, ![1000000, 1]⟩ 32) (d : Arr ⟨1, ![50000]⟩) (e : Fin 1000000) : EReal :=
  d (ix1 (node (rI (ix2 e (0 : Fin 1))))) * d (ix1 (node (cnI (ix2 e (0 : Fin 1)))))

/-- Summing the weighted source rows of the edges that arrive at a node. -/
def aggR (rI cI cnI : IVec ⟨2, ![1000000, 1]⟩ 32) (d : Arr ⟨1, ![50000]⟩) (h : Arr ⟨2, ![50000, 128]⟩) : Arr ⟨2, ![50000, 128]⟩ :=
  fun i => 0 + ∑ e ∈ hit cI (i 0), h (ix2 (node (rI (ix2 e (0 : Fin 1)))) (i 1)) * nrm rI cnI d e

/-- A plain projection (z·W)(n, j). -/
def mm (z : Arr ⟨2, ![50000, 128]⟩) (w : Arr ⟨2, ![128, 128]⟩) : Arr ⟨2, ![50000, 128]⟩ :=
  fun i => ∑ k : Fin 128, z (ix2 (i 0) k) * w (ix2 k (i 1))

/-- Bias and rectifier: max(a(n, j) + b(j), 0). -/
def biasRelu (a : Arr ⟨2, ![50000, 128]⟩) (b : Arr ⟨1, ![128]⟩) : Arr ⟨2, ![50000, 128]⟩ :=
  fun i => max (a i + b (ix1 (i 1))) 0

/-- The node vector d as a column. -/
def col (d : Arr ⟨1, ![50000]⟩) : Arr ⟨2, ![50000, 1]⟩ := fun i => d (ix1 (i 0))

/-- The chemistry projection with the mask given as a vector. -/
def chemR (x : Arr ⟨2, ![50000, 768]⟩) (w : Arr ⟨2, ![768, 128]⟩) (b : Arr ⟨1, ![128]⟩) (mk : Arr ⟨1, ![50000]⟩) : Arr ⟨2, ![50000, 128]⟩ :=
  fun i => max ((∑ k : Fin 768, x (ix2 (i 0) k) * w (ix2 k (i 1))) + b (ix1 (i 1))) 0 * mk (ix1 (i 0))

/-! ## The decoder's input and its two spellings -/

/-- The elementwise product of the rows of two gathered nodes. -/
def pairs (sI dI : IVec ⟨2, ![400000, 1]⟩ 32) (z : Arr ⟨2, ![50000, 128]⟩) : Arr ⟨2, ![400000, 128]⟩ :=
  fun i => z (ix2 (node (sI (ix2 (i 0) (0 : Fin 1)))) (i 1)) * z (ix2 (node (dI (ix2 (i 0) (0 : Fin 1)))) (i 1))

/-- Two blocks of 128 columns side by side. -/
def cat (a b : Arr ⟨2, ![400000, 128]⟩) : Arr ⟨2, ![400000, 256]⟩ :=
  fun i => if h : (i 1).val < 128 then a (ix2 (i 0) ⟨(i 1).val, h⟩) else b (ix2 (i 0) ⟨(i 1).val - 128, by have h256 : (i 1).val < 256 := (i 1).isLt; omega⟩)

/-- The decoder over the concatenated input with the undivided first weight and a one-column last layer. -/
def decR (zp cp : Arr ⟨2, ![400000, 128]⟩) (w1 : Arr ⟨2, ![256, 128]⟩) (b1 : Arr ⟨1, ![128]⟩) (w2 : Arr ⟨2, ![128, 1]⟩)
    (b2 : Arr ⟨1, ![1]⟩) : Arr ⟨1, ![400000]⟩ :=
  fun i => (∑ k : Fin 128, max ((∑ j : Fin 256, cat zp cp (ix2 (i 0) j) * w1 (ix2 j k)) + b1 (ix1 k)) 0 * w2 (ix2 k (0 : Fin 1)))
    + b2 (ix1 (0 : Fin 1))

/-- The upper and lower halves of the first decoder weight. -/
def top (w1 : Arr ⟨2, ![256, 128]⟩) : Arr ⟨2, ![128, 128]⟩ := fun i => w1 (ix2 ⟨(i 0).val, by have h128 : (i 0).val < 128 := (i 0).isLt; omega⟩ (i 1))
def bot (w1 : Arr ⟨2, ![256, 128]⟩) : Arr ⟨2, ![128, 128]⟩ := fun i => w1 (ix2 ⟨(i 0).val + 128, by have h128 : (i 0).val < 128 := (i 0).isLt; omega⟩ (i 1))

/-- The last layer's weight and bias widened with zero columns. -/
def pad8w (w2 : Arr ⟨2, ![128, 1]⟩) : Arr ⟨2, ![128, 8]⟩ := fun i => if (i 1).val = 0 then w2 (ix2 (i 0) (0 : Fin 1)) else 0
def pad8b (b2 : Arr ⟨1, ![1]⟩) : Arr ⟨1, ![8]⟩ := fun i => if (i 0).val = 0 then b2 (ix1 (0 : Fin 1)) else 0

/-- Column 0 of the widened decoder. -/
def col0 (o : Arr ⟨2, ![400000, 8]⟩) : Arr ⟨1, ![400000]⟩ := fun i => o (ix2 (i 0) (0 : Fin 8))

/-! ## The two programs, composed

  The index columns (rI: source rows, wrapped; cI: destination words as given; cnI: destination words wrapped;
  sI, dI: the pair lists' two columns, wrapped), the node vector dv, and the slices of the weights are parameters:
  both programs compute them by the same operations, and only two facts about them are used — dv is a nonnegative real
  at every node, and cnI is cI wrapped. -/

/-- The per-node factoring: scale by d at the source inside each projection, by d at the destination in the closing
    step; the decoder over the two halves with its last layer widened, column 0 kept. -/
def kOut (rI cI : IVec ⟨2, ![1000000, 1]⟩ 32) (dv : Arr ⟨1, ![50000]⟩)
    (emb : Arr ⟨2, ![50000, 128]⟩) (w0 : Arr ⟨2, ![128, 128]⟩) (b0 : Arr ⟨1, ![128]⟩) (w1 : Arr ⟨2, ![128, 128]⟩) (b1 : Arr ⟨1, ![128]⟩)
    (x : Arr ⟨2, ![50000, 768]⟩) (cw : Arr ⟨2, ![768, 128]⟩) (cb : Arr ⟨1, ![128]⟩) (mk : Arr ⟨1, ![50000]⟩)
    (sI dI : IVec ⟨2, ![400000, 1]⟩ 32)
    (dw1 : Arr ⟨2, ![256, 128]⟩) (db1 : Arr ⟨1, ![128]⟩) (dw2 : Arr ⟨2, ![128, 1]⟩) (db2 : Arr ⟨1, ![1]⟩) : Arr ⟨1, ![400000]⟩ :=
  col0 (dec (pairs sI dI (epi (aggK rI cI (linEpi (aggK rI cI (lin emb w0 (col dv))) (col dv) b0 w1)) (col dv) b1))
    (pairs sI dI (chem x cw cb (col mk))) (top dw1) (bot dw1) db1 (pad8w dw2) (pad8b db2))

/-- The per-edge weighting, the decoder over the concatenated input. -/
def rOut (rI cI cnI : IVec ⟨2, ![1000000, 1]⟩ 32) (dv : Arr ⟨1, ![50000]⟩)
    (emb : Arr ⟨2, ![50000, 128]⟩) (w0 : Arr ⟨2, ![128, 128]⟩) (b0 : Arr ⟨1, ![128]⟩) (w1 : Arr ⟨2, ![128, 128]⟩) (b1 : Arr ⟨1, ![128]⟩)
    (x : Arr ⟨2, ![50000, 768]⟩) (cw : Arr ⟨2, ![768, 128]⟩) (cb : Arr ⟨1, ![128]⟩) (mk : Arr ⟨1, ![50000]⟩)
    (sI dI : IVec ⟨2, ![400000, 1]⟩ 32)
    (dw1 : Arr ⟨2, ![256, 128]⟩) (db1 : Arr ⟨1, ![128]⟩) (dw2 : Arr ⟨2, ![128, 1]⟩) (db2 : Arr ⟨1, ![1]⟩) : Arr ⟨1, ![400000]⟩ :=
  decR (pairs sI dI (biasRelu (aggR rI cI cnI dv (mm (biasRelu (aggR rI cI cnI dv (mm emb w0)) b0) w1)) b1))
    (pairs sI dI (chemR x cw cb mk)) dw1 db1 dw2 db2

end Cert.LinkPred

end
-- ==== Proof.Bridge.lean ====
/-
  The two arrangements of the network agree.

  Per node n the scale d(n) is a nonnegative real, so it may be moved across the sum over the edges arriving at n:
    (0 + ∑ₑ a(e)·d(src e)) · d(n) = 0 + ∑ₑ a(e)·(d(src e)·d(n)),
  and every edge arriving at n has n as the node its wrapped destination word selects.  The decoder's first layer
  over the concatenated input is the sum of the two half products, and the widened last layer's column 0 is the
  one-column layer.  No finiteness of any array is used.
-/
import proofs.«100846_j62912680952407_2_alg».proof.Proof.Spec

noncomputable section

open scoped BigOperators

namespace Cert.LinkPred

open Idealize.ShloMosaic Idealize.ShloMosaic.ValueIdx

/-- A nonnegative real factor distributes over a finite sum of extended reals. -/
theorem sum_mul_real {ι : Type} (s : Finset ι) (f : ι → EReal) (D : EReal) (h0 : 0 ≤ D) (ht : D ≠ ⊤) :
    (∑ e ∈ s, f e) * D = ∑ e ∈ s, f e * D := by
  classical
  induction s using Finset.induction_on with
  | empty => simp
  | insert a s ha ih =>
    rw [Finset.sum_insert ha, Finset.sum_insert ha, EReal.right_distrib_of_nonneg_of_ne_top h0 ht, ih]

/-- A destination word that names node n selects n again after wrapping and clamping. -/
theorem node_wrap_of_hit (w : BitVec 32) (n : Fin 50000) (h : w.toInt = (n.val : Int)) : node (wrap w) = n := by
  have hn : n.val < 50000 := n.isLt
  have hns : ¬ w.slt 0#32 = true := by
    rw [BitVec.slt]
    simp only [BitVec.toInt_zero, decide_eq_true_eq]
    omega
  unfold wrap
  rw [if_neg hns]
  unfold node
  apply Fin.ext
  show min w.toInt.toNat 49999 = n.val
  rw [h]
  omega

section Layer
variable (rI cI cnI : IVec ⟨2, ![1000000, 1]⟩ 32) (dv : Arr ⟨1, ![50000]⟩)
variable (hd : ∀ n, 0 ≤ dv n ∧ dv n ≠ ⊤)
variable (hcn : ∀ e : Fin 1000000, cnI (ix2 e (0 : Fin 1)) = wrap (cI (ix2 e (0 : Fin 1))))
include hd hcn

/-- One layer: scaling at the source inside the projection and at the destination afterwards is weighting every
    edge by the product of the two scales. -/
theorem layer (x : Arr ⟨2, ![50000, 128]⟩) (w : Arr ⟨2, ![128, 128]⟩) (b : Arr ⟨1, ![128]⟩) :
    epi (aggK rI cI (lin x w (col dv))) (col dv) b = biasRelu (aggR rI cI cnI dv (mm x w)) b := by
  funext i
  obtain ⟨h0, ht⟩ := hd (ix1 (i 0))
  suffices key : aggK rI cI (lin x w (col dv)) i * dv (ix1 (i 0)) = aggR rI cI cnI dv (mm x w) i from
    congrArg (fun t => max (t + b (ix1 (i 1))) 0) key
  unfold aggK aggR
  rw [EReal.right_distrib_of_nonneg_of_ne_top h0 ht, zero_mul, sum_mul_real _ _ _ h0 ht]
  refine congrArg (fun t => (0 : EReal) + t) ?_
  refine Finset.sum_congr rfl fun e he => ?_
  have hw : (cI (ix2 e (0 : Fin 1))).toInt = ((i 0).val : Int) := (Finset.mem_filter.mp he).2
  have hnode : node (cnI (ix2 e (0 : Fin 1))) = i 0 := by rw [hcn e]; exact node_wrap_of_hit _ _ hw
  show mm x w (ix2 (node (rI (ix2 e (0 : Fin 1)))) (i 1)) * dv (ix1 (node (rI (ix2 e (0 : Fin 1))))) * dv (ix1 (i 0))
    = mm x w (ix2 (node (rI (ix2 e (0 : Fin 1)))) (i 1)) * nrm rI cnI dv e
  unfold nrm
  rw [hnode, mul_assoc]

/-- The graph encoder: two layers in either arrangement. -/
theorem encoder (emb : Arr ⟨2, ![50000, 128]⟩) (w0 : Arr ⟨2, ![128, 128]⟩) (b0 : Arr ⟨1, ![128]⟩) (w1 : Arr ⟨2, ![128, 128]⟩)
    (b1 : Arr ⟨1, ![128]⟩) :
    epi (aggK rI cI (linEpi (aggK rI cI (lin emb w0 (col dv))) (col dv) b0 w1)) (col dv) b1
      = biasRelu (aggR rI cI cnI dv (mm (biasRelu (aggR rI cI cnI dv (mm emb w0)) b0) w1)) b1 := by
  unfold linEpi
  rw [layer rI cI cnI dv hd hcn emb w0 b0, layer rI cI cnI dv hd hcn _ w1 b1]

end Layer

/-- The mask as a column or as a vector. -/
theorem chem_col (x : Arr ⟨2, ![50000, 768]⟩) (w : Arr ⟨2, ![768, 128]⟩) (b : Arr ⟨1, ![128]⟩) (mk : Arr ⟨1, ![50000]⟩) :
    chem x w b (col mk) = chemR x w b mk := rfl

/-! ## The decoder -/

/-- The first 128 joined columns are the first block. -/
theorem cat_lo (zp cp : Arr ⟨2, ![400000, 128]⟩) (r : Fin 400000) (j : Fin 128) :
    cat zp cp (ix2 r (Fin.castAdd 128 j)) = zp (ix2 r j) := by
  have hj : j.val < 128 := j.isLt
  unfold cat
  exact dif_pos hj

/-- The last 128 joined columns are the second block. -/
theorem cat_hi (zp cp : Arr ⟨2, ![400000, 128]⟩) (r : Fin 400000) (j : Fin 128) :
    cat zp cp (ix2 r (Fin.natAdd 128 j)) = cp (ix2 r j) := by
  have hj : j.val < 128 := j.isLt
  have hlt : ¬ (128 + j.val < 128) := by omega
  unfold cat
  refine (dif_neg hlt).trans ?_
  exact congrArg cp (congrArg (ix2 r) (Fin.ext (by show 128 + j.val - 128 = j.val; omega)))

/-- The upper half of the first decoder weight, row by row. -/
theorem top_at (w1 : Arr ⟨2, ![256, 128]⟩) (j k : Fin 128) : top w1 (ix2 j k) = w1 (ix2 (Fin.castAdd 128 j) k) := rfl

/-- The lower half of the first decoder weight, row by row. -/
theorem bot_at (w1 : Arr ⟨2, ![256, 128]⟩) (j k : Fin 128) : bot w1 (ix2 j k) = w1 (ix2 (Fin.natAdd 128 j) k) := by
  unfold bot
  exact congrArg w1 (congrArg (fun a => ix2 a k) (Fin.ext (by show j.val + 128 = 128 + j.val; omega)))

/-- A sum over the 256 joined columns is the sum over the first block plus the sum over the second. -/
theorem sum_cat (zp cp : Arr ⟨2, ![400000, 128]⟩) (w1 : Arr ⟨2, ![256, 128]⟩) (r : Fin 400000) (k : Fin 128) :
    ∑ j : Fin 256, cat zp cp (ix2 r j) * w1 (ix2 j k)
      = (∑ j : Fin 128, zp (ix2 r j) * top w1 (ix2 j k)) + ∑ j : Fin 128, cp (ix2 r j) * bot w1 (ix2 j k) := by
  refine (Fin.sum_univ_add (fun j : Fin (128 + 128) => cat zp cp (ix2 r j) * w1 (ix2 j k))).trans ?_
  refine congrArg₂ (· + ·) (Finset.sum_congr rfl fun j _ => ?_) (Finset.sum_congr rfl fun j _ => ?_)
  · show cat zp cp (ix2 r (Fin.castAdd 128 j)) * w1 (ix2 (Fin.castAdd 128 j) k) = _
    rw [cat_lo, top_at]
  · show cat zp cp (ix2 r (Fin.natAdd 128 j)) * w1 (ix2 (Fin.natAdd 128 j) k) = _
    rw [cat_hi, bot_at]

/-- The decoder over the two halves with its last layer widened, read at column 0, is the decoder over the
    concatenated input with the one-column last layer. -/
theorem decoder (zp cp : Arr ⟨2, ![400000, 128]⟩) (w1 : Arr ⟨2, ![256, 128]⟩) (b1 : Arr ⟨1, ![128]⟩) (w2 : Arr ⟨2, ![128, 1]⟩)
    (b2 : Arr ⟨1, ![1]⟩) :
    col0 (dec zp cp (top w1) (bot w1) b1 (pad8w w2) (pad8b b2)) = decR zp cp w1 b1 w2 b2 := by
  funext i
  show (∑ k : Fin 128, hid zp cp (top w1) (bot w1) b1 (ix2 (i 0) k) * pad8w w2 (ix2 k (0 : Fin 8))) + pad8b b2 (ix1 (0 : Fin 8))
    = (∑ k : Fin 128, max ((∑ j : Fin 256, cat zp cp (ix2 (i 0) j) * w1 (ix2 j k)) + b1 (ix1 k)) 0 * w2 (ix2 k (0 : Fin 1)))
      + b2 (ix1 (0 : Fin 1))
  have hb : pad8b b2 (ix1 (0 : Fin 8)) = b2 (ix1 (0 : Fin 1)) := if_pos rfl
  rw [hb]
  refine congrArg (fun t => t + b2 (ix1 (0 : Fin 1))) (Finset.sum_congr rfl fun k _ => ?_)
  have hw : pad8w w2 (ix2 k (0 : Fin 8)) = w2 (ix2 k (0 : Fin 1)) := if_pos rfl
  rw [hw]
  refine congrArg (fun t => t * w2 (ix2 k (0 : Fin 1))) ?_
  exact congrArg (fun t => max (t + b1 (ix1 k)) 0) (sum_cat zp cp w1 (i 0) k).symm

/-! ## The whole network -/

/-- The per-node factoring with the split, widened decoder computes what the per-edge weighting with the concatenated
    decoder computes, given that the node scale is a nonnegative real and that the wrapped destination column is the
    destination column wrapped. -/
theorem kOut_eq_rOut (rI cI cnI : IVec ⟨2, ![1000000, 1]⟩ 32) (dv : Arr ⟨1, ![50000]⟩)
    (hd : ∀ n, 0 ≤ dv n ∧ dv n ≠ ⊤)
    (hcn : ∀ e : Fin 1000000, cnI (ix2 e (0 : Fin 1)) = wrap (cI (ix2 e (0 : Fin 1))))
    (emb : Arr ⟨2, ![50000, 128]⟩) (w0 : Arr ⟨2, ![128, 128]⟩) (b0 : Arr ⟨1, ![128]⟩) (w1 : Arr ⟨2, ![128, 128]⟩) (b1 : Arr ⟨1, ![128]⟩)
    (x : Arr ⟨2, ![50000, 768]⟩) (cw : Arr ⟨2, ![768, 128]⟩) (cb : Arr ⟨1, ![128]⟩) (mk : Arr ⟨1, ![50000]⟩)
    (sI dI : IVec ⟨2, ![400000, 1]⟩ 32)
    (dw1 : Arr ⟨2, ![256, 128]⟩) (db1 : Arr ⟨1, ![128]⟩) (dw2 : Arr ⟨2, ![128, 1]⟩) (db2 : Arr ⟨1, ![1]⟩) :
    kOut rI cI dv emb w0 b0 w1 b1 x cw cb mk sI dI dw1 db1 dw2 db2
      = rOut rI cI cnI dv emb w0 b0 w1 b1 x cw cb mk sI dI dw1 db1 dw2 db2 := by
  unfold kOut rOut
  rw [encoder rI cI cnI dv hd hcn emb w0 b0 w1 b1, chem_col, decoder]

end Cert.LinkPred

end
-- ==== Proof.KRun.lean ====
/-
  The idealized kernel's whole run with its two results named.

  Every weakly fair execution of the program terminates without a fault; afterwards each of the two result arrays
  holds what the last stretch of host operations leaves in it — the contents at the final boundary of the fold
  through the program's segments — and every argument array is as launched.
-/
import proofs.«100846_j62912680952407_2_alg».proof.Proof.Gen.KernelIdeal.Frame

set_option maxRecDepth 16384

noncomputable section

namespace Cert.LinkPred.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault, the two result arrays at the last boundary's contents, the arguments
    unchanged.  The launch over the program's segments is the one the frame uses; what is read off the final thread
    state here is, besides the arguments, the two result buffers. -/
theorem run_results : θ_run defs (onTc (τ := τ) (main (F := F))) ⟨m, fun _ => 0, ρ⟩ (fun r => ∀ c : Dev nD,
      r.2.mem ((c.tc : Thread nD τ).loc main_v90) = W19 m ρ c (Proc.devRef .tc main_v90)
      ∧ r.2.mem ((c.tc : Thread nD τ).loc main_v127) = W19 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v90 (by decide)), h c _ (mem_uc main_v127 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c)⟩)

end Cert.LinkPred.KRun

end
-- ==== Proof.KHead.lean ====
/-
  The idealized kernel's two results as the specification's per-node arrangement of the argument arrays.

  The program is a fold through nineteen segments: stretches of host operations and six blocks.  Read backwards from
  a result: the last stretch keeps column 0 of the decoder block's output; the decoder block's inputs are products of
  gathered rows of the encoder's and the chemistry block's outputs; the encoder is two rounds of gather, scatter-add
  and a dense block.  The index columns, the node scale and the weight slices are named here as the host operations
  spell them; a buffer no later segment writes keeps its contents across that segment.
-/
import proofs.«100846_j62912680952407_2_alg».proof.Proof.Gen.KernelIdeal.Frame
import proofs.«100846_j62912680952407_2_alg».proof.Proof.Spec
import Idealize.ShloMosaic.PureOps.Ideal

set_option maxRecDepth 16384

noncomputable section

namespace Cert.LinkPred.K

open Cert.KernelIdeal Cert.KernelIdeal.Gen Cert.LinkPred
open Idealize.ShloMosaic Idealize.ShloMosaic.TcCoe Idealize.SL.Sem Idealize.ShloMosaic.StableHlo
open Idealize.ShloMosaic.Pipeline (Dat)

/-! ## The index columns, the node scale and the weight slices, as the host operations spell them -/

/-- The source words and the destination words of the edge list. -/
def rowW (a0 : IVec S2x1000000 32) : IVec S1000000 32 :=
  shapeCast S1000000 (extractStridedSlice S1x1000000 ![0, 0] a0 slices_S2x1000000_S1x1000000_0_0) shapeCasts_S1x1000000_S1000000
def colW (a0 : IVec S2x1000000 32) : IVec S1000000 32 :=
  shapeCast S1000000 (extractStridedSlice S1x1000000 ![1, 0] a0 slices_S2x1000000_S1x1000000_1_0) shapeCasts_S1x1000000_S1000000

/-- A word vector wrapped (a negative word counts from the end) and set as a column. -/
def wrapCol (v : IVec S1000000 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 50000#32))) v)

def rI (a0 : IVec S2x1000000 32) : IVec S1000000x1 32 := wrapCol (rowW a0)
def cI (a0 : IVec S2x1000000 32) : IVec S1000000x1 32 := broadcastInDim S1000000x1 ![0] bcast_S1000000_S1000000x1_0 (colW a0)

/-- The in-degree: ones scattered onto the destination nodes. -/
def deg (a0 : IVec S2x1000000 32) : FVec Ideal S50000 .f32 :=
  Host.scatterAdd scatter_S50000_S1000000x1_S1000000_n_0_0_1 (broadcastInDim S50000 ![] bcast_S_S50000 (constant S_ .f32 0x00000000#32))
    (cI a0) (broadcastInDim S1000000 ![] bcast_S_S1000000 (constant S_ .f32 0x3F800000#32))

/-- The node scale: 1/sqrt(max(deg, 1)) where deg > 0, else 0. -/
def dv (a0 : IVec S2x1000000 32) : FVec Ideal S50000 .f32 :=
  select (cmpf .ogt (deg a0) (broadcastInDim S50000 ![] bcast_S_S50000 (constant S_ .f32 0x00000000#32)))
    (Host.divf (broadcastInDim S50000 ![] bcast_S_S50000 (constant S_ .f32 0x3F800000#32))
      (Host.sqrt (maximumf (deg a0) (broadcastInDim S50000 ![] bcast_S_S50000 (constant S_ .f32 0x3F800000#32)))))
    (broadcastInDim S50000 ![] bcast_S_S50000 (constant S_ .f32 0x00000000#32))

/-- The two layers' weights and biases. -/
def w0 (a6 : FVec Ideal S2x128x128 .f32) : FVec Ideal S128x128 .f32 :=
  shapeCast S128x128 (extractStridedSlice S1x128x128 ![0, 0, 0] a6 slices_S2x128x128_S1x128x128_0_0_0) shapeCasts_S1x128x128_S128x128
def w1 (a6 : FVec Ideal S2x128x128 .f32) : FVec Ideal S128x128 .f32 :=
  shapeCast S128x128 (extractStridedSlice S1x128x128 ![1, 0, 0] a6 slices_S2x128x128_S1x128x128_1_0_0) shapeCasts_S1x128x128_S128x128
def b0 (a7 : FVec Ideal S2x128 .f32) : FVec Ideal S128 .f32 :=
  shapeCast S128 (extractStridedSlice S1x128 ![0, 0] a7 slices_S2x128_S1x128_0_0) shapeCasts_S1x128_S128
def b1 (a7 : FVec Ideal S2x128 .f32) : FVec Ideal S128 .f32 :=
  shapeCast S128 (extractStridedSlice S1x128 ![1, 0] a7 slices_S2x128_S1x128_1_0) shapeCasts_S1x128_S128

variable (m : (ℓ : Loc nD τ sig) → Buf (Elt Ideal) ℓ) (ρ : Dev nD → PrngReg) (c : Dev nD)

/-- Gathering the source rows and scatter-adding them onto the destination nodes, from a zero start. -/
def agg (a0 : IVec S2x1000000 32) (h : FVec Ideal S50000x128 .f32) : FVec Ideal S50000x128 .f32 :=
  Host.scatterAdd scatter_S50000x128_S1000000x1_S1000000x128_1_0_0_1
    (broadcastInDim S50000x128 ![] bcast_S_S50000x128 (constant S_ .f32 0x00000000#32)) (cI a0)
    (Host.gather gather_S50000x128_S1000000x1_S1000000x128_1_0_n_n_0_1_1128 h (rI a0))

/-- The node scale as a column. -/
def dcol (a0 : IVec S2x1000000 32) : FVec Ideal S50000x1 .f32 := shapeCast S50000x1 (dv a0) shapeCasts_S50000_S50000x1

/-! ## Buffers that later segments do not write keep their contents

  One equation per boundary and buffer: a stretch of host operations that does not write the buffer, or a block that
  does not stage it, leaves it as it was.  Each stretch is evaluated over whatever the buffers held before it. -/

set_option maxHeartbeats 4000000 in
theorem a3_arg5 : W3 (F := Ideal) m ρ c (Proc.devRef .tc main_arg5) = m ((c : Thread nD τ).loc main_arg5) := by
  dsimp only [W3]; generalize hV : W2 (F := Ideal) m ρ c = V; simp only [hostOps0_2, List.flatten_cons, List.flatten_nil, List.append_nil, List.cons_append, List.nil_append]; after_results_simp; all_goals subst hV
  all_goals (dsimp only [W2]; generalize hV : W1 (F := Ideal) m ρ c = V; simp only [hostOps0_1, List.flatten_cons, List.flatten_nil, List.append_nil, List.cons_append, List.nil_append]; after_results_simp; all_goals subst hV)
  all_goals (dsimp only [W1]; generalize hV : W0 (F := Ideal) m ρ c = V; simp only [hostOps0, List.flatten_cons, List.flatten_nil, List.append_nil, List.cons_append, List.nil_append]; after_results_simp; all_goals subst hV)
  all_goals rfl
set_option maxHeartbeats 4000000 in
theorem a3_arg6 : W3 (F := Ideal) m ρ c (Proc.devRef .tc main_arg6) = m ((c : Thread nD τ).loc main_arg6) := by
  dsimp only [W3]; generalize hV : W2 (F := Ideal) m ρ c = V; simp only [hostOps0_2, List.flatten_cons, List.flatten_nil, List.append_nil, List.cons_append, List.nil_append]; after_results_simp; all_goals subst hV
  all_goals (dsimp only [W2]; generalize hV : W1 (F := Ideal) m ρ c = V; simp only [hostOps0_1, List.flatten_cons, List.flatten_nil, List.append_nil, List.cons_append, List.nil_append]; after_results_simp; all_goals subst hV)
  all_goals (dsimp only [W1]; generalize hV : W0 (F := Ideal) m ρ c = V; simp only [hostOps0, List.flatten_cons, List.flatten_nil, List.append_nil, List.cons_append, List.nil_append]; after_results_simp; all_goals subst hV)
  all_goals rfl
theorem a4_arg6 : W4 (F := Ideal) m ρ c (Proc.devRef .tc main_arg6) = m ((c : Thread nD τ).loc main_arg6) := (W4_of_ne m ρ c main_arg6 (by decide)).trans (a3_arg6 m ρ c)
set_option maxHeartbeats 4000000 in
theorem a3_arg7 : W3 (F := Ideal) m ρ c (Proc.devRef .tc main_arg7) = m ((c : Thread nD τ).loc main_arg7) := by
  dsimp only [W3]; generalize hV : W2 (F := Ideal) m ρ c = V; simp only [hostOps0_2, List.flatten_cons, List.flatten_nil, List.append_nil, List.cons_append, List.nil_append]; after_results_simp; all_goals subst hV
  all_goals (dsimp only [W2]; generalize hV : W1 (F := Ideal) m ρ c = V; simp only [hostOps0_1, List.flatten_cons, List.flatten_nil, List.append_nil, List.cons_append, List.nil_append]; after_results_simp; all_goals subst hV)
  all_goals (dsimp only [W1]; generalize hV : W0 (F := Ideal) m ρ c = V; simp only [hostOps0, List.flatten_cons, List.flatten_nil, List.append_nil, List.cons_append, List.nil_append]; after_results_simp; all_goals subst hV)
  all_goals rfl
theorem a4_arg7 : W4 (F := Ideal) m ρ c (Proc.devRef .tc main_arg7) = m ((c : Thread nD τ).loc main_arg7) := (W4_of_ne m ρ c main_arg7 (by decide)).trans (a3_arg7 m ρ c)
set_option maxHeartbeats 4000000 in
theorem a5_arg7 : W5 (F := Ideal) m ρ c (Proc.devRef .tc main_arg7) = m ((c : Thread nD τ).loc main_arg7) := by
  dsimp only [W5]; generalize hV : W4 (F := Ideal) m ρ c = V; simp only [hostOps1, List.flatten_cons, List.flatten_nil, List.append_nil, List.cons_append, List.nil_append]; after_results_simp; all_goals subst hV
  all_goals exact a4_arg7 m ρ c
theorem a6_arg7 : W6 (F := Ideal) m ρ c (Proc.devRef .tc main_arg7) = m ((c : Thread nD τ).loc main_arg7) := (W6_of_ne m ρ c main_arg7 (by decide)).trans (a5_arg7 m ρ c)
set_option maxHeartbeats 4000000 in
theorem a3_arg4 : W3 (F := Ideal) m ρ c (Proc.devRef .tc main_arg4) = m ((c : Thread nD τ).loc main_arg4) := by
  dsimp only [W3]; generalize hV : W2 (F := Ideal) m ρ c = V; simp only [hostOps0_2, List.flatten_cons, List.flatten_nil, List.append_nil, List.cons_append, List.nil_append]; after_results_simp; all_goals subst hV
  all_goals (dsimp only [W2]; generalize hV : W1 (F := Ideal) m ρ c = V; simp only [hostOps0_1, List.flatten_cons, List.flatten_nil, List.append_nil, List.cons_append, List.nil_append]; after_results_simp; all_goals subst hV)
  all_goals (dsimp only [W1]; generalize hV : W0 (F := Ideal) m ρ c = V; simp only [hostOps0, List.flatten_cons, List.flatten_nil, List.append_nil, List.cons_append, List.nil_append]; after_results_simp; all_goals subst hV)
  all_goals rfl
theorem a4_arg4 : W4 (F := Ideal) m ρ c (Proc.devRef .tc main_arg4) = m ((c : Thread nD τ).loc main_arg4) := (W4_of_ne m ρ c main_arg4 (by decide)).trans (a3_arg4 m ρ c)
set_option maxHeartbeats 4000000 in
theorem a5_arg4 : W5 (F := Ideal) m ρ c (Proc.devRef .tc main_arg4) = m ((c : Thread nD τ).loc main_arg4) := by
  dsimp only [W5]; generalize hV : W4 (F := Ideal) m ρ c = V; simp only [hostOps1, List.flatten_cons, List.flatten_nil, List.append_nil, List.cons_append, List.nil_append]; after_results_simp; all_goals subst hV
  all_goals exact a4_arg4 m ρ c
theorem a6_arg4 : W6 (F := Ideal) m ρ c (Proc.devRef .tc main_arg4) = m ((c : Thread nD τ).loc main_arg4) := (W6_of_ne m ρ c main_arg4 (by decide)).trans (a5_arg4 m ρ c)
set_option maxHeartbeats 4000000 in
theorem a7_arg4 : W7 (F := Ideal) m ρ c (Proc.devRef .tc main_arg4) = m ((c : Thread nD τ).loc main_arg4) := by
  dsimp only [W7]; generalize hV : W6 (F := Ideal) m ρ c = V; simp only [hostOps2, List.flatten_cons, List.flatten_nil, List.append_nil, List.cons_append, List.nil_append]; after_results_simp; all_goals subst hV
  all_goals exact a6_arg4 m ρ c
theorem a8_arg4 : W8 (F := Ideal) m ρ c (Proc.devRef .tc main_arg4) = m ((c : Thread nD τ).loc main_arg4) := (W8_of_ne m ρ c main_arg4 (by decide)).trans (a7_arg4 m ρ c)
set_option maxHeartbeats 4000000 in
theorem a3_arg1 : W3 (F := Ideal) m ρ c (Proc.devRef .tc main_arg1) = m ((c : Thread nD τ).loc main_arg1) := by
  dsimp only [W3]; generalize hV : W2 (F := Ideal) m ρ c = V; simp only [hostOps0_2, List.flatten_cons, List.flatten_nil, List.append_nil, List.cons_append, List.nil_append]; after_results_simp; all_goals subst hV
  all_goals (dsimp only [W2]; generalize hV : W1 (F := Ideal) m ρ c = V; simp only [hostOps0_1, List.flatten_cons, List.flatten_nil, List.append_nil, List.cons_append, List.nil_append]; after_results_simp; all_goals subst hV)
  all_goals (dsimp only [W1]; generalize hV : W0 (F := Ideal) m ρ c = V; simp only [hostOps0, List.flatten_cons, List.flatten_nil, List.append_nil, List.cons_append, List.nil_append]; after_results_simp; all_goals subst hV)
  all_goals rfl
theorem a4_arg1 : W4 (F := Ideal) m ρ c (Proc.devRef .tc main_arg1) = m ((c : Thread nD τ).loc main_arg1) := (W4_of_ne m ρ c main_arg1 (by decide)).trans (a3_arg1 m ρ c)
set_option maxHeartbeats 4000000 in
theorem a5_arg1 : W5 (F := Ideal) m ρ c (Proc.devRef .tc main_arg1) = m ((c : Thread nD τ).loc main_arg1) := by
  dsimp only [W5]; generalize hV : W4 (F := Ideal) m ρ c = V; simp only [hostOps1, List.flatten_cons, List.flatten_nil, List.append_nil, List.cons_append, List.nil_append]; after_results_simp; all_goals subst hV
  all_goals exact a4_arg1 m ρ c
theorem a6_arg1 : W6 (F := Ideal) m ρ c (Proc.devRef .tc main_arg1) = m ((c : Thread nD τ).loc main_arg1) := (W6_of_ne m ρ c main_arg1 (by decide)).trans (a5_arg1 m ρ c)
set_option maxHeartbeats 4000000 in
theorem a7_arg1 : W7 (F := Ideal) m ρ c (Proc.devRef .tc main_arg1) = m ((c : Thread nD τ).loc main_arg1) := by
  dsimp only [W7]; generalize hV : W6 (F := Ideal) m ρ c = V; simp only [hostOps2, List.flatten_cons, List.flatten_nil, List.append_nil, List.cons_append, List.nil_append]; after_results_simp; all_goals subst hV
  all_goals exact a6_arg1 m ρ c
theorem a8_arg1 : W8 (F := Ideal) m ρ c (Proc.devRef .tc main_arg1) = m ((c : Thread nD τ).loc main_arg1) := (W8_of_ne m ρ c main_arg1 (by decide)).trans (a7_arg1 m ρ c)
set_option maxHeartbeats 4000000 in
theorem a9_arg1 : W9 (F := Ideal) m ρ c (Proc.devRef .tc main_arg1) = m ((c : Thread nD τ).loc main_arg1) := by
  dsimp only [W9]; generalize hV : W8 (F := Ideal) m ρ c = V; simp only [hostOps3, List.flatten_cons, List.flatten_nil, List.append_nil, List.cons_append, List.nil_append]; after_results_simp; all_goals subst hV
  all_goals exact a8_arg1 m ρ c
set_option maxHeartbeats 4000000 in
theorem a3_arg8 : W3 (F := Ideal) m ρ c (Proc.devRef .tc main_arg8) = m ((c : Thread nD τ).loc main_arg8) := by
  dsimp only [W3]; generalize hV : W2 (F := Ideal) m ρ c = V; simp only [hostOps0_2, List.flatten_cons, List.flatten_nil, List.append_nil, List.cons_append, List.nil_append]; after_results_simp; all_goals subst hV
  all_goals (dsimp only [W2]; generalize hV : W1 (F := Ideal) m ρ c = V; simp only [hostOps0_1, List.flatten_cons, List.flatten_nil, List.append_nil, List.cons_append, List.nil_append]; after_results_simp; all_goals subst hV)
  all_goals (dsimp only [W1]; generalize hV : W0 (F := Ideal) m ρ c = V; simp only [hostOps0, List.flatten_cons, List.flatten_nil, List.append_nil, List.cons_append, List.nil_append]; after_results_simp; all_goals subst hV)
  all_goals rfl
theorem a4_arg8 : W4 (F := Ideal) m ρ c (Proc.devRef .tc main_arg8) = m ((c : Thread nD τ).loc main_arg8) := (W4_of_ne m ρ c main_arg8 (by decide)).trans (a3_arg8 m ρ c)
set_option maxHeartbeats 4000000 in
theorem a5_arg8 : W5 (F := Ideal) m ρ c (Proc.devRef .tc main_arg8) = m ((c : Thread nD τ).loc main_arg8) := by
  dsimp only [W5]; generalize hV : W4 (F := Ideal) m ρ c = V; simp only [hostOps1, List.flatten_cons, List.flatten_nil, List.append_nil, List.cons_append, List.nil_append]; after_results_simp; all_goals subst hV
  all_goals exact a4_arg8 m ρ c
theorem a6_arg8 : W6 (F := Ideal) m ρ c (Proc.devRef .tc main_arg8) = m ((c : Thread nD τ).loc main_arg8) := (W6_of_ne m ρ c main_arg8 (by decide)).trans (a5_arg8 m ρ c)
set_option maxHeartbeats 4000000 in
theorem a7_arg8 : W7 (F := Ideal) m ρ c (Proc.devRef .tc main_arg8) = m ((c : Thread nD τ).loc main_arg8) := by
  dsimp only [W7]; generalize hV : W6 (F := Ideal) m ρ c = V; simp only [hostOps2, List.flatten_cons, List.flatten_nil, List.append_nil, List.cons_append, List.nil_append]; after_results_simp; all_goals subst hV
  all_goals exact a6_arg8 m ρ c
theorem a8_arg8 : W8 (F := Ideal) m ρ c (Proc.devRef .tc main_arg8) = m ((c : Thread nD τ).loc main_arg8) := (W8_of_ne m ρ c main_arg8 (by decide)).trans (a7_arg8 m ρ c)
set_option maxHeartbeats 4000000 in
theorem a9_arg8 : W9 (F := Ideal) m ρ c (Proc.devRef .tc main_arg8) = m ((c : Thread nD τ).loc main_arg8) := by
  dsimp only [W9]; generalize hV : W8 (F := Ideal) m ρ c = V; simp only [hostOps3, List.flatten_cons, List.flatten_nil, List.append_nil, List.cons_append, List.nil_append]; after_results_simp; all_goals subst hV
  all_goals exact a8_arg8 m ρ c
set_option maxHeartbeats 4000000 in
theorem a3_arg9 : W3 (F := Ideal) m ρ c (Proc.devRef .tc main_arg9) = m ((c : Thread nD τ).loc main_arg9) := by
  dsimp only [W3]; generalize hV : W2 (F := Ideal) m ρ c = V; simp only [hostOps0_2, List.flatten_cons, List.flatten_nil, List.append_nil, List.cons_append, List.nil_append]; after_results_simp; all_goals subst hV
  all_goals (dsimp only [W2]; generalize hV : W1 (F := Ideal) m ρ c = V; simp only [hostOps0_1, List.flatten_cons, List.flatten_nil, List.append_nil, List.cons_append, List.nil_append]; after_results_simp; all_goals subst hV)
  all_goals (dsimp only [W1]; generalize hV : W0 (F := Ideal) m ρ c = V; simp only [hostOps0, List.flatten_cons, List.flatten_nil, List.append_nil, List.cons_append, List.nil_append]; after_results_simp; all_goals subst hV)
  all_goals rfl
theorem a4_arg9 : W4 (F := Ideal) m ρ c (Proc.devRef .tc main_arg9) = m ((c : Thread nD τ).loc main_arg9) := (W4_of_ne m ρ c main_arg9 (by decide)).trans (a3_arg9 m ρ c)
set_option maxHeartbeats 4000000 in
theorem a5_arg9 : W5 (F := Ideal) m ρ c (Proc.devRef .tc main_arg9) = m ((c : Thread nD τ).loc main_arg9) := by
  dsimp only [W5]; generalize hV : W4 (F := Ideal) m ρ c = V; simp only [hostOps1, List.flatten_cons, List.flatten_nil, List.append_nil, List.cons_append, List.nil_append]; after_results_simp; all_goals subst hV
  all_goals exact a4_arg9 m ρ c
theorem a6_arg9 : W6 (F := Ideal) m ρ c (Proc.devRef .tc main_arg9) = m ((c : Thread nD τ).loc main_arg9) := (W6_of_ne m ρ c main_arg9 (by decide)).trans (a5_arg9 m ρ c)
set_option maxHeartbeats 4000000 in
theorem a7_arg9 : W7 (F := Ideal) m ρ c (Proc.devRef .tc main_arg9) = m ((c : Thread nD τ).loc main_arg9) := by
  dsimp only [W7]; generalize hV : W6 (F := Ideal) m ρ c = V; simp only [hostOps2, List.flatten_cons, List.flatten_nil, List.append_nil, List.cons_append, List.nil_append]; after_results_simp; all_goals subst hV
  all_goals exact a6_arg9 m ρ c
theorem a8_arg9 : W8 (F := Ideal) m ρ c (Proc.devRef .tc main_arg9) = m ((c : Thread nD τ).loc main_arg9) := (W8_of_ne m ρ c main_arg9 (by decide)).trans (a7_arg9 m ρ c)
set_option maxHeartbeats 4000000 in
theorem a9_arg9 : W9 (F := Ideal) m ρ c (Proc.devRef .tc main_arg9) = m ((c : Thread nD τ).loc main_arg9) := by
  dsimp only [W9]; generalize hV : W8 (F := Ideal) m ρ c = V; simp only [hostOps3, List.flatten_cons, List.flatten_nil, List.append_nil, List.cons_append, List.nil_append]; after_results_simp; all_goals subst hV
  all_goals exact a8_arg9 m ρ c

/-! ## The word vectors of the edge list -/

set_option maxHeartbeats 4000000 in
theorem s1_v1 : W1 (F := Ideal) m ρ c (Proc.devRef .tc main_v1) = rowW (m ((c : Thread nD τ).loc main_arg0)) := by
  dsimp only [W1]; generalize hV : W0 (F := Ideal) m ρ c = V; simp only [hostOps0, List.flatten_cons, List.flatten_nil, List.append_nil, List.cons_append, List.nil_append]; after_results_simp; all_goals subst hV
  all_goals rfl
set_option maxHeartbeats 4000000 in
theorem s2_v1 : W2 (F := Ideal) m ρ c (Proc.devRef .tc main_v1) = rowW (m ((c : Thread nD τ).loc main_arg0)) := by
  dsimp only [W2]; generalize hV : W1 (F := Ideal) m ρ c = V; simp only [hostOps0_1, List.flatten_cons, List.flatten_nil, List.append_nil, List.cons_append, List.nil_append]; after_results_simp; all_goals subst hV
  all_goals exact s1_v1 m ρ c
set_option maxHeartbeats 4000000 in
theorem s3_v1 : W3 (F := Ideal) m ρ c (Proc.devRef .tc main_v1) = rowW (m ((c : Thread nD τ).loc main_arg0)) := by
  dsimp only [W3]; generalize hV : W2 (F := Ideal) m ρ c = V; simp only [hostOps0_2, List.flatten_cons, List.flatten_nil, List.append_nil, List.cons_append, List.nil_append]; after_results_simp; all_goals subst hV
  all_goals exact s2_v1 m ρ c
theorem s4_v1 : W4 (F := Ideal) m ρ c (Proc.devRef .tc main_v1) = rowW (m ((c : Thread nD τ).loc main_arg0)) := (W4_of_ne m ρ c main_v1 (by decide)).trans (s3_v1 m ρ c)
set_option maxHeartbeats 4000000 in
theorem s5_v1 : W5 (F := Ideal) m ρ c (Proc.devRef .tc main_v1) = rowW (m ((c : Thread nD τ).loc main_arg0)) := by
  dsimp only [W5]; generalize hV : W4 (F := Ideal) m ρ c = V; simp only [hostOps1, List.flatten_cons, List.flatten_nil, List.append_nil, List.cons_append, List.nil_append]; after_results_simp; all_goals subst hV
  all_goals exact s4_v1 m ρ c
theorem s6_v1 : W6 (F := Ideal) m ρ c (Proc.devRef .tc main_v1) = rowW (m ((c : Thread nD τ).loc main_arg0)) := (W6_of_ne m ρ c main_v1 (by decide)).trans (s5_v1 m ρ c)

set_option maxHeartbeats 4000000 in
theorem s1_v3 : W1 (F := Ideal) m ρ c (Proc.devRef .tc main_v3) = colW (m ((c : Thread nD τ).loc main_arg0)) := by
  dsimp only [W1]; generalize hV : W0 (F := Ideal) m ρ c = V; simp only [hostOps0, List.flatten_cons, List.flatten_nil, List.append_nil, List.cons_append, List.nil_append]; after_results_simp; all_goals subst hV
  all_goals rfl
set_option maxHeartbeats 4000000 in
theorem s2_v3 : W2 (F := Ideal) m ρ c (Proc.devRef .tc main_v3) = colW (m ((c : Thread nD τ).loc main_arg0)) := by
  dsimp only [W2]; generalize hV : W1 (F := Ideal) m ρ c = V; simp only [hostOps0_1, List.flatten_cons, List.flatten_nil, List.append_nil, List.cons_append, List.nil_append]; after_results_simp; all_goals subst hV
  all_goals exact s1_v3 m ρ c
set_option maxHeartbeats 4000000 in
theorem s3_v3 : W3 (F := Ideal) m ρ c (Proc.devRef .tc main_v3) = colW (m ((c : Thread nD τ).loc main_arg0)) := by
  dsimp only [W3]; generalize hV : W2 (F := Ideal) m ρ c = V; simp only [hostOps0_2, List.flatten_cons, List.flatten_nil, List.append_nil, List.cons_append, List.nil_append]; after_results_simp; all_goals subst hV
  all_goals exact s2_v3 m ρ c
theorem s4_v3 : W4 (F := Ideal) m ρ c (Proc.devRef .tc main_v3) = colW (m ((c : Thread nD τ).loc main_arg0)) := (W4_of_ne m ρ c main_v3 (by decide)).trans (s3_v3 m ρ c)
set_option maxHeartbeats 4000000 in
theorem s5_v3 : W5 (F := Ideal) m ρ c (Proc.devRef .tc main_v3) = colW (m ((c : Thread nD τ).loc main_arg0)) := by
  dsimp only [W5]; generalize hV : W4 (F := Ideal) m ρ c = V; simp only [hostOps1, List.flatten_cons, List.flatten_nil, List.append_nil, List.cons_append, List.nil_append]; after_results_simp; all_goals subst hV
  all_goals exact s4_v3 m ρ c
theorem s6_v3 : W6 (F := Ideal) m ρ c (Proc.devRef .tc main_v3) = colW (m ((c : Thread nD τ).loc main_arg0)) := (W6_of_ne m ρ c main_v3 (by decide)).trans (s5_v3 m ρ c)

/-! ## The node scale -/

set_option maxHeartbeats 4000000 in
theorem s1_v9 : W1 (F := Ideal) m ρ c (Proc.devRef .tc main_v9)
    = cmpf .ogt (deg (m ((c : Thread nD τ).loc main_arg0))) (broadcastInDim S50000 ![] bcast_S_S50000 (constant S_ .f32 0x00000000#32)) := by
  dsimp only [W1]; generalize hV : W0 (F := Ideal) m ρ c = V; simp only [hostOps0, List.flatten_cons, List.flatten_nil, List.append_nil, List.cons_append, List.nil_append]; after_results_simp; all_goals subst hV
  all_goals rfl
set_option maxHeartbeats 4000000 in
theorem s1_v14 : W1 (F := Ideal) m ρ c (Proc.devRef .tc main_v14)
    = Host.divf (broadcastInDim S50000 ![] bcast_S_S50000 (constant S_ .f32 0x3F800000#32))
        (Host.sqrt (maximumf (deg (m ((c : Thread nD τ).loc main_arg0))) (broadcastInDim S50000 ![] bcast_S_S50000 (constant S_ .f32 0x3F800000#32)))) := by
  dsimp only [W1]; generalize hV : W0 (F := Ideal) m ρ c = V; simp only [hostOps0, List.flatten_cons, List.flatten_nil, List.append_nil, List.cons_append, List.nil_append]; after_results_simp; all_goals subst hV
  all_goals rfl
set_option maxHeartbeats 4000000 in
theorem s1_cst4 : W1 (F := Ideal) m ρ c (Proc.devRef .tc main_cst_4) = (constant (F := Ideal) S_ .f32 0x00000000#32 : FVec Ideal S_ .f32) := by
  dsimp only [W1]; generalize hV : W0 (F := Ideal) m ρ c = V; simp only [hostOps0, List.flatten_cons, List.flatten_nil, List.append_nil, List.cons_append, List.nil_append]; after_results_simp; all_goals subst hV
  all_goals rfl

set_option maxHeartbeats 4000000 in
/-- The outlined selection, over whatever the buffers held before it. -/
theorem where_at (V : Valuation τ sig (Elt Ideal)) :
    StableHlo.after (hostOps0_1 (F := Ideal)) V (Proc.devRef .tc main_v15)
      = select (V (Proc.devRef .tc main_v9)) (V (Proc.devRef .tc main_v14))
          (broadcastInDim S50000 ![] bcast_S_S50000 (V (Proc.devRef .tc main_cst_4))) := by
  simp only [hostOps0_1, List.flatten_cons, List.flatten_nil, List.append_nil, List.cons_append, List.nil_append]
  after_results_simp
  all_goals rfl

theorem s2_v15 : W2 (F := Ideal) m ρ c (Proc.devRef .tc main_v15) = dv (m ((c : Thread nD τ).loc main_arg0)) := by
  dsimp only [W2]
  rw [where_at, s1_v9, s1_v14, s1_cst4]
  rfl

set_option maxHeartbeats 4000000 in
theorem s3_v16 : W3 (F := Ideal) m ρ c (Proc.devRef .tc main_v16) = dcol (m ((c : Thread nD τ).loc main_arg0)) := by
  dsimp only [W3]; generalize hV : W2 (F := Ideal) m ρ c = V; simp only [hostOps0_2, List.flatten_cons, List.flatten_nil, List.append_nil, List.cons_append, List.nil_append]; after_results_simp; all_goals subst hV
  all_goals (rw [s2_v15]; rfl)

set_option maxHeartbeats 4000000 in
theorem s3_v18 : W3 (F := Ideal) m ρ c (Proc.devRef .tc main_v18) = w0 (m ((c : Thread nD τ).loc main_arg6)) := by
  dsimp only [W3]; generalize hV : W2 (F := Ideal) m ρ c = V; simp only [hostOps0_2, List.flatten_cons, List.flatten_nil, List.append_nil, List.cons_append, List.nil_append]; after_results_simp; all_goals subst hV
  all_goals (dsimp only [W2]; generalize hV : W1 (F := Ideal) m ρ c = V; simp only [hostOps0_1, List.flatten_cons, List.flatten_nil, List.append_nil, List.cons_append, List.nil_append]; after_results_simp; all_goals subst hV)
  all_goals (dsimp only [W1]; generalize hV : W0 (F := Ideal) m ρ c = V; simp only [hostOps0, List.flatten_cons, List.flatten_nil, List.append_nil, List.cons_append, List.nil_append]; after_results_simp; all_goals subst hV)
  all_goals rfl

/-- The first block stages the scale column and leaves it as it was; so does the second. -/
theorem s4_v16 : W4 (F := Ideal) m ρ c (Proc.devRef .tc main_v16) = dcol (m ((c : Thread nD τ).loc main_arg0)) :=
  ((W4_arr m ρ c 2).trans (((dat0 (V3 m ρ) c).arrAt_in 2 rfl _).trans (A_eq0 (V3 m ρ) c 2))).trans (s3_v16 m ρ c)
set_option maxHeartbeats 4000000 in
theorem s5_v16 : W5 (F := Ideal) m ρ c (Proc.devRef .tc main_v16) = dcol (m ((c : Thread nD τ).loc main_arg0)) := by
  dsimp only [W5]; generalize hV : W4 (F := Ideal) m ρ c = V; simp only [hostOps1, List.flatten_cons, List.flatten_nil, List.append_nil, List.cons_append, List.nil_append]; after_results_simp; all_goals subst hV
  all_goals exact s4_v16 m ρ c
theorem s6_v16 : W6 (F := Ideal) m ρ c (Proc.devRef .tc main_v16) = dcol (m ((c : Thread nD τ).loc main_arg0)) :=
  ((W6_arr m ρ c 1).trans (((dat1 (V5 m ρ) c).arrAt_in 1 rfl _).trans (A_eq1 (V5 m ρ) c 1))).trans (s5_v16 m ρ c)
set_option maxHeartbeats 4000000 in
theorem s7_v16 : W7 (F := Ideal) m ρ c (Proc.devRef .tc main_v16) = dcol (m ((c : Thread nD τ).loc main_arg0)) := by
  dsimp only [W7]; generalize hV : W6 (F := Ideal) m ρ c = V; simp only [hostOps2, List.flatten_cons, List.flatten_nil, List.append_nil, List.cons_append, List.nil_append]; after_results_simp; all_goals subst hV
  all_goals exact s6_v16 m ρ c

/-! ## The stretches between the blocks -/

set_option maxHeartbeats 4000000 in
theorem s5_v29 : W5 (F := Ideal) m ρ c (Proc.devRef .tc main_v29) = agg (m ((c : Thread nD τ).loc main_arg0)) (W4 (F := Ideal) m ρ c (Proc.devRef .tc main_v19)) := by
  dsimp only [W5]; generalize hV : W4 (F := Ideal) m ρ c = V; simp only [hostOps1, List.flatten_cons, List.flatten_nil, List.append_nil, List.cons_append, List.nil_append]; after_results_simp; all_goals subst hV
  all_goals (rw [s4_v1, s4_v3]; rfl)
set_option maxHeartbeats 4000000 in
theorem s5_v31 : W5 (F := Ideal) m ρ c (Proc.devRef .tc main_v31) = b0 (m ((c : Thread nD τ).loc main_arg7)) := by
  dsimp only [W5]; generalize hV : W4 (F := Ideal) m ρ c = V; simp only [hostOps1, List.flatten_cons, List.flatten_nil, List.append_nil, List.cons_append, List.nil_append]; after_results_simp; all_goals subst hV
  all_goals (rw [a4_arg7]; rfl)
set_option maxHeartbeats 4000000 in
theorem s5_v33 : W5 (F := Ideal) m ρ c (Proc.devRef .tc main_v33) = w1 (m ((c : Thread nD τ).loc main_arg6)) := by
  dsimp only [W5]; generalize hV : W4 (F := Ideal) m ρ c = V; simp only [hostOps1, List.flatten_cons, List.flatten_nil, List.append_nil, List.cons_append, List.nil_append]; after_results_simp; all_goals subst hV
  all_goals (rw [a4_arg6]; rfl)
set_option maxHeartbeats 4000000 in
theorem s7_v44 : W7 (F := Ideal) m ρ c (Proc.devRef .tc main_v44) = agg (m ((c : Thread nD τ).loc main_arg0)) (W6 (F := Ideal) m ρ c (Proc.devRef .tc main_v34)) := by
  dsimp only [W7]; generalize hV : W6 (F := Ideal) m ρ c = V; simp only [hostOps2, List.flatten_cons, List.flatten_nil, List.append_nil, List.cons_append, List.nil_append]; after_results_simp; all_goals subst hV
  all_goals (rw [s6_v1, s6_v3]; rfl)
set_option maxHeartbeats 4000000 in
theorem s7_v46 : W7 (F := Ideal) m ρ c (Proc.devRef .tc main_v46) = b1 (m ((c : Thread nD τ).loc main_arg7)) := by
  dsimp only [W7]; generalize hV : W6 (F := Ideal) m ρ c = V; simp only [hostOps2, List.flatten_cons, List.flatten_nil, List.append_nil, List.cons_append, List.nil_append]; after_results_simp; all_goals subst hV
  all_goals (rw [a6_arg7]; rfl)
set_option maxHeartbeats 4000000 in
theorem s9_v48 : W9 (F := Ideal) m ρ c (Proc.devRef .tc main_v48) = shapeCast S50000x1 (m ((c : Thread nD τ).loc main_arg4)) shapeCasts_S50000_S50000x1 := by
  dsimp only [W9]; generalize hV : W8 (F := Ideal) m ρ c = V; simp only [hostOps3, List.flatten_cons, List.flatten_nil, List.append_nil, List.cons_append, List.nil_append]; after_results_simp; all_goals subst hV
  all_goals (rw [a8_arg4]; rfl)
set_option maxHeartbeats 4000000 in
theorem s9_v47 : W9 (F := Ideal) m ρ c (Proc.devRef .tc main_v47) = W8 (F := Ideal) m ρ c (Proc.devRef .tc main_v47) := by
  dsimp only [W9]; generalize hV : W8 (F := Ideal) m ρ c = V; simp only [hostOps3, List.flatten_cons, List.flatten_nil, List.append_nil, List.cons_append, List.nil_append]; after_results_simp; all_goals subst hV
  all_goals rfl

end Cert.LinkPred.K

end
-- ==== Proof.LibPlainDot.lean ====
/-
  A matrix product read entry by entry.

  For a contraction of the second axis of an [M, K] matrix with the first axis of a [K, N] matrix — whatever record of
  dimension numbers spells it, as long as its operand indices at an output entry (r, c) and a contraction coordinate k
  are (r, k) and (k, c) — the sum over the record's contraction index type is the ordinary sum over `k : Fin K` of
  `x (r, k) * w (k, c)`. On the extended reals this is what both a block product on the matrix unit (into a zero
  accumulator) and a host `dot_general` denote, so the two meet in this one form.
-/
import Idealize.ShloMosaic.PureOps.Ideal.Laws
import Idealize.ShloMosaic.Lib.ValueIdx

namespace Idealize.ShloMosaic.PlainDot

open Idealize.ShloMosaic Idealize.ShloMosaic.ValueIdx

/-- The contraction sum of a plain two-dimensional product, re-indexed by the contracted coordinate. The four
    hypotheses say where the record reads its operands: the left one at (row of the entry, k), the right one at
    (k, column of the entry). -/
theorem sum_contr {M K N : Nat} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal)
    (i : (⟨2, ![M, N]⟩ : Shape).Idx) :
    ∑ q : D.contr.Idx, x (D.lhsIdx i q) * w (D.rhsIdx i q) = ∑ k : Fin K, x (ix2 (i 0) k) * w (ix2 k (i 1)) := by
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact l0 _ _
    | ⟨1, _⟩ => exact (l1 _ _).trans hk)
  have er : D.rhsIdx i ((contrEquiv1 D K hr hs).symm k) = ix2 k (i 1) := funext fun a => Fin.ext (by
    match a with
    | ⟨0, _⟩ => exact (r0 _ _).trans hk
    | ⟨1, _⟩ => exact r1 _ _)
  rw [el, er]
  rfl

/-- A product on the matrix unit into a zero accumulator, at an entry: the sum over the contracted coordinate. -/
theorem matmul_zero_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (x : FVec Ideal ⟨2, ![M, K]⟩ φ₁) (w : FVec Ideal ⟨2, ![K, N]⟩ φ₂)
    (i : (⟨2, ![M, N]⟩ : Shape).Idx) :
    FloatOps.matmul D prec x w (constant ⟨2, ![M, N]⟩ .f32 0x00000000#32) i
      = ∑ k : Fin K, x (ix2 (i 0) k) * w (ix2 k (i 1)) :=
  (Ideal.matmul_constant_zero_apply D prec x w i).trans (sum_contr D hr hs l0 l1 r0 r1 x w i)

/-- A host `dot_general` at an entry: the same sum. -/
theorem dotGeneral_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (sched : HostSchedule) (x : FVec Ideal ⟨2, ![M, K]⟩ φ₁) (w : FVec Ideal ⟨2, ![K, N]⟩ φ₂)
    (i : (⟨2, ![M, N]⟩ : Shape).Idx) :
    FloatOps.dotGeneral D prec sched x w i = ∑ k : Fin K, x (ix2 (i 0) k) * w (ix2 k (i 1)) :=
  (Ideal.dotGeneral_apply D prec sched x w i).trans (sum_contr D hr hs l0 l1 r0 r1 x w i)

end Idealize.ShloMosaic.PlainDot
-- ==== Proof.Region0.lean ====
/-
  The projection of a graph-convolution layer, block by block and as one array.

  The region runs over 10 points; point t holds rows 5000 t … 5000 t + 4999 of the node features and of the per-node
  factor, and the whole 128 × 128 weight. Its body multiplies the block of features by the weight and scales each row
  by the row's factor. Read entry by entry, what point t writes back is block t of (z·W)(n, j) · d(n) taken over the
  whole arrays, and the ten blocks tile the 50000 rows: so the output array ends as that one function of the input
  arrays.
-/
import proofs.«100846_j62912680952407_2_alg».proof.Proof.Gen.KernelIdeal.Frame
import proofs.«100846_j62912680952407_2_alg».proof.Proof.Spec
import proofs.«100846_j62912680952407_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.LinkPred.R0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A column broadcast along the rows: an [a, 1] array broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The product's dimension numbers read their operands at (row of the entry, k) and (k, column of the entry). -/
theorem dot_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's result at row p, column q of a block: the row of the block against the column of the weight, scaled by
    the row's factor. -/
theorem pay_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  show FloatOps.matmul (F := Ideal) dot_S5000x128_S128x128_S5000x128_1_0_0_1_n_n none (truncf .bf16 x0 _)
        (truncf .bf16 (shapeCast S128x128 x1 _) _) (constant (F := Ideal) S5000x128 .f32 0x00000000#32) (ix2 p q)
      * broadcastTo S5000x128 (shapeCast S5000x1 x2 _) _ (ix2 p q) = _
  rw [shapeCast_self, shapeCast_self, broadcastTo_a1_ab_apply]
  refine congrArg (· * x2 (ix2 p (0 : Fin 1))) ?_
  exact PlainDot.matmul_zero_apply dot_S5000x128_S128x128_S5000x128_1_0_0_1_n_n rfl rfl dot_l0 dot_l1 dot_r0 dot_r1 none _ _ (ix2 p q)

/-- The same at an index of the block. -/
theorem pay_eq (x0 : Vec Ideal S5000x128 .f32) (x1 : Vec Ideal S128x128 .f32) (x2 : Vec Ideal S5000x1 .f32) :
    k0_pay1 (F := Ideal) x0 x1 x2
      = fun j : S5000x128.Idx => (∑ k : Fin 128, x0 (ix2 (j 0) k) * x1 (ix2 k (j 1))) * x2 (ix2 (j 0) (0 : Fin 1)) := by
  funext j
  obtain ⟨p, q, rfl⟩ : ∃ (p : Fin 5000) (q : Fin 128), j = ix2 p q := ⟨j 0, j 1, eq_ix2 j⟩
  exact pay_apply x0 x1 x2 p q

theorem hz : (![0, 0] : Fin 2 → Nat) = fun _ => 0 := funext fun a => by fin_cases a <;> rfl

/-- The printed index maps over the grid: at point t the row-blocked windows are at block (t, 0), the weight at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of the scaled projection of whole arrays, entry by entry: the input windows' blocks at point t sit where
    the output's block says (rows 5000 t … 5000 t + 4999; the weight whole). -/
theorem blk_eq (A : S50000x128.Idx → EReal) (w : S128x128.Idx → EReal) (d : S50000x1.Idx → EReal) (t : Fin cfg0.N)
    (j : S5000x128.Idx) :
    (∑ k : Fin 128, A (((cfg0.win 0).blk t).view.emb (ix2 (j 0) k)) * w (((cfg0.win 1).blk t).view.emb (ix2 k (j 1))))
        * d (((cfg0.win 2).blk t).view.emb (ix2 (j 0) (0 : Fin 1)))
      = Cert.LinkPred.lin A w d (((cfg0.win 3).blk t).view.emb j) := by
  obtain ⟨e0, e1, e2, e3, e4, e5, e6, e7⟩ := idx_facts t
  show _ = (∑ k : Fin 128, A (ix2 (((cfg0.win 3).blk t).view.emb j 0) k) * w (ix2 k (((cfg0.win 3).blk t).view.emb j 1)))
        * d (ix2 (((cfg0.win 3).blk t).view.emb j 0) (0 : Fin 1))
  have h0 : ∀ k : Fin 128, ((cfg0.win 0).blk t).view.emb (ix2 (j 0) k) = ix2 (((cfg0.win 3).blk t).view.emb j 0) k := fun k => by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (j 1)) = ix2 k (((cfg0.win 3).blk t).view.emb j 1) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have h2 : ((cfg0.win 2).blk t).view.emb (ix2 (j 0) (0 : Fin 1)) = ix2 (((cfg0.win 3).blk t).view.emb j 0) (0 : Fin 1) := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  rw [h2]
  refine congrArg (· * d (ix2 (((cfg0.win 3).blk t).view.emb j 0) (0 : Fin 1))) ?_
  refine Finset.sum_congr rfl fun k _ => ?_
  rw [h0 k, h1 k]
  rfl

/-- What point t writes back is block t of the scaled projection of the whole arrays as the region finds them. -/
theorem flushed_eq (c : Dev nD) (t : Fin cfg0.N) :
    (dat0 (F := Ideal) V c).flushed 3 t
      = ((cfg0.win 3).blk t).view.read (Elt Ideal) (Cert.LinkPred.lin (V c main_arg5) (V c main_v18) (V c main_v16)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  rw [pay_eq]
  funext j
  exact blk_eq (V c main_arg5) (V c main_v18) (V c main_v16) t j

/-- An index of the array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v19).slice (win0_3.rect t)).set ↔ _
  rw [View.set_slice_whole, Rect.mem_set_unit]
  exact Iff.rfl

/-- Every index of the array is in the block of the point its row's block of 5000 names. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1, e2, e3, e4, e5, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the projection scaled by the node's factor, of the whole arrays. -/
theorem final (c : Dev nD) :
    (dat0 (F := Ideal) V c).arrAt 3 cfg0.N = Cert.LinkPred.lin (V c main_arg5) (V c main_v18) (V c main_v16) :=
  (dat0 (F := Ideal) V c).arrAt_eq_of_cover 3 _ (fun t _ => flushed_eq V c t) cover

end Cert.LinkPred.R0

end
-- ==== Proof.Region1.lean ====
/-
  A graph-convolution layer's closing step fused with the next layer's projection, block by block and as one array.

  The region runs over 10 points; point t holds rows 5000 t … 5000 t + 4999 of the aggregated features and of the
  per-node factor, the whole bias and the whole 128 × 128 weight. Its body first closes the previous layer on the
  block — each row times the row's factor, plus the bias, through the rectifier —, then multiplies by the weight and
  scales each row by the row's factor again. Read entry by entry, what point t writes back is block t of
  (max(agg · d + b, 0)·W)(n, j) · d(n) taken over the whole arrays, and the ten blocks tile the 50000 rows: so the
  output array ends as that one function of the input arrays.
-/
import proofs.«100846_j62912680952407_2_alg».proof.Proof.Gen.KernelIdeal.Frame
import proofs.«100846_j62912680952407_2_alg».proof.Proof.Spec
import proofs.«100846_j62912680952407_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.LinkPred.R1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A column broadcast along the rows: an [a, 1] array broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The product's dimension numbers read their operands at (row of the entry, k) and (k, column of the entry). -/
theorem dot_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's result at row p, column q of a block: the previous layer's closing step of the block's row (scale by
    the row's factor, bias, rectifier) against the column of the weight, scaled by the row's factor again. -/
theorem pay_apply (x0 : Vec Ideal S5000x1 .f32) (x1 : Vec Ideal S5000x128 .f32) (x2 : Vec Ideal S128 .f32)
    (x3 : Vec Ideal S128x128 .f32) (p : Fin 5000) (q : Fin 128) :
    k1_pay1 (F := Ideal) x0 x1 x2 x3 (ix2 p q)
      = (∑ k : Fin 128, max (x1 (ix2 p k) * x0 (ix2 p (0 : Fin 1)) + x2 (ix1 k)) 0 * x3 (ix2 k q)) * x0 (ix2 p (0 : Fin 1)) := by
  unfold k1_pay1
  show FloatOps.matmul (F := Ideal) dot_S5000x128_S128x128_S5000x128_1_0_0_1_n_n none
        (truncf .bf16 (maximumf (addf (mulf (shapeCast S5000x128 x1 _) (broadcastTo S5000x128 (shapeCast S5000x1 x0 _) _))
          (broadcastTo S5000x128 (shapeCast S1x128 (shapeCast S128 x2 _) _) _)) (broadcast S5000x128 (Scalar.ofBits .f32 0x00000000#32))) _)
        (truncf .bf16 (shapeCast S128x128 x3 _) _) (constant (F := Ideal) S5000x128 .f32 0x00000000#32) (ix2 p q)
      * broadcastTo S5000x128 (shapeCast S5000x1 x0 _) _ (ix2 p q) = _
  rw [shapeCast_self, shapeCast_self, shapeCast_self, shapeCast_self, broadcastTo_a1_ab_apply]
  refine congrArg (· * x0 (ix2 p (0 : Fin 1))) ?_
  refine (PlainDot.matmul_zero_apply dot_S5000x128_S128x128_S5000x128_1_0_0_1_n_n rfl rfl dot_l0 dot_l1 dot_r0 dot_r1 none _ _ (ix2 p q)).trans ?_
  refine Finset.sum_congr rfl fun k _ => ?_
  show max (x1 (ix2 p k) * broadcastTo S5000x128 x0 _ (ix2 p k) + broadcastTo S5000x128 (shapeCast S1x128 x2 _) _ (ix2 p k))
      (Ideal.ofBits .f32 0x00000000#32) * x3 (ix2 k q) = _
  rw [broadcastTo_a1_ab_apply, broadcastTo_1b_ab_apply, shapeCast_a_1a_apply, Ideal.ofBits_zero_f32]

/-- The same at an index of the block. -/
theorem pay_eq (x0 : Vec Ideal S5000x1 .f32) (x1 : Vec Ideal S5000x128 .f32) (x2 : Vec Ideal S128 .f32)
    (x3 : Vec Ideal S128x128 .f32) :
    k1_pay1 (F := Ideal) x0 x1 x2 x3
      = fun j : S5000x128.Idx => (∑ k : Fin 128, max (x1 (ix2 (j 0) k) * x0 (ix2 (j 0) (0 : Fin 1)) + x2 (ix1 k)) 0 * x3 (ix2 k (j 1)))
          * x0 (ix2 (j 0) (0 : Fin 1)) := by
  funext j
  obtain ⟨p, q, rfl⟩ : ∃ (p : Fin 5000) (q : Fin 128), j = ix2 p q := ⟨j 0, j 1, eq_ix2 j⟩
  exact pay_apply x0 x1 x2 x3 p q

theorem hz : (![0, 0] : Fin 2 → Nat) = fun _ => 0 := funext fun a => by fin_cases a <;> rfl
theorem hz1 : (![0] : Fin 1 → Nat) = fun _ => 0 := funext fun a => by fin_cases a; rfl

/-- The printed index maps over the grid: at point t the row-blocked windows are at block (t, 0), the bias at block 0,
    the weight at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block t of the fused step of whole arrays, entry by entry: the input windows' blocks at point t sit where the
    output's block says (rows 5000 t … 5000 t + 4999; the bias and the weight whole). -/
theorem blk_eq (A : S50000x128.Idx → EReal) (d : S50000x1.Idx → EReal) (b : S128.Idx → EReal) (w : S128x128.Idx → EReal)
    (t : Fin cfg1.N) (j : S5000x128.Idx) :
    (∑ k : Fin 128, max (A (((cfg1.win 0).blk t).view.emb (ix2 (j 0) k)) * d (((cfg1.win 1).blk t).view.emb (ix2 (j 0) (0 : Fin 1)))
          + b (((cfg1.win 2).blk t).view.emb (ix1 k))) 0 * w (((cfg1.win 3).blk t).view.emb (ix2 k (j 1))))
        * d (((cfg1.win 1).blk t).view.emb (ix2 (j 0) (0 : Fin 1)))
      = Cert.LinkPred.linEpi A d b w (((cfg1.win 4).blk t).view.emb j) := by
  obtain ⟨e0, e1, e2, e3, e4, e5, e6, e7, e8⟩ := idx_facts t
  show _ = (∑ k : Fin 128, max (A (ix2 (((cfg1.win 4).blk t).view.emb j 0) k) * d (ix2 (((cfg1.win 4).blk t).view.emb j 0) (0 : Fin 1))
          + b (ix1 k)) 0 * w (ix2 k (((cfg1.win 4).blk t).view.emb j 1)))
        * d (ix2 (((cfg1.win 4).blk t).view.emb j 0) (0 : Fin 1))
  have h0 : ∀ k : Fin 128, ((cfg1.win 0).blk t).view.emb (ix2 (j 0) k) = ix2 (((cfg1.win 4).blk t).view.emb j 0) k := fun k => by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  have h1 : ((cfg1.win 1).blk t).view.emb (ix2 (j 0) (0 : Fin 1)) = ix2 (((cfg1.win 4).blk t).view.emb j 0) (0 : Fin 1) := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  have h2 : ∀ k : Fin 128, ((cfg1.win 2).blk t).view.emb (ix1 k) = ix1 k := fun k => by
    funext a; apply Fin.ext
    match a with
    | ⟨0, _⟩ => show win1_2.index t (0 : Fin 1) * 128 + 1 * k.val = k.val; omega
  have h3 : ∀ k : Fin 128, ((cfg1.win 3).blk t).view.emb (ix2 k (j 1)) = ix2 k (((cfg1.win 4).blk t).view.emb j 1) := fun k => by
    funext a; apply Fin.ext
    match a with
    | ⟨0, _⟩ => show win1_3.index t (0 : Fin 2) * 128 + 1 * k.val = k.val; omega
    | ⟨1, _⟩ => show win1_3.index t (1 : Fin 2) * 128 + 1 * (j 1).val = win1_4.index t (1 : Fin 2) * 128 + 1 * (j 1).val; omega
  rw [h1]
  refine congrArg (· * d (ix2 (((cfg1.win 4).blk t).view.emb j 0) (0 : Fin 1))) ?_
  refine Finset.sum_congr rfl fun k _ => ?_
  rw [h0 k, h2 k, h3 k]
  rfl

/-- What point t writes back is block t of the fused step of the whole arrays as the region finds them. -/
theorem flushed_eq (c : Dev nD) (t : Fin cfg1.N) :
    (dat1 (F := Ideal) V c).flushed 4 t
      = ((cfg1.win 4).blk t).view.read (Elt Ideal)
          (Cert.LinkPred.linEpi (V c main_v29) (V c main_v16) (V c main_v31) (V c main_v33)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128) hz1,
    View.ld_unit_zero (S := S128x128) hz]
  rw [pay_eq]
  funext j
  exact blk_eq (V c main_v29) (V c main_v16) (V c main_v31) (V c main_v33) t j

/-- An index of the array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v34).slice (win1_4.rect t)).set ↔ _
  rw [View.set_slice_whole, Rect.mem_set_unit]
  exact Iff.rfl

/-- Every index of the array is in the block of the point its row's block of 5000 names. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5, e6, e7, e8⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region: the previous layer's closing step followed by the scaled projection, of the
    whole arrays. -/
theorem final (c : Dev nD) :
    (dat1 (F := Ideal) V c).arrAt 4 cfg1.N
      = Cert.LinkPred.linEpi (V c main_v29) (V c main_v16) (V c main_v31) (V c main_v33) :=
  (dat1 (F := Ideal) V c).arrAt_eq_of_cover 4 _ (fun t _ => flushed_eq V c t) cover

end Cert.LinkPred.R1

end
-- ==== Proof.Region2.lean ====
/-
  The closing step of a graph-convolution layer, block by block and as one array.

  The region runs over 10 points; point t holds rows 5000 t … 5000 t + 4999 of the aggregated features and of the
  per-node factor, and the whole bias. Its body multiplies each row by the row's factor, adds the bias along the
  columns and applies the rectifier. Read entry by entry, what point t writes back is block t of
  max(agg(n, j) · d(n) + b(j), 0) taken over the whole arrays, and the ten blocks tile the 50000 rows: so the
  output array ends as that one function of the input arrays.
-/
import proofs.«100846_j62912680952407_2_alg».proof.Proof.Gen.KernelIdeal.Frame
import proofs.«100846_j62912680952407_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.LinkPred.R2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- A column broadcast along the rows: an [a, 1] array broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result at row p, column q of a block: the block's entry scaled by the row's factor, the bias of the
    column added, and the rectifier. -/
theorem pay_apply (x0 : Vec Ideal S5000x128 .f32) (x1 : Vec Ideal S5000x1 .f32) (x2 : Vec Ideal S128 .f32)
    (p : Fin 5000) (q : Fin 128) :
    k2_pay1 (F := Ideal) x0 x1 x2 (ix2 p q) = max (x0 (ix2 p q) * x1 (ix2 p (0 : Fin 1)) + x2 (ix1 q)) 0 := by
  unfold k2_pay1
  show max (shapeCast S5000x128 x0 _ (ix2 p q) * broadcastTo S5000x128 (shapeCast S5000x1 x1 _) _ (ix2 p q)
      + broadcastTo S5000x128 (shapeCast S1x128 (shapeCast S128 x2 _) _) _ (ix2 p q)) (Ideal.ofBits .f32 0x00000000#32) = _
  rw [shapeCast_self, shapeCast_self, shapeCast_self, broadcastTo_a1_ab_apply, broadcastTo_1b_ab_apply,
    shapeCast_a_1a_apply, Ideal.ofBits_zero_f32]

/-- The same at an index of the block. -/
theorem pay_eq (x0 : Vec Ideal S5000x128 .f32) (x1 : Vec Ideal S5000x1 .f32) (x2 : Vec Ideal S128 .f32) :
    k2_pay1 (F := Ideal) x0 x1 x2 = fun j : S5000x128.Idx => max (x0 j * x1 (ix2 (j 0) (0 : Fin 1)) + x2 (ix1 (j 1))) 0 := by
  funext j
  obtain ⟨p, q, rfl⟩ : ∃ (p : Fin 5000) (q : Fin 128), j = ix2 p q := ⟨j 0, j 1, eq_ix2 j⟩
  exact pay_apply x0 x1 x2 p q

theorem hz : (![0, 0] : Fin 2 → Nat) = fun _ => 0 := funext fun a => by fin_cases a <;> rfl
theorem hz1 : (![0] : Fin 1 → Nat) = fun _ => 0 := funext fun a => by fin_cases a; rfl

/-- The printed index maps over the grid: at point t the row-blocked windows are at block (t, 0), the bias at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- An index of the array is in point t's block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v47).slice (win2_3.rect t)).set ↔ _
  rw [View.set_slice_whole, Rect.mem_set_unit]
  exact Iff.rfl

/-- Every index of the array is in the block of the point its row's block of 5000 names. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e0, e1, e2, e3, e4, e5, e6⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- Block t of the closing step of whole arrays, entry by entry: the input windows' blocks at point t sit where the
    output's block says (rows 5000 t … 5000 t + 4999; the bias whole). -/
theorem blk_eq (A : S50000x128.Idx → EReal) (d : S50000x1.Idx → EReal) (b : S128.Idx → EReal) (t : Fin cfg2.N)
    (j : S5000x128.Idx) :
    max (A (((cfg2.win 0).blk t).view.emb j) * d (((cfg2.win 1).blk t).view.emb (ix2 (j 0) (0 : Fin 1)))
        + b (((cfg2.win 2).blk t).view.emb (ix1 (j 1)))) 0
      = Cert.LinkPred.epi A d b (((cfg2.win 3).blk t).view.emb j) := by
  obtain ⟨e0, e1, e2, e3, e4, e5, e6⟩ := idx_facts t
  show _ = max (A (((cfg2.win 3).blk t).view.emb j) * d (ix2 (((cfg2.win 3).blk t).view.emb j 0) (0 : Fin 1))
        + b (ix1 (((cfg2.win 3).blk t).view.emb j 1))) 0
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * (j 1).val = win2_3.index t (1 : Fin 2) * 128 + 1 * (j 1).val; omega
  have h1 : ((cfg2.win 1).blk t).view.emb (ix2 (j 0) (0 : Fin 1)) = ix2 (((cfg2.win 3).blk t).view.emb j 0) (0 : Fin 1) := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  have h2 : ((cfg2.win 2).blk t).view.emb (ix1 (j 1)) = ix1 (((cfg2.win 3).blk t).view.emb j 1) := by
    funext a; apply Fin.ext
    match a with
    | ⟨0, _⟩ => show win2_2.index t (0 : Fin 1) * 128 + 1 * (j 1).val = win2_3.index t (1 : Fin 2) * 128 + 1 * (j 1).val; omega
  rw [h0, h1, h2]
  rfl

/-- What point t writes back is block t of the closing step of the whole arrays as the region finds them. -/
theorem flushed_eq (c : Dev nD) (t : Fin cfg2.N) :
    (dat2 (F := Ideal) V c).flushed 3 t
      = ((cfg2.win 3).blk t).view.read (Elt Ideal) (Cert.LinkPred.epi (V c main_v44) (V c main_v16) (V c main_v46)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S128) hz1]
  rw [pay_eq]
  funext j
  exact blk_eq (V c main_v44) (V c main_v16) (V c main_v46) t j

/-- The output array after the region: the closing step (scale by the node's factor, bias, rectifier) of the whole arrays. -/
theorem final (c : Dev nD) :
    (dat2 (F := Ideal) V c).arrAt 3 cfg2.N = Cert.LinkPred.epi (V c main_v44) (V c main_v16) (V c main_v46) :=
  (dat2 (F := Ideal) V c).arrAt_eq_of_cover 3 _ (fun t _ => flushed_eq V c t) cover

end Cert.LinkPred.R2

end
-- ==== Proof.Region3.lean ====
/-
  Region 3, the chemistry projection: the output array after the region is `chem` of the input arrays as the region
  finds them. First the body's arithmetic at an entry of its block (one product into a zero accumulator, a row
  broadcast of the bias, the rectifier, a column broadcast of the mask); then each window's block as rows of its
  array, what every point writes back, and the cover of the array by the 25 blocks of 2000 rows.
-/
import proofs.«100846_j62912680952407_2_alg».proof.Proof.Gen.KernelIdeal.Frame
import proofs.«100846_j62912680952407_2_alg».proof.Proof.Spec
import proofs.«100846_j62912680952407_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LinkPred.R3

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- A column broadcast along its rows: a `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's record reads its left operand at (row, k) and its right operand at (k, column). -/
theorem dot_l0 (i : S2000x128.Idx) (q : dot_S2000x768_S768x128_S2000x128_1_0_0_1_n_n.contr.Idx) :
    (dot_S2000x768_S768x128_S2000x128_1_0_0_1_n_n.lhsIdx i q 0).val = (i 0).val := by
  unfold DotDims.lhsIdx
  rw [dif_neg (show ¬(0 : Fin S2000x768.rank) ∈ dot_S2000x768_S768x128_S2000x128_1_0_0_1_n_n.lhsBatch by decide),
    dif_pos (show (0 : Fin S2000x768.rank) ∈ dot_S2000x768_S768x128_S2000x128_1_0_0_1_n_n.lhsNonContracting by decide)]
  rfl
theorem dot_r1 (i : S2000x128.Idx) (q : dot_S2000x768_S768x128_S2000x128_1_0_0_1_n_n.contr.Idx) :
    (dot_S2000x768_S768x128_S2000x128_1_0_0_1_n_n.rhsIdx i q 1).val = (i 1).val := by
  unfold DotDims.rhsIdx
  rw [dif_neg (show ¬(1 : Fin S768x128.rank) ∈ dot_S2000x768_S768x128_S2000x128_1_0_0_1_n_n.rhsBatch by decide),
    dif_pos (show (1 : Fin S768x128.rank) ∈ dot_S2000x768_S768x128_S2000x128_1_0_0_1_n_n.rhsNonContracting by decide)]
  rfl

/-- The block product at an entry: the sum over the 768 contracted coordinates. -/
theorem mm_apply (x : FVec Ideal S2000x768 .bf16) (w : FVec Ideal S768x128 .bf16) (p : Fin 2000) (q : Fin 128) :
    matmul dot_S2000x768_S768x128_S2000x128_1_0_0_1_n_n none x w (constant S2000x128 .f32 0x00000000#32) (ix2 p q)
      = ∑ k : Fin 768, x (ix2 p k) * w (ix2 k q) :=
  PlainDot.matmul_zero_apply dot_S2000x768_S768x128_S2000x128_1_0_0_1_n_n rfl rfl dot_l0
    (fun i q => dot_S2000x768_S768x128_S2000x128_1_0_0_1_n_n.lhsIdx_val_of_single rfl i q)
    (fun i q => dot_S2000x768_S768x128_S2000x128_1_0_0_1_n_n.rhsIdx_val_of_single rfl i q)
    dot_r1 none x w (ix2 p q)

/-- What the body stores at row `p`, column `q` of its block: max((x·W)(p, q) + b(q), 0) · mask(p). -/
theorem pay_apply (x0 : Vec Ideal S2000x768 .f32) (x1 : Vec Ideal S768x128 .f32) (x2 : Vec Ideal S128 .f32)
    (x3 : Vec Ideal S2000x1 .f32) (p : Fin 2000) (q : Fin 128) :
    k3_pay1 x0 x1 x2 x3 (ix2 p q)
      = max ((∑ k : Fin 768, x0 (ix2 p k) * x1 (ix2 k q)) + x2 (ix1 q)) 0 * x3 (ix2 p (0 : Fin 1)) := by
  unfold k3_pay1
  rw [shapeCast_self, shapeCast_self, mulf_apply, maximumf_apply, addf_apply, broadcast_apply, mm_apply, broadcastTo_1b_ab_apply,
    shapeCast_a_1a_apply, broadcastTo_a1_ab_apply]
  show max (_ + _) (Ideal.ofBits .f32 0x00000000#32) * _ = _
  rw [Ideal.ofBits_zero_f32]
  rfl

/-! ## From blocks to the array -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 25 points: the three row-blocked windows sit at block (t, 0), the weight and the bias
    at their one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Row `p` of the feature block at point `t` is row `2000 t + p` of the feature array. -/
theorem feat_apply (c : Dev nD) (t : Fin cfg3.N) (p : Fin 2000) (r : Fin 50000) (hr : r.val = t.val * 2000 + p.val) (k : Fin 768) :
    (iblk3 (F := Ideal) V c 0 t : Vec Ideal S2000x768 .f32) (ix2 p k) = (V c main_arg1 : S50000x768.Idx → EReal) (ix2 r k) := by
  obtain ⟨e0, e1, -⟩ := idx_facts t
  unfold iblk3
  rw [View.read_apply]
  show V c main_arg1 _ = V c main_arg1 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 768 + 1 * k.val = k.val; rw [e1]; omega

/-- The weight's one block is the weight. -/
theorem weight_apply (c : Dev nD) (t : Fin cfg3.N) (k : Fin 768) (q : Fin 128) :
    (iblk3 (F := Ideal) V c 1 t : Vec Ideal S768x128 .f32) (ix2 k q) = (V c main_arg8 : S768x128.Idx → EReal) (ix2 k q) := by
  obtain ⟨-, -, e0, e1, -⟩ := idx_facts t
  unfold iblk3
  rw [View.read_apply]
  show V c main_arg8 _ = V c main_arg8 _
  congr 1
  funext a
  apply Fin.ext
  match a with
  | ⟨0, _⟩ => show win3_1.index t (0 : Fin 2) * 768 + 1 * k.val = k.val; rw [e0]; omega
  | ⟨1, _⟩ => show win3_1.index t (1 : Fin 2) * 128 + 1 * q.val = q.val; rw [e1]; omega

/-- The bias's one block is the bias. -/
theorem bias_apply (c : Dev nD) (t : Fin cfg3.N) (q : Fin 128) :
    (iblk3 (F := Ideal) V c 2 t : Vec Ideal S128 .f32) (ix1 q) = (V c main_arg9 : S128.Idx → EReal) (ix1 q) := by
  obtain ⟨-, -, -, -, e0, -⟩ := idx_facts t
  unfold iblk3
  rw [View.read_apply]
  show V c main_arg9 _ = V c main_arg9 _
  congr 1
  funext a
  apply Fin.ext
  match a with
  | ⟨0, _⟩ => show win3_2.index t (0 : Fin 1) * 128 + 1 * q.val = q.val; rw [e0]; omega

/-- Row `p` of the mask block at point `t` is row `2000 t + p` of the mask. -/
theorem mask_apply (c : Dev nD) (t : Fin cfg3.N) (p : Fin 2000) (r : Fin 50000) (hr : r.val = t.val * 2000 + p.val) :
    (iblk3 (F := Ideal) V c 3 t : Vec Ideal S2000x1 .f32) (ix2 p (0 : Fin 1)) = (V c main_v48 : S50000x1.Idx → EReal) (ix2 r (0 : Fin 1)) := by
  obtain ⟨-, -, -, -, -, e0, e1, -⟩ := idx_facts t
  unfold iblk3
  rw [View.read_apply]
  show V c main_v48 _ = V c main_v48 _
  congr 1
  funext a
  apply Fin.ext
  match a with
  | ⟨0, _⟩ => show win3_3.index t (0 : Fin 2) * 2000 + 1 * p.val = r.val; rw [e0, hr]; omega
  | ⟨1, _⟩ => show win3_3.index t (1 : Fin 2) * 1 + 1 * (0 : Fin 1).val = (0 : Fin 1).val; rw [e1]; rfl

/-- Where entry `(p, q)` of the output block at point `t` sits in the output array: row `2000 t + p`, column `q`. -/
theorem out_emb (t : Fin cfg3.N) (p : Fin 2000) (q : Fin 128) (r : Fin 50000) (hr : r.val = t.val * 2000 + p.val) :
    ((cfg3.win 4).blk t).view.emb (ix2 p q) = (ix2 r q : S50000x128.Idx) := by
  obtain ⟨-, -, -, -, -, -, -, e0, e1⟩ := idx_facts t
  funext a
  apply Fin.ext
  match a with
  | ⟨0, _⟩ => show win3_4.index t (0 : Fin 2) * 2000 + 1 * p.val = r.val; rw [e0, hr]; omega
  | ⟨1, _⟩ => show win3_4.index t (1 : Fin 2) * 128 + 1 * q.val = q.val; rw [e1]; omega

/-- The chemistry projection at row `r`, column `q`. -/
theorem chem_apply (x : Arr ⟨2, ![50000, 768]⟩) (w : Arr ⟨2, ![768, 128]⟩) (b : Arr ⟨1, ![128]⟩) (mk : Arr ⟨2, ![50000, 1]⟩)
    (r : Fin 50000) (q : Fin 128) :
    chem x w b mk (ix2 r q) = max ((∑ k : Fin 768, x (ix2 r k) * w (ix2 k q)) + b (ix1 q)) 0 * mk (ix2 r (0 : Fin 1)) := rfl

/-- WHAT POINT `t` WRITES BACK is block `t` of the chemistry projection of the arrays as the region finds them. -/
theorem flushed_eq (c : Dev nD) (t : Fin cfg3.N) :
    (dat3 (F := Ideal) V c).flushed 4 t
      = ((cfg3.win 4).blk t).view.read (Elt Ideal) (chem (V c main_arg1) (V c main_arg8) (V c main_arg9) (V c main_v48)) := by
  show (cfg3.win 4).cut (grid3.coords t) ((dat3 V c).after 4 t) = _
  rw [after3_4]
  unfold out3_4
  rw [View.canon_unit_zero zeros2]
  simp only [View.ld_unit_zero (S := S2000x768) zeros2, View.ld_unit_zero (S := S768x128) zeros2,
    View.ld_unit_zero (S := S128) zeros1, View.ld_unit_zero (S := S2000x1) zeros2]
  funext j
  obtain ⟨p, q, rfl⟩ : ∃ (p : Fin 2000) (q : Fin 128), j = ix2 p q := ⟨j 0, j 1, eq_ix2 j⟩
  have hN : cfg3.N = 25 := N_3
  have ht : t.val < 25 := hN ▸ t.isLt
  have hp : p.val < 2000 := p.isLt
  obtain ⟨r, hr⟩ : ∃ r : Fin 50000, r.val = t.val * 2000 + p.val := ⟨⟨t.val * 2000 + p.val, by omega⟩, rfl⟩
  show k3_pay1 (iblk3 V c 0 t) (iblk3 V c 1 t) (iblk3 V c 2 t) (iblk3 V c 3 t) (ix2 p q)
    = chem (V c main_arg1) (V c main_arg8) (V c main_arg9) (V c main_v48) (((cfg3.win 4).blk t).view.emb (ix2 p q))
  rw [pay_apply, out_emb t p q r hr, bias_apply, mask_apply V c t p r hr, chem_apply]
  simp only [feat_apply V c t p r hr, weight_apply]

/-- Every row of the output array is in the block of the point its 2000-row group names. -/
theorem cover (i : S50000x128.Idx) : ∃ t : Fin cfg3.N, (cfg3.win 4).flush t = true ∧ i ∈ ((cfg3.win 4).blk t).view.set := by
  have hN : cfg3.N = 25 := N_3
  have hi0 : (i 0).val < 50000 := (i 0).isLt
  have hi1 : (i 1).val < 128 := (i 1).isLt
  obtain ⟨t, ht⟩ : ∃ t : Fin cfg3.N, t.val = (i 0).val / 2000 := ⟨⟨(i 0).val / 2000, by omega⟩, rfl⟩
  obtain ⟨-, -, -, -, -, -, -, e0, e1⟩ := idx_facts t
  refine ⟨t, flush3_4 t, ?_⟩
  show i ∈ ((View.whole main_v49).slice (win3_4.rect t)).set
  rw [View.set_slice_whole, Rect.mem_set_unit]
  intro a
  match a with
  | ⟨0, _⟩ => show win3_4.index t (0 : Fin 2) * 2000 ≤ (i 0).val ∧ (i 0).val < win3_4.index t (0 : Fin 2) * 2000 + 2000; rw [e0, ht]; omega
  | ⟨1, _⟩ => show win3_4.index t (1 : Fin 2) * 128 ≤ (i 1).val ∧ (i 1).val < win3_4.index t (1 : Fin 2) * 128 + 128; rw [e1]; omega

/-- THE ARRAY after the region: the chemistry projection of the arrays as the region finds them. -/
theorem final (c : Dev nD) :
    (dat3 (F := Ideal) V c).arrAt 4 cfg3.N = chem (V c main_arg1) (V c main_arg8) (V c main_arg9) (V c main_v48) :=
  (dat3 (F := Ideal) V c).arrAt_eq_of_cover 4 _ (fun t _ => flushed_eq V c t) cover

end Cert.LinkPred.R3

end
-- ==== Proof.KHead2.lean ====
/-
  The encoder's output and the chemistry block's output, as functions of the argument arrays.

  Each block's output array is its whole-array function of its input arrays as the block finds them; the inputs are
  what the preceding stretch of host operations left: the gathered and scatter-added previous output, the scale
  column, and slices of the weights.
-/
import proofs.«100846_j62912680952407_2_alg».proof.Proof.KHead
import proofs.«100846_j62912680952407_2_alg».proof.Proof.Region0
import proofs.«100846_j62912680952407_2_alg».proof.Proof.Region1
import proofs.«100846_j62912680952407_2_alg».proof.Proof.Region2
import proofs.«100846_j62912680952407_2_alg».proof.Proof.Region3

set_option maxRecDepth 16384

noncomputable section

namespace Cert.LinkPred.K

open Cert.KernelIdeal Cert.KernelIdeal.Gen Cert.LinkPred
open Idealize.ShloMosaic Idealize.ShloMosaic.TcCoe Idealize.SL.Sem Idealize.ShloMosaic.StableHlo
open Idealize.ShloMosaic.Pipeline (Dat)

/-- The encoder's output in the per-node arrangement, over the host operations' own gather and scatter-add. -/
def zK (a0 : IVec S2x1000000 32) (a5 : FVec Ideal S50000x128 .f32) (a6 : FVec Ideal S2x128x128 .f32) (a7 : FVec Ideal S2x128 .f32) :
    FVec Ideal S50000x128 .f32 :=
  epi (agg a0 (linEpi (agg a0 (lin a5 (w0 a6) (dcol a0))) (dcol a0) (b0 a7) (w1 a6))) (dcol a0) (b1 a7)

/-- The chemistry block's output. -/
def ccK (a1 : FVec Ideal S50000x768 .f32) (a8 : FVec Ideal S768x128 .f32) (a9 : FVec Ideal S128 .f32) (a4 : FVec Ideal S50000 .f32) :
    FVec Ideal S50000x128 .f32 :=
  chem a1 a8 a9 (shapeCast S50000x1 a4 shapeCasts_S50000_S50000x1)

variable (m : (ℓ : Loc nD τ sig) → Buf (Elt Ideal) ℓ) (ρ : Dev nD → PrngReg) (c : Dev nD)

/-- After the first block: the first layer's projection, scaled at the source. -/
theorem h0 : W4 (F := Ideal) m ρ c (Proc.devRef .tc main_v19) = lin (m ((c : Thread nD τ).loc main_arg5)) (w0 (m ((c : Thread nD τ).loc main_arg6))) (dcol (m ((c : Thread nD τ).loc main_arg0))) := by
  refine (W4_arr m ρ c 3).trans ((R0.final (V3 m ρ) c).trans ?_)
  show lin (W3 (F := Ideal) m ρ c (Proc.devRef .tc main_arg5)) (W3 (F := Ideal) m ρ c (Proc.devRef .tc main_v18)) (W3 (F := Ideal) m ρ c (Proc.devRef .tc main_v16)) = _
  rw [a3_arg5, s3_v18, s3_v16]

/-- After the second block: the first layer closed and the second layer's projection. -/
theorem h1 : W6 (F := Ideal) m ρ c (Proc.devRef .tc main_v34)
    = linEpi (agg (m ((c : Thread nD τ).loc main_arg0)) (lin (m ((c : Thread nD τ).loc main_arg5)) (w0 (m ((c : Thread nD τ).loc main_arg6))) (dcol (m ((c : Thread nD τ).loc main_arg0))))) (dcol (m ((c : Thread nD τ).loc main_arg0)))
        (b0 (m ((c : Thread nD τ).loc main_arg7))) (w1 (m ((c : Thread nD τ).loc main_arg6))) := by
  refine (W6_arr m ρ c 4).trans ((R1.final (V5 m ρ) c).trans ?_)
  show linEpi (W5 (F := Ideal) m ρ c (Proc.devRef .tc main_v29)) (W5 (F := Ideal) m ρ c (Proc.devRef .tc main_v16)) (W5 (F := Ideal) m ρ c (Proc.devRef .tc main_v31)) (W5 (F := Ideal) m ρ c (Proc.devRef .tc main_v33)) = _
  rw [s5_v29, s5_v16, s5_v31, s5_v33, h0]

/-- After the third block: the encoder's output. -/
theorem h2 : W8 (F := Ideal) m ρ c (Proc.devRef .tc main_v47) = zK (m ((c : Thread nD τ).loc main_arg0)) (m ((c : Thread nD τ).loc main_arg5)) (m ((c : Thread nD τ).loc main_arg6)) (m ((c : Thread nD τ).loc main_arg7)) := by
  refine (W8_arr m ρ c 3).trans ((R2.final (V7 m ρ) c).trans ?_)
  show epi (W7 (F := Ideal) m ρ c (Proc.devRef .tc main_v44)) (W7 (F := Ideal) m ρ c (Proc.devRef .tc main_v16)) (W7 (F := Ideal) m ρ c (Proc.devRef .tc main_v46)) = _
  rw [s7_v44, s7_v16, s7_v46, h1]
  rfl

/-- The encoder's output is still there after the chemistry block. -/
theorem z10 : W10 (F := Ideal) m ρ c (Proc.devRef .tc main_v47) = zK (m ((c : Thread nD τ).loc main_arg0)) (m ((c : Thread nD τ).loc main_arg5)) (m ((c : Thread nD τ).loc main_arg6)) (m ((c : Thread nD τ).loc main_arg7)) :=
  (W10_of_ne m ρ c main_v47 (by decide)).trans ((s9_v47 m ρ c).trans (h2 m ρ c))

/-- After the fourth block: the chemistry projection. -/
theorem cc10 : W10 (F := Ideal) m ρ c (Proc.devRef .tc main_v49) = ccK (m ((c : Thread nD τ).loc main_arg1)) (m ((c : Thread nD τ).loc main_arg8)) (m ((c : Thread nD τ).loc main_arg9)) (m ((c : Thread nD τ).loc main_arg4)) := by
  refine (W10_arr m ρ c 4).trans ((R3.final (V9 m ρ) c).trans ?_)
  show chem (W9 (F := Ideal) m ρ c (Proc.devRef .tc main_arg1)) (W9 (F := Ideal) m ρ c (Proc.devRef .tc main_arg8)) (W9 (F := Ideal) m ρ c (Proc.devRef .tc main_arg9)) (W9 (F := Ideal) m ρ c (Proc.devRef .tc main_v48)) = _
  rw [a9_arg1, a9_arg8, a9_arg9, s9_v48]
  rfl

end Cert.LinkPred.K

end
-- ==== Proof.Region4.lean ====
/-
  Region 4, the decoder: the output array after the region is `dec` of the input arrays as the region finds
  them. First the body's arithmetic at an entry of its block (two products into zero accumulators added, a row
  broadcast of the hidden bias, the rectifier, a third product against the widened last weight, a row broadcast of
  the last bias); then each window's block as rows of its array, what every point writes back, and the cover of the
  array by the 100 blocks of 4000 rows.
-/
import proofs.«100846_j62912680952407_2_alg».proof.Proof.Gen.KernelIdeal.Frame
import proofs.«100846_j62912680952407_2_alg».proof.Proof.Spec
import proofs.«100846_j62912680952407_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LinkPred.R4

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- The first layer's record reads its left operand at (row, k) and its right operand at (k, column). -/
theorem dotA_l0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem dotA_r1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl
/-- So does the last layer's. -/
theorem dotB_l0 (i : S4000x8.Idx) (q : dot_S4000x128_S128x8_S4000x8_1_0_0_1_n_n.contr.Idx) :
    (dot_S4000x128_S128x8_S4000x8_1_0_0_1_n_n.lhsIdx i q 0).val = (i 0).val := by
  unfold DotDims.lhsIdx
  rw [dif_neg (show ¬(0 : Fin S4000x128.rank) ∈ dot_S4000x128_S128x8_S4000x8_1_0_0_1_n_n.lhsBatch by decide),
    dif_pos (show (0 : Fin S4000x128.rank) ∈ dot_S4000x128_S128x8_S4000x8_1_0_0_1_n_n.lhsNonContracting by decide)]
  rfl
theorem dotB_r1 (i : S4000x8.Idx) (q : dot_S4000x128_S128x8_S4000x8_1_0_0_1_n_n.contr.Idx) :
    (dot_S4000x128_S128x8_S4000x8_1_0_0_1_n_n.rhsIdx i q 1).val = (i 1).val := by
  unfold DotDims.rhsIdx
  rw [dif_neg (show ¬(1 : Fin S128x8.rank) ∈ dot_S4000x128_S128x8_S4000x8_1_0_0_1_n_n.rhsBatch by decide),
    dif_pos (show (1 : Fin S128x8.rank) ∈ dot_S4000x128_S128x8_S4000x8_1_0_0_1_n_n.rhsNonContracting by decide)]
  rfl

/-- A first-layer block product at an entry: the sum over the 128 contracted coordinates. -/
theorem mmA_apply (x : FVec Ideal S4000x128 .bf16) (w : FVec Ideal S128x128 .bf16) (p : Fin 4000) (k : Fin 128) :
    matmul dot_S4000x128_S128x128_S4000x128_1_0_0_1_n_n none x w (constant S4000x128 .f32 0x00000000#32) (ix2 p k)
      = ∑ j : Fin 128, x (ix2 p j) * w (ix2 j k) :=
  PlainDot.matmul_zero_apply dot_S4000x128_S128x128_S4000x128_1_0_0_1_n_n rfl rfl dotA_l0
    (fun i q => dot_S4000x128_S128x128_S4000x128_1_0_0_1_n_n.lhsIdx_val_of_single rfl i q)
    (fun i q => dot_S4000x128_S128x128_S4000x128_1_0_0_1_n_n.rhsIdx_val_of_single rfl i q)
    dotA_r1 none x w (ix2 p k)

/-- The last layer's block product at an entry. -/
theorem mmB_apply (x : FVec Ideal S4000x128 .bf16) (w : FVec Ideal S128x8 .bf16) (p : Fin 4000) (q : Fin 8) :
    matmul dot_S4000x128_S128x8_S4000x8_1_0_0_1_n_n none x w (constant S4000x8 .f32 0x00000000#32) (ix2 p q)
      = ∑ k : Fin 128, x (ix2 p k) * w (ix2 k q) :=
  PlainDot.matmul_zero_apply dot_S4000x128_S128x8_S4000x8_1_0_0_1_n_n rfl rfl dotB_l0
    (fun i q => dot_S4000x128_S128x8_S4000x8_1_0_0_1_n_n.lhsIdx_val_of_single rfl i q)
    (fun i q => dot_S4000x128_S128x8_S4000x8_1_0_0_1_n_n.rhsIdx_val_of_single rfl i q)
    dotB_r1 none x w (ix2 p q)

/-- What the body stores at row `p`, column `q` of its block: the hidden layer max(zp·W1z + cp·W1c + b1, 0) of row `p`
    against column `q` of the last weight, plus the last bias. -/
theorem pay_apply (x0 x1 : Vec Ideal S4000x128 .f32) (x2 x3 : Vec Ideal S128x128 .f32) (x4 : Vec Ideal S128 .f32)
    (x5 : Vec Ideal S128x8 .f32) (x6 : Vec Ideal S8 .f32) (p : Fin 4000) (q : Fin 8) :
    k4_pay1 x0 x1 x2 x3 x4 x5 x6 (ix2 p q)
      = (∑ k : Fin 128, max (((∑ j : Fin 128, x0 (ix2 p j) * x2 (ix2 j k)) + (∑ j : Fin 128, x1 (ix2 p j) * x3 (ix2 j k)))
          + x4 (ix1 k)) 0 * x5 (ix2 k q)) + x6 (ix1 q) := by
  unfold k4_pay1
  simp only [shapeCast_self]
  rw [addf_apply, mmB_apply, broadcastTo_1b_ab_apply, shapeCast_a_1a_apply]
  refine congrArg (· + x6 (ix1 q)) (Finset.sum_congr rfl fun k _ => ?_)
  rw [truncf_apply, truncf_apply, maximumf_apply, addf_apply, addf_apply, broadcast_apply, mmA_apply, mmA_apply,
    broadcastTo_1b_ab_apply, shapeCast_a_1a_apply]
  show max (_ + _) (Ideal.ofBits .f32 0x00000000#32) * _ = _
  rw [Ideal.ofBits_zero_f32]
  rfl

/-! ## From blocks to the array -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 100 points: the two inputs and the output sit at block (t, 0), the weights and the
    biases at their one block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = t.val ∧ win4_7.index t (1 : Fin 2) = 0 :=
  (by decide +kernel : ∀ t : Fin grid4.N, _)

/-- Row `p` of the first input's block at point `t` is row `4000 t + p` of its array. -/
theorem zp_apply (c : Dev nD) (t : Fin cfg4.N) (p : Fin 4000) (r : Fin 400000) (hr : r.val = t.val * 4000 + p.val) (j : Fin 128) :
    (iblk4 (F := Ideal) V c 0 t : Vec Ideal S4000x128 .f32) (ix2 p j) = (V c main_v72 : S400000x128.Idx → EReal) (ix2 r j) := by
  obtain ⟨e0, e1, -⟩ := idx_facts t
  unfold iblk4
  rw [View.read_apply]
  show V c main_v72 _ = V c main_v72 _
  congr 1
  funext a
  apply Fin.ext
  match a with
  | ⟨0, _⟩ => show win4_0.index t (0 : Fin 2) * 4000 + 1 * p.val = r.val; rw [e0, hr]; omega
  | ⟨1, _⟩ => show win4_0.index t (1 : Fin 2) * 128 + 1 * j.val = j.val; rw [e1]; omega

/-- Row `p` of the second input's block at point `t` is row `4000 t + p` of its array. -/
theorem cp_apply (c : Dev nD) (t : Fin cfg4.N) (p : Fin 4000) (r : Fin 400000) (hr : r.val = t.val * 4000 + p.val) (j : Fin 128) :
    (iblk4 (F := Ideal) V c 1 t : Vec Ideal S4000x128 .f32) (ix2 p j) = (V c main_v87 : S400000x128.Idx → EReal) (ix2 r j) := by
  obtain ⟨-, -, e0, e1, -⟩ := idx_facts t
  unfold iblk4
  rw [View.read_apply]
  show V c main_v87 _ = V c main_v87 _
  congr 1
  funext a
  apply Fin.ext
  match a with
  | ⟨0, _⟩ => show win4_1.index t (0 : Fin 2) * 4000 + 1 * p.val = r.val; rw [e0, hr]; omega
  | ⟨1, _⟩ => show win4_1.index t (1 : Fin 2) * 128 + 1 * j.val = j.val; rw [e1]; omega

/-- The first weight's one block is the weight. -/
theorem w1z_apply (c : Dev nD) (t : Fin cfg4.N) (j k : Fin 128) :
    (iblk4 (F := Ideal) V c 2 t : Vec Ideal S128x128 .f32) (ix2 j k) = (V c main_v50 : S128x128.Idx → EReal) (ix2 j k) := by
  obtain ⟨-, -, -, -, e0, e1, -⟩ := idx_facts t
  unfold iblk4
  rw [View.read_apply]
  show V c main_v50 _ = V c main_v50 _
  congr 1
  funext a
  apply Fin.ext
  match a with
  | ⟨0, _⟩ => show win4_2.index t (0 : Fin 2) * 128 + 1 * j.val = j.val; rw [e0]; omega
  | ⟨1, _⟩ => show win4_2.index t (1 : Fin 2) * 128 + 1 * k.val = k.val; rw [e1]; omega

/-- The second weight's one block is the weight. -/
theorem w1c_apply (c : Dev nD) (t : Fin cfg4.N) (j k : Fin 128) :
    (iblk4 (F := Ideal) V c 3 t : Vec Ideal S128x128 .f32) (ix2 j k) = (V c main_v51 : S128x128.Idx → EReal) (ix2 j k) := by
  obtain ⟨-, -, -, -, -, -, e0, e1, -⟩ := idx_facts t
  unfold iblk4
  rw [View.read_apply]
  show V c main_v51 _ = V c main_v51 _
  congr 1
  funext a
  apply Fin.ext
  match a with
  | ⟨0, _⟩ => show win4_3.index t (0 : Fin 2) * 128 + 1 * j.val = j.val; rw [e0]; omega
  | ⟨1, _⟩ => show win4_3.index t (1 : Fin 2) * 128 + 1 * k.val = k.val; rw [e1]; omega

/-- The hidden bias's one block is the bias. -/
theorem b1_apply (c : Dev nD) (t : Fin cfg4.N) (k : Fin 128) :
    (iblk4 (F := Ideal) V c 4 t : Vec Ideal S128 .f32) (ix1 k) = (V c main_arg11 : S128.Idx → EReal) (ix1 k) := by
  obtain ⟨-, -, -, -, -, -, -, -, e0, -⟩ := idx_facts t
  unfold iblk4
  rw [View.read_apply]
  show V c main_arg11 _ = V c main_arg11 _
  congr 1
  funext a
  apply Fin.ext
  match a with
  | ⟨0, _⟩ => show win4_4.index t (0 : Fin 1) * 128 + 1 * k.val = k.val; rw [e0]; omega

/-- The last weight's one block is the weight. -/
theorem w2_apply (c : Dev nD) (t : Fin cfg4.N) (k : Fin 128) (q : Fin 8) :
    (iblk4 (F := Ideal) V c 5 t : Vec Ideal S128x8 .f32) (ix2 k q) = (V c main_v52 : S128x8.Idx → EReal) (ix2 k q) := by
  obtain ⟨-, -, -, -, -, -, -, -, -, e0, e1, -⟩ := idx_facts t
  unfold iblk4
  rw [View.read_apply]
  show V c main_v52 _ = V c main_v52 _
  congr 1
  funext a
  apply Fin.ext
  match a with
  | ⟨0, _⟩ => show win4_5.index t (0 : Fin 2) * 128 + 1 * k.val = k.val; rw [e0]; omega
  | ⟨1, _⟩ => show win4_5.index t (1 : Fin 2) * 8 + 1 * q.val = q.val; rw [e1]; omega

/-- The last bias's one block is the bias. -/
theorem b2_apply (c : Dev nD) (t : Fin cfg4.N) (q : Fin 8) :
    (iblk4 (F := Ideal) V c 6 t : Vec Ideal S8 .f32) (ix1 q) = (V c main_v53 : S8.Idx → EReal) (ix1 q) := by
  obtain ⟨-, -, -, -, -, -, -, -, -, -, -, e0, -⟩ := idx_facts t
  unfold iblk4
  rw [View.read_apply]
  show V c main_v53 _ = V c main_v53 _
  congr 1
  funext a
  apply Fin.ext
  match a with
  | ⟨0, _⟩ => show win4_6.index t (0 : Fin 1) * 8 + 1 * q.val = q.val; rw [e0]; omega

/-- Where entry `(p, q)` of the output block at point `t` sits in the output array: row `4000 t + p`, column `q`. -/
theorem out_emb (t : Fin cfg4.N) (p : Fin 4000) (q : Fin 8) (r : Fin 400000) (hr : r.val = t.val * 4000 + p.val) :
    ((cfg4.win 7).blk t).view.emb (ix2 p q) = (ix2 r q : S400000x8.Idx) := by
  obtain ⟨-, -, -, -, -, -, -, -, -, -, -, -, e0, e1⟩ := idx_facts t
  funext a
  apply Fin.ext
  match a with
  | ⟨0, _⟩ => show win4_7.index t (0 : Fin 2) * 4000 + 1 * p.val = r.val; rw [e0, hr]; omega
  | ⟨1, _⟩ => show win4_7.index t (1 : Fin 2) * 8 + 1 * q.val = q.val; rw [e1]; omega

/-- The decoder at row `r`, column `q`, its hidden layer spelt out. -/
theorem dec_apply (zp cp : Arr ⟨2, ![400000, 128]⟩) (w1z w1c : Arr ⟨2, ![128, 128]⟩) (b1 : Arr ⟨1, ![128]⟩) (w2 : Arr ⟨2, ![128, 8]⟩)
    (b2 : Arr ⟨1, ![8]⟩) (r : Fin 400000) (q : Fin 8) :
    dec zp cp w1z w1c b1 w2 b2 (ix2 r q)
      = (∑ k : Fin 128, max (((∑ j : Fin 128, zp (ix2 r j) * w1z (ix2 j k)) + (∑ j : Fin 128, cp (ix2 r j) * w1c (ix2 j k)))
          + b1 (ix1 k)) 0 * w2 (ix2 k q)) + b2 (ix1 q) := rfl

/-- WHAT POINT `t` WRITES BACK is block `t` of the decoder of the arrays as the region finds them. -/
theorem flushed_eq (c : Dev nD) (t : Fin cfg4.N) :
    (dat4 (F := Ideal) V c).flushed 7 t
      = ((cfg4.win 7).blk t).view.read (Elt Ideal)
          (dec (V c main_v72) (V c main_v87) (V c main_v50) (V c main_v51) (V c main_arg11) (V c main_v52) (V c main_v53)) := by
  show (cfg4.win 7).cut (grid4.coords t) ((dat4 V c).after 7 t) = _
  rw [after4_7]
  unfold out4_7
  rw [View.canon_unit_zero zeros2]
  simp only [View.ld_unit_zero (S := S4000x128) zeros2, View.ld_unit_zero (S := S128x128) zeros2,
    View.ld_unit_zero (S := S128) zeros1, View.ld_unit_zero (S := S128x8) zeros2, View.ld_unit_zero (S := S8) zeros1]
  funext j
  obtain ⟨p, q, rfl⟩ : ∃ (p : Fin 4000) (q : Fin 8), j = ix2 p q := ⟨j 0, j 1, eq_ix2 j⟩
  have hN : cfg4.N = 100 := N_4
  have ht : t.val < 100 := hN ▸ t.isLt
  have hp : p.val < 4000 := p.isLt
  obtain ⟨r, hr⟩ : ∃ r : Fin 400000, r.val = t.val * 4000 + p.val := ⟨⟨t.val * 4000 + p.val, by omega⟩, rfl⟩
  show k4_pay1 (iblk4 V c 0 t) (iblk4 V c 1 t) (iblk4 V c 2 t) (iblk4 V c 3 t) (iblk4 V c 4 t) (iblk4 V c 5 t) (iblk4 V c 6 t) (ix2 p q)
    = dec (V c main_v72) (V c main_v87) (V c main_v50) (V c main_v51) (V c main_arg11) (V c main_v52) (V c main_v53)
        (((cfg4.win 7).blk t).view.emb (ix2 p q))
  rw [pay_apply, out_emb t p q r hr, b2_apply, dec_apply]
  simp only [zp_apply V c t p r hr, cp_apply V c t p r hr, w1z_apply, w1c_apply, b1_apply, w2_apply]

/-- Every row of the output array is in the block of the point its 4000-row group names. -/
theorem cover (i : S400000x8.Idx) : ∃ t : Fin cfg4.N, (cfg4.win 7).flush t = true ∧ i ∈ ((cfg4.win 7).blk t).view.set := by
  have hN : cfg4.N = 100 := N_4
  have hi0 : (i 0).val < 400000 := (i 0).isLt
  have hi1 : (i 1).val < 8 := (i 1).isLt
  obtain ⟨t, ht⟩ : ∃ t : Fin cfg4.N, t.val = (i 0).val / 4000 := ⟨⟨(i 0).val / 4000, by omega⟩, rfl⟩
  obtain ⟨-, -, -, -, -, -, -, -, -, -, -, -, e0, e1⟩ := idx_facts t
  refine ⟨t, flush4_7 t, ?_⟩
  show i ∈ ((View.whole main_v88).slice (win4_7.rect t)).set
  rw [View.set_slice_whole, Rect.mem_set_unit]
  intro a
  match a with
  | ⟨0, _⟩ => show win4_7.index t (0 : Fin 2) * 4000 ≤ (i 0).val ∧ (i 0).val < win4_7.index t (0 : Fin 2) * 4000 + 4000; rw [e0, ht]; omega
  | ⟨1, _⟩ => show win4_7.index t (1 : Fin 2) * 8 ≤ (i 1).val ∧ (i 1).val < win4_7.index t (1 : Fin 2) * 8 + 8; rw [e1]; omega

/-- THE ARRAY after the region: the decoder of the arrays as the region finds them. -/
theorem final (c : Dev nD) :
    (dat4 (F := Ideal) V c).arrAt 7 cfg4.N
      = dec (V c main_v72) (V c main_v87) (V c main_v50) (V c main_v51) (V c main_arg11) (V c main_v52) (V c main_v53) :=
  (dat4 (F := Ideal) V c).arrAt_eq_of_cover 7 _ (fun t _ => flushed_eq V c t) cover

end Cert.LinkPred.R4

end
-- ==== Proof.Region5.lean ====
/-
  Region 5, the decoder (its second launch): the output array after the region is `dec` of the input arrays as the region finds
  them. First the body's arithmetic at an entry of its block (two products into zero accumulators added, a row
  broadcast of the hidden bias, the rectifier, a third product against the widened last weight, a row broadcast of
  the last bias); then each window's block as rows of its array, what every point writes back, and the cover of the
  array by the 100 blocks of 4000 rows.
-/
import proofs.«100846_j62912680952407_2_alg».proof.Proof.Gen.KernelIdeal.Frame
import proofs.«100846_j62912680952407_2_alg».proof.Proof.Spec
import proofs.«100846_j62912680952407_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LinkPred.R5

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- The first layer's record reads its left operand at (row, k) and its right operand at (k, column). -/
theorem dotA_l0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem dotA_r1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl
/-- So does the last layer's. -/
theorem dotB_l0 (i : S4000x8.Idx) (q : dot_S4000x128_S128x8_S4000x8_1_0_0_1_n_n.contr.Idx) :
    (dot_S4000x128_S128x8_S4000x8_1_0_0_1_n_n.lhsIdx i q 0).val = (i 0).val := by
  unfold DotDims.lhsIdx
  rw [dif_neg (show ¬(0 : Fin S4000x128.rank) ∈ dot_S4000x128_S128x8_S4000x8_1_0_0_1_n_n.lhsBatch by decide),
    dif_pos (show (0 : Fin S4000x128.rank) ∈ dot_S4000x128_S128x8_S4000x8_1_0_0_1_n_n.lhsNonContracting by decide)]
  rfl
theorem dotB_r1 (i : S4000x8.Idx) (q : dot_S4000x128_S128x8_S4000x8_1_0_0_1_n_n.contr.Idx) :
    (dot_S4000x128_S128x8_S4000x8_1_0_0_1_n_n.rhsIdx i q 1).val = (i 1).val := by
  unfold DotDims.rhsIdx
  rw [dif_neg (show ¬(1 : Fin S128x8.rank) ∈ dot_S4000x128_S128x8_S4000x8_1_0_0_1_n_n.rhsBatch by decide),
    dif_pos (show (1 : Fin S128x8.rank) ∈ dot_S4000x128_S128x8_S4000x8_1_0_0_1_n_n.rhsNonContracting by decide)]
  rfl

/-- A first-layer block product at an entry: the sum over the 128 contracted coordinates. -/
theorem mmA_apply (x : FVec Ideal S4000x128 .bf16) (w : FVec Ideal S128x128 .bf16) (p : Fin 4000) (k : Fin 128) :
    matmul dot_S4000x128_S128x128_S4000x128_1_0_0_1_n_n none x w (constant S4000x128 .f32 0x00000000#32) (ix2 p k)
      = ∑ j : Fin 128, x (ix2 p j) * w (ix2 j k) :=
  PlainDot.matmul_zero_apply dot_S4000x128_S128x128_S4000x128_1_0_0_1_n_n rfl rfl dotA_l0
    (fun i q => dot_S4000x128_S128x128_S4000x128_1_0_0_1_n_n.lhsIdx_val_of_single rfl i q)
    (fun i q => dot_S4000x128_S128x128_S4000x128_1_0_0_1_n_n.rhsIdx_val_of_single rfl i q)
    dotA_r1 none x w (ix2 p k)

/-- The last layer's block product at an entry. -/
theorem mmB_apply (x : FVec Ideal S4000x128 .bf16) (w : FVec Ideal S128x8 .bf16) (p : Fin 4000) (q : Fin 8) :
    matmul dot_S4000x128_S128x8_S4000x8_1_0_0_1_n_n none x w (constant S4000x8 .f32 0x00000000#32) (ix2 p q)
      = ∑ k : Fin 128, x (ix2 p k) * w (ix2 k q) :=
  PlainDot.matmul_zero_apply dot_S4000x128_S128x8_S4000x8_1_0_0_1_n_n rfl rfl dotB_l0
    (fun i q => dot_S4000x128_S128x8_S4000x8_1_0_0_1_n_n.lhsIdx_val_of_single rfl i q)
    (fun i q => dot_S4000x128_S128x8_S4000x8_1_0_0_1_n_n.rhsIdx_val_of_single rfl i q)
    dotB_r1 none x w (ix2 p q)

/-- What the body stores at row `p`, column `q` of its block: the hidden layer max(zp·W1z + cp·W1c + b1, 0) of row `p`
    against column `q` of the last weight, plus the last bias. -/
theorem pay_apply (x0 x1 : Vec Ideal S4000x128 .f32) (x2 x3 : Vec Ideal S128x128 .f32) (x4 : Vec Ideal S128 .f32)
    (x5 : Vec Ideal S128x8 .f32) (x6 : Vec Ideal S8 .f32) (p : Fin 4000) (q : Fin 8) :
    k5_pay1 x0 x1 x2 x3 x4 x5 x6 (ix2 p q)
      = (∑ k : Fin 128, max (((∑ j : Fin 128, x0 (ix2 p j) * x2 (ix2 j k)) + (∑ j : Fin 128, x1 (ix2 p j) * x3 (ix2 j k)))
          + x4 (ix1 k)) 0 * x5 (ix2 k q)) + x6 (ix1 q) := by
  unfold k5_pay1
  simp only [shapeCast_self]
  rw [addf_apply, mmB_apply, broadcastTo_1b_ab_apply, shapeCast_a_1a_apply]
  refine congrArg (· + x6 (ix1 q)) (Finset.sum_congr rfl fun k _ => ?_)
  rw [truncf_apply, truncf_apply, maximumf_apply, addf_apply, addf_apply, broadcast_apply, mmA_apply, mmA_apply,
    broadcastTo_1b_ab_apply, shapeCast_a_1a_apply]
  show max (_ + _) (Ideal.ofBits .f32 0x00000000#32) * _ = _
  rw [Ideal.ofBits_zero_f32]
  rfl

/-! ## From blocks to the array -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 100 points: the two inputs and the output sit at block (t, 0), the weights and the
    biases at their one block. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0
    ∧ win5_6.index t (0 : Fin 1) = 0
    ∧ win5_7.index t (0 : Fin 2) = t.val ∧ win5_7.index t (1 : Fin 2) = 0 :=
  (by decide +kernel : ∀ t : Fin grid5.N, _)

/-- Row `p` of the first input's block at point `t` is row `4000 t + p` of its array. -/
theorem zp_apply (c : Dev nD) (t : Fin cfg5.N) (p : Fin 4000) (r : Fin 400000) (hr : r.val = t.val * 4000 + p.val) (j : Fin 128) :
    (iblk5 (F := Ideal) V c 0 t : Vec Ideal S4000x128 .f32) (ix2 p j) = (V c main_v109 : S400000x128.Idx → EReal) (ix2 r j) := by
  obtain ⟨e0, e1, -⟩ := idx_facts t
  unfold iblk5
  rw [View.read_apply]
  show V c main_v109 _ = V c main_v109 _
  congr 1
  funext a
  apply Fin.ext
  match a with
  | ⟨0, _⟩ => show win5_0.index t (0 : Fin 2) * 4000 + 1 * p.val = r.val; rw [e0, hr]; omega
  | ⟨1, _⟩ => show win5_0.index t (1 : Fin 2) * 128 + 1 * j.val = j.val; rw [e1]; omega

/-- Row `p` of the second input's block at point `t` is row `4000 t + p` of its array. -/
theorem cp_apply (c : Dev nD) (t : Fin cfg5.N) (p : Fin 4000) (r : Fin 400000) (hr : r.val = t.val * 4000 + p.val) (j : Fin 128) :
    (iblk5 (F := Ideal) V c 1 t : Vec Ideal S4000x128 .f32) (ix2 p j) = (V c main_v124 : S400000x128.Idx → EReal) (ix2 r j) := by
  obtain ⟨-, -, e0, e1, -⟩ := idx_facts t
  unfold iblk5
  rw [View.read_apply]
  show V c main_v124 _ = V c main_v124 _
  congr 1
  funext a
  apply Fin.ext
  match a with
  | ⟨0, _⟩ => show win5_1.index t (0 : Fin 2) * 4000 + 1 * p.val = r.val; rw [e0, hr]; omega
  | ⟨1, _⟩ => show win5_1.index t (1 : Fin 2) * 128 + 1 * j.val = j.val; rw [e1]; omega

/-- The first weight's one block is the weight. -/
theorem w1z_apply (c : Dev nD) (t : Fin cfg5.N) (j k : Fin 128) :
    (iblk5 (F := Ideal) V c 2 t : Vec Ideal S128x128 .f32) (ix2 j k) = (V c main_v50 : S128x128.Idx → EReal) (ix2 j k) := by
  obtain ⟨-, -, -, -, e0, e1, -⟩ := idx_facts t
  unfold iblk5
  rw [View.read_apply]
  show V c main_v50 _ = V c main_v50 _
  congr 1
  funext a
  apply Fin.ext
  match a with
  | ⟨0, _⟩ => show win5_2.index t (0 : Fin 2) * 128 + 1 * j.val = j.val; rw [e0]; omega
  | ⟨1, _⟩ => show win5_2.index t (1 : Fin 2) * 128 + 1 * k.val = k.val; rw [e1]; omega

/-- The second weight's one block is the weight. -/
theorem w1c_apply (c : Dev nD) (t : Fin cfg5.N) (j k : Fin 128) :
    (iblk5 (F := Ideal) V c 3 t : Vec Ideal S128x128 .f32) (ix2 j k) = (V c main_v51 : S128x128.Idx → EReal) (ix2 j k) := by
  obtain ⟨-, -, -, -, -, -, e0, e1, -⟩ := idx_facts t
  unfold iblk5
  rw [View.read_apply]
  show V c main_v51 _ = V c main_v51 _
  congr 1
  funext a
  apply Fin.ext
  match a with
  | ⟨0, _⟩ => show win5_3.index t (0 : Fin 2) * 128 + 1 * j.val = j.val; rw [e0]; omega
  | ⟨1, _⟩ => show win5_3.index t (1 : Fin 2) * 128 + 1 * k.val = k.val; rw [e1]; omega

/-- The hidden bias's one block is the bias. -/
theorem b1_apply (c : Dev nD) (t : Fin cfg5.N) (k : Fin 128) :
    (iblk5 (F := Ideal) V c 4 t : Vec Ideal S128 .f32) (ix1 k) = (V c main_arg11 : S128.Idx → EReal) (ix1 k) := by
  obtain ⟨-, -, -, -, -, -, -, -, e0, -⟩ := idx_facts t
  unfold iblk5
  rw [View.read_apply]
  show V c main_arg11 _ = V c main_arg11 _
  congr 1
  funext a
  apply Fin.ext
  match a with
  | ⟨0, _⟩ => show win5_4.index t (0 : Fin 1) * 128 + 1 * k.val = k.val; rw [e0]; omega

/-- The last weight's one block is the weight. -/
theorem w2_apply (c : Dev nD) (t : Fin cfg5.N) (k : Fin 128) (q : Fin 8) :
    (iblk5 (F := Ideal) V c 5 t : Vec Ideal S128x8 .f32) (ix2 k q) = (V c main_v52 : S128x8.Idx → EReal) (ix2 k q) := by
  obtain ⟨-, -, -, -, -, -, -, -, -, e0, e1, -⟩ := idx_facts t
  unfold iblk5
  rw [View.read_apply]
  show V c main_v52 _ = V c main_v52 _
  congr 1
  funext a
  apply Fin.ext
  match a with
  | ⟨0, _⟩ => show win5_5.index t (0 : Fin 2) * 128 + 1 * k.val = k.val; rw [e0]; omega
  | ⟨1, _⟩ => show win5_5.index t (1 : Fin 2) * 8 + 1 * q.val = q.val; rw [e1]; omega

/-- The last bias's one block is the bias. -/
theorem b2_apply (c : Dev nD) (t : Fin cfg5.N) (q : Fin 8) :
    (iblk5 (F := Ideal) V c 6 t : Vec Ideal S8 .f32) (ix1 q) = (V c main_v53 : S8.Idx → EReal) (ix1 q) := by
  obtain ⟨-, -, -, -, -, -, -, -, -, -, -, e0, -⟩ := idx_facts t
  unfold iblk5
  rw [View.read_apply]
  show V c main_v53 _ = V c main_v53 _
  congr 1
  funext a
  apply Fin.ext
  match a with
  | ⟨0, _⟩ => show win5_6.index t (0 : Fin 1) * 8 + 1 * q.val = q.val; rw [e0]; omega

/-- Where entry `(p, q)` of the output block at point `t` sits in the output array: row `4000 t + p`, column `q`. -/
theorem out_emb (t : Fin cfg5.N) (p : Fin 4000) (q : Fin 8) (r : Fin 400000) (hr : r.val = t.val * 4000 + p.val) :
    ((cfg5.win 7).blk t).view.emb (ix2 p q) = (ix2 r q : S400000x8.Idx) := by
  obtain ⟨-, -, -, -, -, -, -, -, -, -, -, -, e0, e1⟩ := idx_facts t
  funext a
  apply Fin.ext
  match a with
  | ⟨0, _⟩ => show win5_7.index t (0 : Fin 2) * 4000 + 1 * p.val = r.val; rw [e0, hr]; omega
  | ⟨1, _⟩ => show win5_7.index t (1 : Fin 2) * 8 + 1 * q.val = q.val; rw [e1]; omega

/-- The decoder at row `r`, column `q`, its hidden layer spelt out. -/
theorem dec_apply (zp cp : Arr ⟨2, ![400000, 128]⟩) (w1z w1c : Arr ⟨2, ![128, 128]⟩) (b1 : Arr ⟨1, ![128]⟩) (w2 : Arr ⟨2, ![128, 8]⟩)
    (b2 : Arr ⟨1, ![8]⟩) (r : Fin 400000) (q : Fin 8) :
    dec zp cp w1z w1c b1 w2 b2 (ix2 r q)
      = (∑ k : Fin 128, max (((∑ j : Fin 128, zp (ix2 r j) * w1z (ix2 j k)) + (∑ j : Fin 128, cp (ix2 r j) * w1c (ix2 j k)))
          + b1 (ix1 k)) 0 * w2 (ix2 k q)) + b2 (ix1 q) := rfl

/-- WHAT POINT `t` WRITES BACK is block `t` of the decoder of the arrays as the region finds them. -/
theorem flushed_eq (c : Dev nD) (t : Fin cfg5.N) :
    (dat5 (F := Ideal) V c).flushed 7 t
      = ((cfg5.win 7).blk t).view.read (Elt Ideal)
          (dec (V c main_v109) (V c main_v124) (V c main_v50) (V c main_v51) (V c main_arg11) (V c main_v52) (V c main_v53)) := by
  show (cfg5.win 7).cut (grid5.coords t) ((dat5 V c).after 7 t) = _
  rw [after5_7]
  unfold out5_7
  rw [View.canon_unit_zero zeros2]
  simp only [View.ld_unit_zero (S := S4000x128) zeros2, View.ld_unit_zero (S := S128x128) zeros2,
    View.ld_unit_zero (S := S128) zeros1, View.ld_unit_zero (S := S128x8) zeros2, View.ld_unit_zero (S := S8) zeros1]
  funext j
  obtain ⟨p, q, rfl⟩ : ∃ (p : Fin 4000) (q : Fin 8), j = ix2 p q := ⟨j 0, j 1, eq_ix2 j⟩
  have hN : cfg5.N = 100 := N_5
  have ht : t.val < 100 := hN ▸ t.isLt
  have hp : p.val < 4000 := p.isLt
  obtain ⟨r, hr⟩ : ∃ r : Fin 400000, r.val = t.val * 4000 + p.val := ⟨⟨t.val * 4000 + p.val, by omega⟩, rfl⟩
  show k5_pay1 (iblk5 V c 0 t) (iblk5 V c 1 t) (iblk5 V c 2 t) (iblk5 V c 3 t) (iblk5 V c 4 t) (iblk5 V c 5 t) (iblk5 V c 6 t) (ix2 p q)
    = dec (V c main_v109) (V c main_v124) (V c main_v50) (V c main_v51) (V c main_arg11) (V c main_v52) (V c main_v53)
        (((cfg5.win 7).blk t).view.emb (ix2 p q))
  rw [pay_apply, out_emb t p q r hr, b2_apply, dec_apply]
  simp only [zp_apply V c t p r hr, cp_apply V c t p r hr, w1z_apply, w1c_apply, b1_apply, w2_apply]

/-- Every row of the output array is in the block of the point its 4000-row group names. -/
theorem cover (i : S400000x8.Idx) : ∃ t : Fin cfg5.N, (cfg5.win 7).flush t = true ∧ i ∈ ((cfg5.win 7).blk t).view.set := by
  have hN : cfg5.N = 100 := N_5
  have hi0 : (i 0).val < 400000 := (i 0).isLt
  have hi1 : (i 1).val < 8 := (i 1).isLt
  obtain ⟨t, ht⟩ : ∃ t : Fin cfg5.N, t.val = (i 0).val / 4000 := ⟨⟨(i 0).val / 4000, by omega⟩, rfl⟩
  obtain ⟨-, -, -, -, -, -, -, -, -, -, -, -, e0, e1⟩ := idx_facts t
  refine ⟨t, flush5_7 t, ?_⟩
  show i ∈ ((View.whole main_v125).slice (win5_7.rect t)).set
  rw [View.set_slice_whole, Rect.mem_set_unit]
  intro a
  match a with
  | ⟨0, _⟩ => show win5_7.index t (0 : Fin 2) * 4000 ≤ (i 0).val ∧ (i 0).val < win5_7.index t (0 : Fin 2) * 4000 + 4000; rw [e0, ht]; omega
  | ⟨1, _⟩ => show win5_7.index t (1 : Fin 2) * 8 ≤ (i 1).val ∧ (i 1).val < win5_7.index t (1 : Fin 2) * 8 + 8; rw [e1]; omega

/-- THE ARRAY after the region: the decoder of the arrays as the region finds them. -/
theorem final (c : Dev nD) :
    (dat5 (F := Ideal) V c).arrAt 7 cfg5.N
      = dec (V c main_v109) (V c main_v124) (V c main_v50) (V c main_v51) (V c main_arg11) (V c main_v52) (V c main_v53) :=
  (dat5 (F := Ideal) V c).arrAt_eq_of_cover 7 _ (fun t _ => flushed_eq V c t) cover

end Cert.LinkPred.R5

end
-- ==== Proof.KTail.lean ====
/-
  The second half of the idealized kernel's fold through its segments: from the buffer contents when region 3 is left
  to the two result buffers at the return. Each result is one function `out` of the two node-feature arrays at region
  3's exit, a pair list and the decoder's launch arguments: the stretches of host operations evaluated one buffer at a
  time, the two decoder regions read by their whole-array closed forms, and every launch argument carried back to the
  launch memory, which nothing on the way writes.
-/
import proofs.«100846_j62912680952407_2_alg».proof.Proof.Gen.KernelIdeal.Frame
import proofs.«100846_j62912680952407_2_alg».proof.Proof.Spec
import proofs.«100846_j62912680952407_2_alg».proof.Proof.Region4
import proofs.«100846_j62912680952407_2_alg».proof.Proof.Region5
import Idealize.ShloMosaic.PureOps.Ideal

noncomputable section

open scoped BigOperators

namespace Cert.LinkPred.KT

open Cert.KernelIdeal Cert.KernelIdeal.Gen Cert.LinkPred Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## The two columns of a pair list as start words, and the result -/

/-- The first column of a pair list as gather start words: a negative word counts from the end of the 50000 nodes. -/
def sI (p : IVec S400000x2 32) : IVec S400000x1 32 :=
  broadcastInDim S400000x1 ![0] bcast_S400000_S400000x1_0
    (select
      (cmpi .slt (shapeCast S400000 (extractStridedSlice S400000x1 ![0, 0] p slices_S400000x2_S400000x1_0_0) shapeCasts_S400000x1_S400000)
        (broadcastInDim S400000 ![] bcast_S_S400000 (constantI S_ 32 0#32)))
      (addi (shapeCast S400000 (extractStridedSlice S400000x1 ![0, 0] p slices_S400000x2_S400000x1_0_0) shapeCasts_S400000x1_S400000)
        (broadcastInDim S400000 ![] bcast_S_S400000 (constantI S_ 32 50000#32)))
      (shapeCast S400000 (extractStridedSlice S400000x1 ![0, 0] p slices_S400000x2_S400000x1_0_0) shapeCasts_S400000x1_S400000))

/-- The second column, the same way. -/
def dI (p : IVec S400000x2 32) : IVec S400000x1 32 :=
  broadcastInDim S400000x1 ![0] bcast_S400000_S400000x1_0
    (select
      (cmpi .slt (shapeCast S400000 (extractStridedSlice S400000x1 ![0, 1] p slices_S400000x2_S400000x1_0_1) shapeCasts_S400000x1_S400000)
        (broadcastInDim S400000 ![] bcast_S_S400000 (constantI S_ 32 0#32)))
      (addi (shapeCast S400000 (extractStridedSlice S400000x1 ![0, 1] p slices_S400000x2_S400000x1_0_1) shapeCasts_S400000x1_S400000)
        (broadcastInDim S400000 ![] bcast_S_S400000 (constantI S_ 32 50000#32)))
      (shapeCast S400000 (extractStridedSlice S400000x1 ![0, 1] p slices_S400000x2_S400000x1_0_1) shapeCasts_S400000x1_S400000))

/-- One decoder result from the two node-feature arrays at region 3's exit, a pair list and the decoder's launch
    arguments: both ends of every pair gathered from each array and multiplied, the first weight split into its two
    halves, the last weight and bias widened to eight columns with zeros, `dec`, and column 0 of it as a vector. -/
def out (z cc : FVec Ideal S50000x128 .f32) (p : IVec S400000x2 32) (a10 : FVec Ideal S256x128 .f32) (a11 : FVec Ideal S128 .f32)
    (a12 : FVec Ideal S128x1 .f32) (a13 : FVec Ideal S1 .f32) : FVec Ideal S400000 .f32 :=
  shapeCast S400000
    (extractStridedSlice S400000x1 ![0, 0]
      (dec (mulf (Host.gather gather_S50000x128_S400000x1_S400000x128_1_0_n_n_0_1_1128 z (sI p)) (Host.gather gather_S50000x128_S400000x1_S400000x128_1_0_n_n_0_1_1128 z (dI p)))
        (mulf (Host.gather gather_S50000x128_S400000x1_S400000x128_1_0_n_n_0_1_1128 cc (sI p)) (Host.gather gather_S50000x128_S400000x1_S400000x128_1_0_n_n_0_1_1128 cc (dI p)))
        (extractStridedSlice S128x128 ![0, 0] a10 slices_S256x128_S128x128_0_0)
        (extractStridedSlice S128x128 ![128, 0] a10 slices_S256x128_S128x128_128_0)
        a11
        (pad S128x8 ![0, 0] ![0, 7] ![0, 0] a12 (sitofp (F := Ideal) .f32 (constantI S_ 32 0#32)) pads_S128x1_S128x8_000_070 h_S_)
        (pad S8 ![0] ![7] ![0] a13 (sitofp (F := Ideal) .f32 (constantI S_ 32 0#32)) pads_S1_S8_070 h_S_))
      slices_S400000x8_S400000x1_0_0)
    shapeCasts_S400000x1_S400000

/-! ## The launch arguments at region 3's exit -/

/-- `main_arg2` is as launched when region 3 is left: nothing before writes it. -/
theorem W10_arg2 : W10 (F := Ideal) m ρ c (Proc.devRef .tc main_arg2) = m ((c : Thread nD τ).loc main_arg2) :=
  calc W10 (F := Ideal) m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` is as launched when region 3 is left: nothing before writes it. -/
theorem W10_arg3 : W10 (F := Ideal) m ρ c (Proc.devRef .tc main_arg3) = m ((c : Thread nD τ).loc main_arg3) :=
  calc W10 (F := Ideal) m ρ c (Proc.devRef .tc main_arg3)
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- `main_arg10` is as launched when region 3 is left: nothing before writes it. -/
theorem W10_arg10 : W10 (F := Ideal) m ρ c (Proc.devRef .tc main_arg10) = m ((c : Thread nD τ).loc main_arg10) :=
  calc W10 (F := Ideal) m ρ c (Proc.devRef .tc main_arg10)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- `main_arg11` is as launched when region 3 is left: nothing before writes it. -/
theorem W10_arg11 : W10 (F := Ideal) m ρ c (Proc.devRef .tc main_arg11) = m ((c : Thread nD τ).loc main_arg11) :=
  calc W10 (F := Ideal) m ρ c (Proc.devRef .tc main_arg11)
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- `main_arg12` is as launched when region 3 is left: nothing before writes it. -/
theorem W10_arg12 : W10 (F := Ideal) m ρ c (Proc.devRef .tc main_arg12) = m ((c : Thread nD τ).loc main_arg12) :=
  calc W10 (F := Ideal) m ρ c (Proc.devRef .tc main_arg12)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- `main_arg13` is as launched when region 3 is left: nothing before writes it. -/
theorem W10_arg13 : W10 (F := Ideal) m ρ c (Proc.devRef .tc main_arg13) = m ((c : Thread nD τ).loc main_arg13) :=
  calc W10 (F := Ideal) m ρ c (Proc.devRef .tc main_arg13)
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-! ## Region 4's entry contents from region 3's exit contents -/

set_option maxHeartbeats 4000000 in
/-- The upper half of the first decoder weight. -/
theorem W15_v50 : W15 (F := Ideal) m ρ c (Proc.devRef .tc main_v50)
    = extractStridedSlice S128x128 ![0, 0] (W10 (F := Ideal) m ρ c (Proc.devRef .tc main_arg10)) slices_S256x128_S128x128_0_0 := by
  dsimp only [W15, W14, W13, W12, W11]
  simp only [hostOps4, hostOps4_1, hostOps4_2, hostOps4_3, hostOps4_4, List.flatten_cons, List.flatten_nil, List.append_nil,
    List.cons_append, List.nil_append]
  after_results_simp

set_option maxHeartbeats 4000000 in
/-- Its lower half. -/
theorem W15_v51 : W15 (F := Ideal) m ρ c (Proc.devRef .tc main_v51)
    = extractStridedSlice S128x128 ![128, 0] (W10 (F := Ideal) m ρ c (Proc.devRef .tc main_arg10)) slices_S256x128_S128x128_128_0 := by
  dsimp only [W15, W14, W13, W12, W11]
  simp only [hostOps4, hostOps4_1, hostOps4_2, hostOps4_3, hostOps4_4, List.flatten_cons, List.flatten_nil, List.append_nil,
    List.cons_append, List.nil_append]
  after_results_simp

set_option maxHeartbeats 4000000 in
/-- The hidden bias is untouched. -/
theorem W15_arg11 : W15 (F := Ideal) m ρ c (Proc.devRef .tc main_arg11) = W10 (F := Ideal) m ρ c (Proc.devRef .tc main_arg11) := by
  dsimp only [W15, W14, W13, W12, W11]
  simp only [hostOps4, hostOps4_1, hostOps4_2, hostOps4_3, hostOps4_4, List.flatten_cons, List.flatten_nil, List.append_nil,
    List.cons_append, List.nil_append]
  after_results_simp

set_option maxHeartbeats 4000000 in
/-- The last weight widened to eight columns with zeros. -/
theorem W15_v52 : W15 (F := Ideal) m ρ c (Proc.devRef .tc main_v52)
    = pad S128x8 ![0, 0] ![0, 7] ![0, 0] (W10 (F := Ideal) m ρ c (Proc.devRef .tc main_arg12)) (sitofp (F := Ideal) .f32 (constantI S_ 32 0#32)) pads_S128x1_S128x8_000_070 h_S_ := by
  dsimp only [W15, W14, W13, W12, W11]
  simp only [hostOps4, hostOps4_1, hostOps4_2, hostOps4_3, hostOps4_4, List.flatten_cons, List.flatten_nil, List.append_nil,
    List.cons_append, List.nil_append]
  after_results_simp
  rfl

set_option maxHeartbeats 4000000 in
/-- The last bias widened to eight entries with zeros. -/
theorem W15_v53 : W15 (F := Ideal) m ρ c (Proc.devRef .tc main_v53)
    = pad S8 ![0] ![7] ![0] (W10 (F := Ideal) m ρ c (Proc.devRef .tc main_arg13)) (sitofp (F := Ideal) .f32 (constantI S_ 32 0#32)) pads_S1_S8_070 h_S_ := by
  dsimp only [W15, W14, W13, W12, W11]
  simp only [hostOps4, hostOps4_1, hostOps4_2, hostOps4_3, hostOps4_4, List.flatten_cons, List.flatten_nil, List.append_nil,
    List.cons_append, List.nil_append]
  after_results_simp
  rfl

set_option maxHeartbeats 4000000 in
/-- The first decoder input: both ends of every pair gathered from the convolution's result and multiplied. -/
theorem W15_v72 : W15 (F := Ideal) m ρ c (Proc.devRef .tc main_v72)
    = (mulf (F := Ideal) (φ := .f32) (Host.gather gather_S50000x128_S400000x1_S400000x128_1_0_n_n_0_1_1128 (W10 (F := Ideal) m ρ c (Proc.devRef .tc main_v47)) (sI (W10 (F := Ideal) m ρ c (Proc.devRef .tc main_arg2))))
        (Host.gather gather_S50000x128_S400000x1_S400000x128_1_0_n_n_0_1_1128 (W10 (F := Ideal) m ρ c (Proc.devRef .tc main_v47)) (dI (W10 (F := Ideal) m ρ c (Proc.devRef .tc main_arg2)))) : FVec Ideal S400000x128 .f32) := by
  dsimp only [W15, W14, W13, W12, W11]
  simp only [hostOps4, hostOps4_1, hostOps4_2, hostOps4_3, hostOps4_4, List.flatten_cons, List.flatten_nil, List.append_nil,
    List.cons_append, List.nil_append]
  after_results_simp
  rfl

set_option maxHeartbeats 4000000 in
/-- The second decoder input: the same from the chemistry projection. -/
theorem W15_v87 : W15 (F := Ideal) m ρ c (Proc.devRef .tc main_v87)
    = (mulf (F := Ideal) (φ := .f32) (Host.gather gather_S50000x128_S400000x1_S400000x128_1_0_n_n_0_1_1128 (W10 (F := Ideal) m ρ c (Proc.devRef .tc main_v49)) (sI (W10 (F := Ideal) m ρ c (Proc.devRef .tc main_arg2))))
        (Host.gather gather_S50000x128_S400000x1_S400000x128_1_0_n_n_0_1_1128 (W10 (F := Ideal) m ρ c (Proc.devRef .tc main_v49)) (dI (W10 (F := Ideal) m ρ c (Proc.devRef .tc main_arg2)))) : FVec Ideal S400000x128 .f32) := by
  dsimp only [W15, W14, W13, W12, W11]
  simp only [hostOps4, hostOps4_1, hostOps4_2, hostOps4_3, hostOps4_4, List.flatten_cons, List.flatten_nil, List.append_nil,
    List.cons_append, List.nil_append]
  after_results_simp
  rfl

/-! ## The first result -/

/-- Region 4 leaves the decoder of its entry contents in its output array. -/
theorem W16_v88 : W16 (F := Ideal) m ρ c (Proc.devRef .tc main_v88)
    = dec (W15 (F := Ideal) m ρ c (Proc.devRef .tc main_v72)) (W15 (F := Ideal) m ρ c (Proc.devRef .tc main_v87))
        (W15 (F := Ideal) m ρ c (Proc.devRef .tc main_v50)) (W15 (F := Ideal) m ρ c (Proc.devRef .tc main_v51))
        (W15 (F := Ideal) m ρ c (Proc.devRef .tc main_arg11)) (W15 (F := Ideal) m ρ c (Proc.devRef .tc main_v52))
        (W15 (F := Ideal) m ρ c (Proc.devRef .tc main_v53)) :=
  (W16_arr m ρ c 7).trans (R4.final (V15 m ρ) c)

set_option maxHeartbeats 4000000 in
/-- Column 0 of it, as a vector. -/
theorem W17_v90 : W17 (F := Ideal) m ρ c (Proc.devRef .tc main_v90)
    = shapeCast S400000 (extractStridedSlice S400000x1 ![0, 0] (W16 (F := Ideal) m ρ c (Proc.devRef .tc main_v88)) slices_S400000x8_S400000x1_0_0)
        shapeCasts_S400000x1_S400000 := by
  dsimp only [W17]
  simp only [hostOps5, List.flatten_cons, List.flatten_nil, List.append_nil, List.cons_append, List.nil_append]
  after_results_simp
  rfl

/-- Nothing after writes the first result. -/
theorem W19_v90 : W19 (F := Ideal) m ρ c (Proc.devRef .tc main_v90) = W17 (F := Ideal) m ρ c (Proc.devRef .tc main_v90) :=
  calc W19 (F := Ideal) m ρ c (Proc.devRef .tc main_v90)
    _ = W18 m ρ c (Proc.devRef .tc main_v90) := StableHlo.after_of_forall_not_mem (b := Proc.devRef .tc main_v90) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v90) := W18_of_ne m ρ c main_v90 (by decide)

/-- THE FIRST RESULT at the return. -/
theorem out0 : W19 (F := Ideal) m ρ c (Proc.devRef .tc main_v90)
    = out (W10 (F := Ideal) m ρ c (Proc.devRef .tc main_v47)) (W10 (F := Ideal) m ρ c (Proc.devRef .tc main_v49))
        (m ((c : Thread nD τ).loc main_arg2)) (m ((c : Thread nD τ).loc main_arg10)) (m ((c : Thread nD τ).loc main_arg11))
        (m ((c : Thread nD τ).loc main_arg12)) (m ((c : Thread nD τ).loc main_arg13)) := by
  rw [W19_v90, W17_v90, W16_v88, W15_v72, W15_v87, W15_v50, W15_v51, W15_arg11, W15_v52, W15_v53, W10_arg2, W10_arg10, W10_arg11,
    W10_arg12, W10_arg13]
  rfl

/-! ## The second result -/

/-- Region 4 and the stretch before it leave the convolution's result alone. -/
theorem W16_v47 : W16 (F := Ideal) m ρ c (Proc.devRef .tc main_v47) = W10 (F := Ideal) m ρ c (Proc.devRef .tc main_v47) :=
  calc W16 (F := Ideal) m ρ c (Proc.devRef .tc main_v47)
    _ = W15 m ρ c (Proc.devRef .tc main_v47) := W16_of_ne m ρ c main_v47 (by decide)
    _ = W14 m ρ c (Proc.devRef .tc main_v47) := StableHlo.after_of_forall_not_mem (b := Proc.devRef .tc main_v47) _ _ (List.forall_iff_forall_mem.mp (by
          simp only [hostOps4_4, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v47) := StableHlo.after_of_forall_not_mem (b := Proc.devRef .tc main_v47) _ _ (List.forall_iff_forall_mem.mp (by
          simp only [hostOps4_3, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v47) := StableHlo.after_of_forall_not_mem (b := Proc.devRef .tc main_v47) _ _ (List.forall_iff_forall_mem.mp (by
          simp only [hostOps4_2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v47) := StableHlo.after_of_forall_not_mem (b := Proc.devRef .tc main_v47) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v47) := StableHlo.after_of_forall_not_mem (b := Proc.devRef .tc main_v47) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))

/-- And the chemistry projection. -/
theorem W16_v49 : W16 (F := Ideal) m ρ c (Proc.devRef .tc main_v49) = W10 (F := Ideal) m ρ c (Proc.devRef .tc main_v49) :=
  calc W16 (F := Ideal) m ρ c (Proc.devRef .tc main_v49)
    _ = W15 m ρ c (Proc.devRef .tc main_v49) := W16_of_ne m ρ c main_v49 (by decide)
    _ = W14 m ρ c (Proc.devRef .tc main_v49) := StableHlo.after_of_forall_not_mem (b := Proc.devRef .tc main_v49) _ _ (List.forall_iff_forall_mem.mp (by
          simp only [hostOps4_4, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v49) := StableHlo.after_of_forall_not_mem (b := Proc.devRef .tc main_v49) _ _ (List.forall_iff_forall_mem.mp (by
          simp only [hostOps4_3, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v49) := StableHlo.after_of_forall_not_mem (b := Proc.devRef .tc main_v49) _ _ (List.forall_iff_forall_mem.mp (by
          simp only [hostOps4_2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v49) := StableHlo.after_of_forall_not_mem (b := Proc.devRef .tc main_v49) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v49) := StableHlo.after_of_forall_not_mem (b := Proc.devRef .tc main_v49) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))

/-- And the second pair list. -/
theorem W16_arg3 : W16 (F := Ideal) m ρ c (Proc.devRef .tc main_arg3) = W10 (F := Ideal) m ρ c (Proc.devRef .tc main_arg3) :=
  calc W16 (F := Ideal) m ρ c (Proc.devRef .tc main_arg3)
    _ = W15 m ρ c (Proc.devRef .tc main_arg3) := W16_of_ne m ρ c main_arg3 (by decide)
    _ = W14 m ρ c (Proc.devRef .tc main_arg3) := StableHlo.after_of_forall_not_mem (b := Proc.devRef .tc main_arg3) _ _ (List.forall_iff_forall_mem.mp (by
          simp only [hostOps4_4, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg3) := StableHlo.after_of_forall_not_mem (b := Proc.devRef .tc main_arg3) _ _ (List.forall_iff_forall_mem.mp (by
          simp only [hostOps4_3, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg3) := StableHlo.after_of_forall_not_mem (b := Proc.devRef .tc main_arg3) _ _ (List.forall_iff_forall_mem.mp (by
          simp only [hostOps4_2, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg3) := StableHlo.after_of_forall_not_mem (b := Proc.devRef .tc main_arg3) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))

/-- Region 4 stages the upper half of the first weight and never writes it back; nothing after writes it. -/
theorem W17_v50 : W17 (F := Ideal) m ρ c (Proc.devRef .tc main_v50) = W15 (F := Ideal) m ρ c (Proc.devRef .tc main_v50) :=
  calc W17 (F := Ideal) m ρ c (Proc.devRef .tc main_v50)
    _ = W16 m ρ c (Proc.devRef .tc main_v50) := StableHlo.after_of_forall_not_mem (b := Proc.devRef .tc main_v50) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W15 (F := Ideal) m ρ c (Proc.devRef .tc main_v50) :=
      (W16_arr m ρ c 2).trans (((dat4 (V15 m ρ) c).arrAt_in 2 rfl _).trans (A_eq4 (V15 m ρ) c 2))

/-- The lower half likewise. -/
theorem W17_v51 : W17 (F := Ideal) m ρ c (Proc.devRef .tc main_v51) = W15 (F := Ideal) m ρ c (Proc.devRef .tc main_v51) :=
  calc W17 (F := Ideal) m ρ c (Proc.devRef .tc main_v51)
    _ = W16 m ρ c (Proc.devRef .tc main_v51) := StableHlo.after_of_forall_not_mem (b := Proc.devRef .tc main_v51) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W15 (F := Ideal) m ρ c (Proc.devRef .tc main_v51) :=
      (W16_arr m ρ c 3).trans (((dat4 (V15 m ρ) c).arrAt_in 3 rfl _).trans (A_eq4 (V15 m ρ) c 3))

/-- The hidden bias likewise. -/
theorem W17_arg11 : W17 (F := Ideal) m ρ c (Proc.devRef .tc main_arg11) = W15 (F := Ideal) m ρ c (Proc.devRef .tc main_arg11) :=
  calc W17 (F := Ideal) m ρ c (Proc.devRef .tc main_arg11)
    _ = W16 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W15 (F := Ideal) m ρ c (Proc.devRef .tc main_arg11) :=
      (W16_arr m ρ c 4).trans (((dat4 (V15 m ρ) c).arrAt_in 4 rfl _).trans (A_eq4 (V15 m ρ) c 4))

/-- The widened last weight likewise. -/
theorem W17_v52 : W17 (F := Ideal) m ρ c (Proc.devRef .tc main_v52) = W15 (F := Ideal) m ρ c (Proc.devRef .tc main_v52) :=
  calc W17 (F := Ideal) m ρ c (Proc.devRef .tc main_v52)
    _ = W16 m ρ c (Proc.devRef .tc main_v52) := StableHlo.after_of_forall_not_mem (b := Proc.devRef .tc main_v52) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W15 (F := Ideal) m ρ c (Proc.devRef .tc main_v52) :=
      (W16_arr m ρ c 5).trans (((dat4 (V15 m ρ) c).arrAt_in 5 rfl _).trans (A_eq4 (V15 m ρ) c 5))

/-- The widened last bias likewise. -/
theorem W17_v53 : W17 (F := Ideal) m ρ c (Proc.devRef .tc main_v53) = W15 (F := Ideal) m ρ c (Proc.devRef .tc main_v53) :=
  calc W17 (F := Ideal) m ρ c (Proc.devRef .tc main_v53)
    _ = W16 m ρ c (Proc.devRef .tc main_v53) := StableHlo.after_of_forall_not_mem (b := Proc.devRef .tc main_v53) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes,
            StableHlo.quaternary_writes, StableHlo.reshape_writes, StableHlo.binaryIndexed_writes, Finset.mem_singleton]
          repeat' apply And.intro
          all_goals exact StableHlo.devRef_ne_of_ne (by decide)))
    _ = W15 (F := Ideal) m ρ c (Proc.devRef .tc main_v53) :=
      (W16_arr m ρ c 6).trans (((dat4 (V15 m ρ) c).arrAt_in 6 rfl _).trans (A_eq4 (V15 m ρ) c 6))

set_option maxHeartbeats 4000000 in
/-- The second launch's first input. -/
theorem W17_v109 : W17 (F := Ideal) m ρ c (Proc.devRef .tc main_v109)
    = (mulf (F := Ideal) (φ := .f32) (Host.gather gather_S50000x128_S400000x1_S400000x128_1_0_n_n_0_1_1128 (W16 (F := Ideal) m ρ c (Proc.devRef .tc main_v47)) (sI (W16 (F := Ideal) m ρ c (Proc.devRef .tc main_arg3))))
        (Host.gather gather_S50000x128_S400000x1_S400000x128_1_0_n_n_0_1_1128 (W16 (F := Ideal) m ρ c (Proc.devRef .tc main_v47)) (dI (W16 (F := Ideal) m ρ c (Proc.devRef .tc main_arg3)))) : FVec Ideal S400000x128 .f32) := by
  dsimp only [W17]
  simp only [hostOps5, List.flatten_cons, List.flatten_nil, List.append_nil, List.cons_append, List.nil_append]
  after_results_simp
  rfl

set_option maxHeartbeats 4000000 in
/-- Its second input. -/
theorem W17_v124 : W17 (F := Ideal) m ρ c (Proc.devRef .tc main_v124)
    = (mulf (F := Ideal) (φ := .f32) (Host.gather gather_S50000x128_S400000x1_S400000x128_1_0_n_n_0_1_1128 (W16 (F := Ideal) m ρ c (Proc.devRef .tc main_v49)) (sI (W16 (F := Ideal) m ρ c (Proc.devRef .tc main_arg3))))
        (Host.gather gather_S50000x128_S400000x1_S400000x128_1_0_n_n_0_1_1128 (W16 (F := Ideal) m ρ c (Proc.devRef .tc main_v49)) (dI (W16 (F := Ideal) m ρ c (Proc.devRef .tc main_arg3)))) : FVec Ideal S400000x128 .f32) := by
  dsimp only [W17]
  simp only [hostOps5, List.flatten_cons, List.flatten_nil, List.append_nil, List.cons_append, List.nil_append]
  after_results_simp
  rfl

/-- Region 5 leaves the decoder of its entry contents in its output array. -/
theorem W18_v125 : W18 (F := Ideal) m ρ c (Proc.devRef .tc main_v125)
    = dec (W17 (F := Ideal) m ρ c (Proc.devRef .tc main_v109)) (W17 (F := Ideal) m ρ c (Proc.devRef .tc main_v124))
        (W17 (F := Ideal) m ρ c (Proc.devRef .tc main_v50)) (W17 (F := Ideal) m ρ c (Proc.devRef .tc main_v51))
        (W17 (F := Ideal) m ρ c (Proc.devRef .tc main_arg11)) (W17 (F := Ideal) m ρ c (Proc.devRef .tc main_v52))
        (W17 (F := Ideal) m ρ c (Proc.devRef .tc main_v53)) :=
  (W18_arr m ρ c 7).trans (R5.final (V17 m ρ) c)

set_option maxHeartbeats 4000000 in
/-- Column 0 of it, as a vector. -/
theorem W19_v127 : W19 (F := Ideal) m ρ c (Proc.devRef .tc main_v127)
    = shapeCast S400000 (extractStridedSlice S400000x1 ![0, 0] (W18 (F := Ideal) m ρ c (Proc.devRef .tc main_v125)) slices_S400000x8_S400000x1_0_0)
        shapeCasts_S400000x1_S400000 := by
  dsimp only [W19]
  simp only [hostOps6, List.flatten_cons, List.flatten_nil, List.append_nil, List.cons_append, List.nil_append]
  after_results_simp
  rfl

/-- THE SECOND RESULT at the return. -/
theorem out1 : W19 (F := Ideal) m ρ c (Proc.devRef .tc main_v127)
    = out (W10 (F := Ideal) m ρ c (Proc.devRef .tc main_v47)) (W10 (F := Ideal) m ρ c (Proc.devRef .tc main_v49))
        (m ((c : Thread nD τ).loc main_arg3)) (m ((c : Thread nD τ).loc main_arg10)) (m ((c : Thread nD τ).loc main_arg11))
        (m ((c : Thread nD τ).loc main_arg12)) (m ((c : Thread nD τ).loc main_arg13)) := by
  rw [W19_v127, W18_v125, W17_v109, W17_v124, W17_v50, W17_v51, W17_arg11, W17_v52, W17_v53, W16_v47, W16_v49, W16_arg3,
    W15_v50, W15_v51, W15_arg11, W15_v52, W15_v53, W10_arg3, W10_arg10, W10_arg11, W10_arg12, W10_arg13]
  rfl

end Cert.LinkPred.KT

end
-- ==== Proof.LibRowOps.lean ====
/-
  Row gathers and row scatter-adds of a two-axis array, read at one element.

  A gather of rows: operand [N, C], one start word per result row (start indices [E, 1]), result [E, C].  Result element
  (e, c) is the operand at (the start word of row e read signed and clamped into [0, N - 1], c).
  A scatter-add of rows: operand [N, C], one index word per update row, updates [E, C].  Update element (e, c) lands on
  operand element (n, c') exactly when the word of row e, read signed, is n and c = c' (a word out of range lands nowhere).
-/
import Idealize.ShloMosaic.PureOps.Ideal
import Idealize.ShloMosaic.Lib.ValueIdx

noncomputable section

open scoped BigOperators

namespace Cert.Gat.Rows

open Idealize.ShloMosaic Idealize.ShloMosaic.ValueIdx

section Gather
variable {α : Type} {N C E w : Nat}

/-- The dimension numbers of a row gather. -/
abbrev rowDims (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem not_one_mem : ¬ (1 : Fin 2) ∈ ([0] : List (Fin 2)) := by decide
theorem not_zero_mem_one : ¬ (0 : Fin 2) ∈ ([1] : List (Fin 2)) := by decide

/-- The operand row a result element reads: the clamped start word. -/
theorem opIdx0 (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowDims wf).start (ix2 e c) idx (0 : Fin 2) + (rowDims wf).batchCoord (ix2 e c) (0 : Fin 2) + (rowDims wf).offCoord (ix2 e c) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims wf).startIndexMap from List.mem_singleton.mpr rfl)]
  have hsi : (rowDims wf).siIdx (ix2 e c) ⟨List.idxOf (0 : Fin 2) (rowDims wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- The operand column a result element reads: its own. -/
theorem opIdx1 (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowDims wf).start (ix2 e c) idx (1 : Fin 2) + (rowDims wf).batchCoord (ix2 e c) (1 : Fin 2) + (rowDims wf).offCoord (ix2 e c) (1 : Fin 2)
      = c.val := by
  rw [GatherDims.batchCoord_eq_zero _ _ _ List.not_mem_nil]
  unfold GatherDims.start GatherDims.offCoord
  rw [dif_neg (show ¬ (1 : Fin 2) ∈ (rowDims wf).startIndexMap from not_one_mem),
    dif_pos (show (1 : Fin 2) ∈ (rowDims wf).sKept from
      (GatherDims.mem_sKept _ _).mpr ⟨not_one_mem, List.not_mem_nil⟩)]
  simp only [Nat.zero_add]
  rfl

/-- A row gather at (e, c): the operand at (the clamped start word of row e, c). -/
theorem gather_row_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ => exact opIdx0 wf idx e c
  | ⟨1, _⟩ => exact opIdx1 wf idx e c

end Gather

section Scatter
variable {N C E w : Nat}

/-- The dimension numbers of a row scatter. -/
abbrev rowScatter (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem start0 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter wf).start (ix2 e c) idx (0 : Fin 2) = (idx (ix2 e ⟨0, Nat.one_pos⟩)).toInt := by
  unfold ScatterDims.start
  rw [dif_pos (show (0 : Fin 2) ∈ (rowScatter wf).scatterDimsToOperandDims from List.mem_singleton.mpr rfl)]
  congr 2
  funext b; refine Fin.ext ?_
  match b with
  | ⟨0, _⟩ => rfl
  | ⟨1, _⟩ => rfl

theorem start1 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter wf).start (ix2 e c) idx (1 : Fin 2) = 0 := by
  unfold ScatterDims.start
  rw [dif_neg (show ¬ (1 : Fin 2) ∈ (rowScatter wf).scatterDimsToOperandDims from not_one_mem)]

theorem window0 (wf : ScatterDims.WF ⟨2, ![N, C]⟩ ⟨2, ![E, 1]⟩ ⟨2, ![E, C]⟩ [1] [0] [0] 1) (e : Fin E) (c : Fin C) :
    (rowScatter wf).window (ix2 e c) (0 : Fin 2) = 0 := by
  unfold ScatterDims.window
  rw [dif_neg (show ¬ (0 : Fin 2) ∈ (rowScatter wf).sKept from by simp [ScatterDims.sKept, Shape.kept, List.mem_filter, List.mem_finRange])]

theorem window1 (wf : ScatterDims.WF ⟨2, ![N, C]⟩ ⟨2, ![E, 1]⟩ ⟨2, ![E, C]⟩ [1] [0] [0] 1) (e : Fin E) (c : Fin C) :
    (rowScatter wf).window (ix2 e c) (1 : Fin 2) = c.val := by
  unfold ScatterDims.window
  rw [dif_pos (show (1 : Fin 2) ∈ (rowScatter wf).sKept from by simp [ScatterDims.sKept, Shape.kept, List.mem_filter, List.mem_finRange])]
  rfl

/-- Where an update element lands. -/
theorem lands_iff (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatter wf).resultIdx? (ix2 e c) idx = some (ix2 n c')
      ↔ (idx (ix2 e ⟨0, Nat.one_pos⟩)).toInt = (n.val : Int) ∧ c = c' := by
  unfold ScatterDims.resultIdx?
  have h0 := start0 wf idx e c
  have h1 := start1 wf idx e c
  have w0 := window0 wf e c
  have w1 := window1 wf e c
  constructor
  · intro h
    split at h
    · rename_i hall
      have hv := Option.some.inj h
      have e0 := congrArg (fun f => (f (0 : Fin 2) : Fin _).val) hv
      have e1 := congrArg (fun f => (f (1 : Fin 2) : Fin _).val) hv
      simp only [h0, h1, w0, w1] at e0 e1
      have hb := hall (0 : Fin 2)
      rw [h0, w0] at hb
      refine ⟨?_, Fin.ext ?_⟩
      · have : ((idx (ix2 e ⟨0, Nat.one_pos⟩)).toInt + ((0 : Nat) : Int)).toNat = n.val := e0
        omega
      · have : ((0 : Int) + ((c.val : Nat) : Int)).toNat = c'.val := e1
        omega
    · exact absurd h (by simp)
  · rintro ⟨hn, rfl⟩
    have hall : ∀ a : Fin 2, 0 ≤ (rowScatter wf).start (ix2 e c) idx a + (rowScatter wf).window (ix2 e c) a ∧
        (rowScatter wf).start (ix2 e c) idx a + (rowScatter wf).window (ix2 e c) a < (⟨2, ![N, C]⟩ : Shape).size a := by
      intro a
      match a with
      | ⟨0, _⟩ =>
        show 0 ≤ (rowScatter wf).start (ix2 e c) idx (0 : Fin 2) + (((rowScatter wf).window (ix2 e c) (0 : Fin 2) : Nat) : Int) ∧
          (rowScatter wf).start (ix2 e c) idx (0 : Fin 2) + (((rowScatter wf).window (ix2 e c) (0 : Fin 2) : Nat) : Int) < ((N : Nat) : Int)
        rw [h0, w0, hn]
        have := n.isLt
        omega
      | ⟨1, _⟩ =>
        show 0 ≤ (rowScatter wf).start (ix2 e c) idx (1 : Fin 2) + (((rowScatter wf).window (ix2 e c) (1 : Fin 2) : Nat) : Int) ∧
          (rowScatter wf).start (ix2 e c) idx (1 : Fin 2) + (((rowScatter wf).window (ix2 e c) (1 : Fin 2) : Nat) : Int) < ((C : Nat) : Int)
        rw [h1, w1]
        have := c.isLt
        omega
    rw [dif_pos hall]
    congr 1
    funext a
    refine Fin.ext ?_
    match a with
    | ⟨0, _⟩ =>
      show ((rowScatter wf).start (ix2 e c) idx (0 : Fin 2) + (rowScatter wf).window (ix2 e c) (0 : Fin 2)).toNat = n.val
      rw [h0, w0, hn]; omega
    | ⟨1, _⟩ =>
      show ((rowScatter wf).start (ix2 e c) idx (1 : Fin 2) + (rowScatter wf).window (ix2 e c) (1 : Fin 2)).toNat = c.val
      rw [h1, w1]; omega

/-- The sum over the update elements that land on (n, c') is the sum, over the rows whose word is n, of column c'. -/
theorem sum_lands {β : Type} [AddCommMonoid β]
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx → β) (n : Fin N) (c' : Fin C) :
    ∑ j ∈ Finset.univ.filter (fun j => (rowScatter wf).resultIdx? j idx = some (ix2 n c')), u j
      = ∑ e ∈ Finset.univ.filter (fun e : Fin E => (idx (ix2 e ⟨0, Nat.one_pos⟩)).toInt = (n.val : Int)), u (ix2 e c') := by
  symm
  refine Finset.sum_bij (fun e _ => ix2 e c') ?_ ?_ ?_ ?_
  · intro e he
    rw [Finset.mem_filter] at he ⊢
    exact ⟨Finset.mem_univ _, (lands_iff wf idx e c' n c').mpr ⟨he.2, rfl⟩⟩
  · intro e _ e' _ h
    have := congrFun h (0 : Fin 2)
    exact this
  · intro j hj
    rw [Finset.mem_filter] at hj
    rw [eq_ix2 j] at hj
    obtain ⟨hn, hc⟩ := (lands_iff wf idx (j 0) (j 1) n c').mp hj.2
    refine ⟨j 0, Finset.mem_filter.mpr ⟨Finset.mem_univ _, hn⟩, ?_⟩
    rw [← hc]; exact (eq_ix2 j).symm
  · intro e _; rfl

end Scatter

end Cert.Gat.Rows

end
-- ==== Proof.LibHitSet.lean ====
/-
  The scatter-add of the ideal instance, read at one element: the operand's element plus the sum of the updates that
  land on it.  The set of those updates is named once here so that the two programs' sums range over one set.
-/
import Idealize.ShloMosaic.PureOps.Ideal

noncomputable section

open scoped BigOperators

namespace Cert.Hits

open Idealize.ShloMosaic

/-- The updates that land on operand element i: those whose start word, read signed, plus window coordinate is i. -/
def hitSet {s si su : Shape} (d : ScatterDims s si su) {w : Nat} (idx : IVec si w) (i : s.Idx) : Finset su.Idx :=
  Finset.univ.filter (fun j => d.resultIdx? j idx = some i)

theorem mem_hitSet {s si su : Shape} (d : ScatterDims s si su) {w : Nat} (idx : IVec si w) (i : s.Idx) (j : su.Idx) :
    j ∈ hitSet d idx i ↔ d.resultIdx? j idx = some i := by
  unfold hitSet
  rw [Finset.mem_filter]
  exact ⟨fun h => h.2, fun h => ⟨Finset.mem_univ _, h⟩⟩

/-- The host's float scatter-add at element i. -/
theorem scatterAdd_at {s si su : Shape} (d : ScatterDims s si su) {w : Nat} (z : FVec Ideal s .f32) (idx : IVec si w)
    (u : FVec Ideal su .f32) (i : s.Idx) :
    Host.scatterAdd (F := Ideal) d z idx u i = z i + ∑ j ∈ hitSet d idx i, u j := rfl

end Cert.Hits

end
-- ==== Proof.HostForms.lean ====
/-
  The host's data movement around the network's dense blocks, read as whole-array functions.

  Gathering rows of a [50000, 128] array at a column of start words and adding the gathered rows onto a zero array at a
  column of destination words is the sum, over the edges that arrive at a node, of the source node's row; the product
  of two gathered row sets is the row-by-row product of the two nodes' rows; a vector viewed as a column, the two
  halves of a [256, 128] weight, a one-column weight and a one-entry bias widened with zero columns, and column 0 of
  an eight-column array are each the evident function of the index.
-/
import proofs.«100846_j62912680952407_2_alg».proof.KernelIdeal
import proofs.«100846_j62912680952407_2_alg».proof.Proof.Spec
import proofs.«100846_j62912680952407_2_alg».proof.Proof.LibRowOps
import proofs.«100846_j62912680952407_2_alg».proof.Proof.LibHitSet
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LinkPred.HF

open Cert.KernelIdeal Cert.LinkPred Idealize.ShloMosaic Idealize.ShloMosaic.ValueIdx

variable [Facts₀]
open Facts₀

/-! ## Gathered rows added at their destinations -/

/-- The edge gather's dimension numbers are a row gather's. -/
theorem gatherE_eq : gather_S50000x128_S1000000x1_S1000000x128_1_0_n_n_0_1_1128
    = Cert.Gat.Rows.rowDims gather_S50000x128_S1000000x1_S1000000x128_1_0_n_n_0_1_1128_wf := rfl

/-- The edge scatter's dimension numbers are a row scatter's. -/
theorem scatterE_eq : scatter_S50000x128_S1000000x1_S1000000x128_1_0_0_1
    = Cert.Gat.Rows.rowScatter scatter_S50000x128_S1000000x1_S1000000x128_1_0_0_1_wf := rfl

/-- The pair gather's dimension numbers are a row gather's. -/
theorem gatherP_eq : gather_S50000x128_S400000x1_S400000x128_1_0_n_n_0_1_1128
    = Cert.Gat.Rows.rowDims gather_S50000x128_S400000x1_S400000x128_1_0_n_n_0_1_1128_wf := rfl

/-- Entry (n, j) of the scatter-add onto zero of the gathered source rows: the sum over the edges arriving at n of the
    source node's entry j. -/
theorem agg_eq (h : FVec Ideal S50000x128 .f32) (rI cI : IVec S1000000x1 32) :
    Host.scatterAdd scatter_S50000x128_S1000000x1_S1000000x128_1_0_0_1
        (broadcastInDim S50000x128 ![] bcast_S_S50000x128 (constant S_ .f32 0x00000000#32)) cI
        (Host.gather gather_S50000x128_S1000000x1_S1000000x128_1_0_n_n_0_1_1128 h rI) = aggK rI cI h := by
  funext i
  obtain ⟨n, j, rfl⟩ : ∃ (n : Fin 50000) (j : Fin 128), i = ix2 n j := ⟨i 0, i 1, eq_ix2 i⟩
  rw [Cert.Hits.scatterAdd_at]
  show Ideal.ofBits .f32 0x00000000#32 + _ = 0 + ∑ e ∈ hit cI n, h (ix2 (node (rI (ix2 e (0 : Fin 1)))) j)
  rw [Ideal.ofBits_zero_f32]
  refine congrArg (fun s : EReal => 0 + s) ?_
  refine (Cert.Gat.Rows.sum_lands scatter_S50000x128_S1000000x1_S1000000x128_1_0_0_1_wf cI
    (Host.gather gather_S50000x128_S1000000x1_S1000000x128_1_0_n_n_0_1_1128 h rI) n j).trans ?_
  refine Finset.sum_congr rfl fun e _ => ?_
  exact Cert.Gat.Rows.gather_row_apply (by decide) gather_S50000x128_S1000000x1_S1000000x128_1_0_n_n_0_1_1128_wf h rI e j

/-- Entry (e, j) of the product of the two gathered row sets: the two nodes' entries j multiplied. -/
theorem pairs_eq (z : FVec Ideal S50000x128 .f32) (sI dI : IVec S400000x1 32) :
    mulf (Host.gather gather_S50000x128_S400000x1_S400000x128_1_0_n_n_0_1_1128 z sI)
        (Host.gather gather_S50000x128_S400000x1_S400000x128_1_0_n_n_0_1_1128 z dI) = pairs sI dI z := by
  funext i
  obtain ⟨e, j, rfl⟩ : ∃ (e : Fin 400000) (j : Fin 128), i = ix2 e j := ⟨i 0, i 1, eq_ix2 i⟩
  show Host.gather gather_S50000x128_S400000x1_S400000x128_1_0_n_n_0_1_1128 z sI (ix2 e j)
      * Host.gather gather_S50000x128_S400000x1_S400000x128_1_0_n_n_0_1_1128 z dI (ix2 e j)
    = z (ix2 (node (sI (ix2 e (0 : Fin 1)))) j) * z (ix2 (node (dI (ix2 e (0 : Fin 1)))) j)
  exact congrArg₂ (fun a b : EReal => a * b)
    (Cert.Gat.Rows.gather_row_apply (by decide) gather_S50000x128_S400000x1_S400000x128_1_0_n_n_0_1_1128_wf z sI e j)
    (Cert.Gat.Rows.gather_row_apply (by decide) gather_S50000x128_S400000x1_S400000x128_1_0_n_n_0_1_1128_wf z dI e j)

/-! ## Reshapes and slices -/

/-- A vector viewed as a column reads, at (n, u), the vector at n. -/
theorem col_eq (x : FVec Ideal S50000 .f32) : shapeCast S50000x1 x shapeCasts_S50000_S50000x1 = col x := by
  funext i
  obtain ⟨n, u, rfl⟩ : ∃ (n : Fin 50000) (u : Fin 1), i = ix2 n u := ⟨i 0, i 1, eq_ix2 i⟩
  refine shapeCast_apply x _ (ix2 n u) (ix1 n) ?_
  rw [Shape.rowMajor_val_two, Shape.rowMajor_val_one]
  show n.val = n.val * 1 + u.val
  omega

/-- Rows 0 … 127 of the first decoder weight. -/
theorem top_eq (a : FVec Ideal S256x128 .f32) :
    extractStridedSlice S128x128 ![0, 0] a slices_S256x128_S128x128_0_0 = top a := by
  funext i
  obtain ⟨k, c, rfl⟩ : ∃ (k : Fin 128) (c : Fin 128), i = ix2 k c := ⟨i 0, i 1, eq_ix2 i⟩
  exact slice2_axis0_apply 0 a _ k c ⟨k.val, by omega⟩ (by show k.val = 0 + k.val; omega)

/-- Rows 128 … 255 of the first decoder weight. -/
theorem bot_eq (a : FVec Ideal S256x128 .f32) :
    extractStridedSlice S128x128 ![128, 0] a slices_S256x128_S128x128_128_0 = bot a := by
  funext i
  obtain ⟨k, c, rfl⟩ : ∃ (k : Fin 128) (c : Fin 128), i = ix2 k c := ⟨i 0, i 1, eq_ix2 i⟩
  exact slice2_axis0_apply 128 a _ k c ⟨k.val + 128, by omega⟩ (by show k.val + 128 = 128 + k.val; omega)

/-- Column 0 of the widened decoder output, as a vector. -/
theorem col0_eq (o : FVec Ideal S400000x8 .f32) :
    shapeCast S400000 (extractStridedSlice S400000x1 ![0, 0] o slices_S400000x8_S400000x1_0_0) shapeCasts_S400000x1_S400000
      = col0 o := by
  funext i
  obtain ⟨e, rfl⟩ : ∃ e : Fin 400000, i = ix1 e := ⟨i 0, eq_ix1 i⟩
  refine (shapeCast_apply _ _ (ix1 e) (ix2 e (0 : Fin 1)) ?_).trans ?_
  · rw [Shape.rowMajor_val_two, Shape.rowMajor_val_one]
    show e.val * 1 + 0 = e.val
    omega
  · exact slice2_axis1_apply 0 o _ e (0 : Fin 1) (0 : Fin 8) rfl

/-! ## The last layer widened with zero columns -/

/-- The integer zero converted is the real zero. -/
theorem padValue_eq (j : S_.Idx) : (sitofp .f32 (constantI S_ 32 0#32) : FVec Ideal S_ .f32) j = 0 := by
  show (((0#32 : BitVec 32).toInt : ℝ) : EReal) = 0
  simp

/-- The one-column weight padded to eight columns: column 0 is the weight, the others zero. -/
theorem pad8w_eq (w : FVec Ideal S128x1 .f32) :
    pad S128x8 ![0, 0] ![0, 7] ![0, 0] w (sitofp .f32 (constantI S_ 32 0#32) : FVec Ideal S_ .f32)
        pads_S128x1_S128x8_000_070 h_S_ = pad8w w := by
  funext i
  obtain ⟨k, c, rfl⟩ : ∃ (k : Fin 128) (c : Fin 8), i = ix2 k c := ⟨i 0, i 1, eq_ix2 i⟩
  show _ = if c.val = 0 then w (ix2 k (0 : Fin 1)) else 0
  unfold pad
  split
  · rename_i hin
    have hc : c.val = 0 := by
      have h1 : (c.val - 0) / 1 < 1 := (hin (1 : Fin 2)).2.2
      omega
    rw [if_pos hc]
    refine congrArg w (funext fun a => Fin.ext ?_)
    match a with
    | ⟨0, _⟩ => show (k.val - 0) / 1 = k.val; omega
    | ⟨1, _⟩ => show (c.val - 0) / 1 = 0; omega
  · rename_i hin
    have hc : ¬ c.val = 0 := fun hc => hin fun a => by
      match a with
      | ⟨0, _⟩ => show 0 ≤ k.val ∧ (k.val - 0) % 1 = 0 ∧ (k.val - 0) / 1 < 128; omega
      | ⟨1, _⟩ => show 0 ≤ c.val ∧ (c.val - 0) % 1 = 0 ∧ (c.val - 0) / 1 < 1; omega
    rw [if_neg hc]
    exact padValue_eq _

/-- The one-entry bias padded to eight entries: entry 0 is the bias, the others zero. -/
theorem pad8b_eq (b : FVec Ideal S1 .f32) :
    pad S8 ![0] ![7] ![0] b (sitofp .f32 (constantI S_ 32 0#32) : FVec Ideal S_ .f32) pads_S1_S8_070 h_S_ = pad8b b := by
  funext i
  obtain ⟨c, rfl⟩ : ∃ c : Fin 8, i = ix1 c := ⟨i 0, eq_ix1 i⟩
  show _ = if c.val = 0 then b (ix1 (0 : Fin 1)) else 0
  unfold pad
  split
  · rename_i hin
    have hc : c.val = 0 := by
      have h1 : (c.val - 0) / 1 < 1 := (hin (0 : Fin 1)).2.2
      omega
    rw [if_pos hc]
    refine congrArg b (funext fun a => Fin.ext ?_)
    match a with
    | ⟨0, _⟩ => show (c.val - 0) / 1 = 0; omega
  · rename_i hin
    have hc : ¬ c.val = 0 := fun hc => hin fun a => by
      match a with
      | ⟨0, _⟩ => show 0 ≤ c.val ∧ (c.val - 0) % 1 = 0 ∧ (c.val - 0) / 1 < 1; omega
    rw [if_neg hc]
    exact padValue_eq _

end Cert.LinkPred.HF

end
-- ==== Proof.KOut.lean ====
/-
  The idealized kernel's two results are the per-node arrangement of the specification.

  The fold through the program's segments leaves in each result the decoder over gathered products of the encoder's
  and the chemistry block's outputs; reading each host operation element by element — a row gather at the clamped
  start word, a scatter-add as the sum over the edges that arrive, a reshape, a slice, a zero pad — turns that term
  into the specification's composition.
-/
import proofs.«100846_j62912680952407_2_alg».proof.Proof.KHead2
import proofs.«100846_j62912680952407_2_alg».proof.Proof.KTail
import proofs.«100846_j62912680952407_2_alg».proof.Proof.HostForms

set_option maxRecDepth 16384

noncomputable section

namespace Cert.LinkPred.K

open Cert.KernelIdeal Cert.KernelIdeal.Gen Cert.LinkPred
open Idealize.ShloMosaic Idealize.ShloMosaic.TcCoe Idealize.SL.Sem Idealize.ShloMosaic.StableHlo

/-- The host operations' decoder over the host operations' encoder is the specification's per-node arrangement. -/
theorem out_spec (a0 : IVec S2x1000000 32) (a5 : FVec Ideal S50000x128 .f32) (a6 : FVec Ideal S2x128x128 .f32)
    (a7 : FVec Ideal S2x128 .f32) (a1 : FVec Ideal S50000x768 .f32) (a8 : FVec Ideal S768x128 .f32) (a9 : FVec Ideal S128 .f32)
    (a4 : FVec Ideal S50000 .f32) (p : IVec S400000x2 32) (a10 : FVec Ideal S256x128 .f32) (a11 : FVec Ideal S128 .f32)
    (a12 : FVec Ideal S128x1 .f32) (a13 : FVec Ideal S1 .f32) :
    KT.out (zK a0 a5 a6 a7) (ccK a1 a8 a9 a4) p a10 a11 a12 a13
      = kOut (rI a0) (cI a0) (dv a0) a5 (w0 a6) (b0 a7) (w1 a6) (b1 a7) a1 a8 a9 a4 (KT.sI p) (KT.dI p) a10 a11 a12 a13 := by
  unfold KT.out zK ccK agg dcol kOut
  rw [HF.agg_eq, HF.agg_eq, HF.col_eq, HF.col_eq, HF.pairs_eq, HF.pairs_eq, HF.top_eq, HF.bot_eq, HF.pad8w_eq, HF.pad8b_eq,
    HF.col0_eq]

variable (m : (ℓ : Loc nD τ sig) → Buf (Elt Ideal) ℓ) (ρ : Dev nD → PrngReg) (c : Dev nD)

/-- The first result. -/
theorem res0 : W19 (F := Ideal) m ρ c (Proc.devRef .tc main_v90)
    = kOut (rI (m ((c : Thread nD τ).loc main_arg0))) (cI (m ((c : Thread nD τ).loc main_arg0))) (dv (m ((c : Thread nD τ).loc main_arg0))) (m ((c : Thread nD τ).loc main_arg5)) (w0 (m ((c : Thread nD τ).loc main_arg6))) (b0 (m ((c : Thread nD τ).loc main_arg7))) (w1 (m ((c : Thread nD τ).loc main_arg6))) (b1 (m ((c : Thread nD τ).loc main_arg7)))
        (m ((c : Thread nD τ).loc main_arg1)) (m ((c : Thread nD τ).loc main_arg8)) (m ((c : Thread nD τ).loc main_arg9)) (m ((c : Thread nD τ).loc main_arg4)) (KT.sI (m ((c : Thread nD τ).loc main_arg2))) (KT.dI (m ((c : Thread nD τ).loc main_arg2))) (m ((c : Thread nD τ).loc main_arg10)) (m ((c : Thread nD τ).loc main_arg11)) (m ((c : Thread nD τ).loc main_arg12)) (m ((c : Thread nD τ).loc main_arg13)) := by
  rw [KT.out0, z10, cc10]
  exact out_spec _ _ _ _ _ _ _ _ _ _ _ _ _

/-- The second result. -/
theorem res1 : W19 (F := Ideal) m ρ c (Proc.devRef .tc main_v127)
    = kOut (rI (m ((c : Thread nD τ).loc main_arg0))) (cI (m ((c : Thread nD τ).loc main_arg0))) (dv (m ((c : Thread nD τ).loc main_arg0))) (m ((c : Thread nD τ).loc main_arg5)) (w0 (m ((c : Thread nD τ).loc main_arg6))) (b0 (m ((c : Thread nD τ).loc main_arg7))) (w1 (m ((c : Thread nD τ).loc main_arg6))) (b1 (m ((c : Thread nD τ).loc main_arg7)))
        (m ((c : Thread nD τ).loc main_arg1)) (m ((c : Thread nD τ).loc main_arg8)) (m ((c : Thread nD τ).loc main_arg9)) (m ((c : Thread nD τ).loc main_arg4)) (KT.sI (m ((c : Thread nD τ).loc main_arg3))) (KT.dI (m ((c : Thread nD τ).loc main_arg3))) (m ((c : Thread nD τ).loc main_arg10)) (m ((c : Thread nD τ).loc main_arg11)) (m ((c : Thread nD τ).loc main_arg12)) (m ((c : Thread nD τ).loc main_arg13)) := by
  rw [KT.out1, z10, cc10]
  exact out_spec _ _ _ _ _ _ _ _ _ _ _ _ _

end Cert.LinkPred.K

end
-- ==== Proof.LibVecGather.lean ====
/-
  A gather of single elements out of a one-axis array, read at one element.

  Operand [N], one start word per result element (start indices [E, 1]), result [E].  Result element e is the operand
  at the start word of e, read signed and clamped into [0, N - 1].
-/
import Idealize.ShloMosaic.PureOps.Ideal
import Idealize.ShloMosaic.Lib.ValueIdx

noncomputable section

namespace Cert.Gat.Vecs

open Idealize.ShloMosaic Idealize.ShloMosaic.ValueIdx

variable {α : Type} {N E w : Nat}

/-- The dimension numbers of an element gather out of a vector. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The operand position a result element reads: the clamped start word. -/
theorem opIdx0 (wf : GatherDims.WF ⟨1, ![N]⟩ ⟨2, ![E, 1]⟩ ⟨1, ![E]⟩ [] [0] [] [0] [] 1 ![1])
    (idx : IVec ⟨2, ![E, 1]⟩ w) (e : Fin E) :
    (vecDims wf).start (ix1 e) idx (0 : Fin 1) + (vecDims wf).batchCoord (ix1 e) (0 : Fin 1) + (vecDims wf).offCoord (ix1 e) (0 : Fin 1)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims wf).startIndexMap from List.mem_singleton.mpr rfl)]
  have hsi : (vecDims wf).siIdx (ix1 e) ⟨List.idxOf (0 : Fin 1) (vecDims wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- An element gather at e: the operand at the clamped start word of e. -/
theorem gather_vec_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims wf) x idx (ix1 e)
      = x (ix1 ⟨min (idx (ix2 e ⟨0, Nat.one_pos⟩)).toInt.toNat (N - 1), by omega⟩) := by
  unfold Host.gather
  congr 1
  funext a
  refine Fin.ext ?_
  match a with
  | ⟨0, _⟩ => exact opIdx0 wf idx e

end Cert.Gat.Vecs

end
-- ==== Proof.RefTerms.lean ====
/-
  The reference program's index columns, node vector and weight slices, and what is used of them.

  From the edge list the program forms three columns of one word per edge: the source words with a negative word counted
  from the end, the destination words as given, and the destination words with a negative word counted from the end.
  From the destination words it forms the in-degree of every node, and from it the node vector
  d(n) = 1 / sqrt(max(deg(n), 1)) where deg(n) > 0 and 0 elsewhere.  The node vector is a nonnegative real at every node
  whatever extended real the degree is: for deg = +infinity the root is +infinity and its inverse is 0.  The wrapped
  destination column is the given one with each word wrapped.  Also here: a gather of elements or rows, and a
  scatter-add of rows, read at one element over the program's own dimension numbers.
-/
import proofs.«100846_j62912680952407_2_alg».proof.Proof.RefRead
import proofs.«100846_j62912680952407_2_alg».proof.Proof.Spec
import proofs.«100846_j62912680952407_2_alg».proof.Proof.LibRowOps
import proofs.«100846_j62912680952407_2_alg».proof.Proof.LibHitSet
import proofs.«100846_j62912680952407_2_alg».proof.Proof.LibVecGather

noncomputable section

open scoped BigOperators

namespace Cert.LinkPred.Ref

open Cert.ReferenceIdeal Cert.ReferenceIdeal.Gen Cert.ReferenceIdeal.ReadP Cert.LinkPred Idealize.ShloMosaic Idealize.ShloMosaic.TcCoe Idealize.ShloMosaic.ValueIdx Idealize.ShloMosaic.StableHlo

/-! ## The index columns, the node vector and the weight slices, as the reference computes them -/

/-- The source words of the edges, a negative word counted from the end, as a column. -/
def rI (a0 : IVec S2x1000000 32) : IVec S1000000x1 32 := val_main_v21 (F := Ideal) a0

/-- The destination words of the edges as given, as a column. -/
def cI (a0 : IVec S2x1000000 32) : IVec S1000000x1 32 := val_main_v45 (F := Ideal) a0

/-- The destination words of the edges, a negative word counted from the end, as a column. -/
def cnI (a0 : IVec S2x1000000 32) : IVec S1000000x1 32 := val_main_v28 (F := Ideal) a0

/-- The node vector: 1 / sqrt(max(deg, 1)) where the in-degree is positive, 0 elsewhere. -/
def dv (a0 : IVec S2x1000000 32) : FVec Ideal S50000 .f32 := val_main_v15 (F := Ideal) a0

/-- The two layers' weight matrices and bias vectors, cut out of the stacked arguments. -/
def w0 (a6 : FVec Ideal S2x128x128 .f32) : FVec Ideal S128x128 .f32 := val_main_v32 (F := Ideal) a6
def w1 (a6 : FVec Ideal S2x128x128 .f32) : FVec Ideal S128x128 .f32 := val_main_v54 (F := Ideal) a6
def b0 (a7 : FVec Ideal S2x128 .f32) : FVec Ideal S128 .f32 := val_main_v48 (F := Ideal) a7
def b1 (a7 : FVec Ideal S2x128 .f32) : FVec Ideal S128 .f32 := val_main_v70 (F := Ideal) a7

/-- The two columns of a pair list, a negative word counted from the end. -/
def sI (p : IVec S400000x2 32) : IVec S400000x1 32 := val_main_v92 (F := Ideal) p
def dI (p : IVec S400000x2 32) : IVec S400000x1 32 := val_main_v99 (F := Ideal) p

/-! ## The node vector is a nonnegative real at every node -/

/-- The word 0x3F800000 is the real number one. -/
theorem one_f32 : Ideal.ofBits .f32 0x3F800000#32 = 1 := by
  simp [Ideal.ofBits, Ideal.ieee]
  first
    | exact_mod_cast (by norm_num : (8388608:ℝ) * ((2:ℝ)^23)⁻¹ = 1)
    | (rw [← EReal.coe_mul]; norm_num)
    | (norm_cast; norm_num)

/-- For y at least one, 1 / sqrt y is a nonnegative real: y is a real at least one, whose root is a positive real, or y is
    the upper infinity, whose root is itself and whose inverse is zero. -/
theorem inv_sqrt_real (y : EReal) (hy : 1 ≤ y) : 0 ≤ Ideal.div 1 (Ideal.sqrt y) ∧ Ideal.div 1 (Ideal.sqrt y) ≠ ⊤ := by
  induction y using EReal.rec with
  | bot =>
    exfalso
    rw [le_bot_iff] at hy
    first
      | exact EReal.coe_ne_bot 1 hy
      | exact absurd hy (by decide)
      | simp at hy
  | top =>
    rw [Ideal.sqrt_top]
    unfold Ideal.div
    rw [if_neg (by simp)]
    simp
  | coe r =>
    have hr : (1 : ℝ) ≤ r := by exact_mod_cast hy
    rw [Ideal.sqrt_coe, if_neg (by linarith)]
    have hs : Real.sqrt r ≠ 0 := by
      have : 0 < Real.sqrt r := Real.sqrt_pos.mpr (by linarith)
      exact ne_of_gt this
    rw [Ideal.div_coe hs, one_mul]
    refine ⟨?_, EReal.coe_ne_top _⟩
    exact_mod_cast (by positivity : (0:ℝ) ≤ 1 / Real.sqrt r)

/-- Whatever extended real the in-degree is, the node vector's entry is a nonnegative real: where the degree is not
    positive the entry is zero, and elsewhere it is 1 / sqrt(max(deg, 1)) with max(deg, 1) at least one. -/
theorem dv_real (a0 : IVec S2x1000000 32) (n : S50000.Idx) : 0 ≤ dv a0 n ∧ dv a0 n ≠ ⊤ := by
  unfold dv
  rw [val_main_v15_apply, val_main_v9_apply, val_main_v14_apply, val_main_v12_apply, val_main_v11_apply,
    val_main_v8_apply, val_main_v10_apply, val_main_v13_apply, val_main_call0_v1_apply, val_main_call0_v0_apply,
    val_main_cst_1_apply, val_main_cst_2_apply, val_main_cst_3_apply, val_main_cst_4_apply]
  generalize val_main_v7 (F := Ideal) a0 n = deg
  simp only [Ideal.ofBits_def, Ideal.ofBits_zero_f32, one_f32, Ideal.cmpf_def, Ideal.hostDivf_def,
    Ideal.hostUnary_sqrt_def, Ideal.maximumf_def]
  unfold Scalar.select
  split
  · exact inv_sqrt_real _ (le_max_right _ _)
  · exact ⟨le_refl _, EReal.zero_ne_top⟩

/-! ## The wrapped destination column is the given one, wrapped -/

/-- Selecting w + 50000 where w is negative is the wrap. -/
theorem select_wrap (x : BitVec 32) :
    Scalar.select (IntOp.cmpi .slt x 0#32) (IntOp.addi x 50000#32) x = wrap x := by
  unfold Scalar.select IntOp.cmpi IntOp.addi wrap
  by_cases h : x.slt 0#32 <;> simp [h]

theorem cnI_wrap (a0 : IVec S2x1000000 32) (e : Fin 1000000) :
    cnI a0 (ix2 e (0 : Fin 1)) = wrap (cI a0 (ix2 e (0 : Fin 1))) := by
  unfold cnI cI
  rw [val_main_v28_apply, val_main_v27_apply, val_main_v24_apply, val_main_v26_apply, val_main_v23_apply,
    val_main_v25_apply, val_main_c_6_apply, val_main_c_7_apply, val_main_v45_apply]
  exact select_wrap _

/-! ## The same columns under their other names in the program -/

theorem v39_eq (a0 : IVec S2x1000000 32) : val_main_v39 (F := Ideal) a0 = rI a0 := rfl
theorem v61_eq (a0 : IVec S2x1000000 32) : val_main_v61 (F := Ideal) a0 = rI a0 := rfl
theorem v6_eq (a0 : IVec S2x1000000 32) : val_main_v6 (F := Ideal) a0 = cI a0 := rfl
theorem v67_eq (a0 : IVec S2x1000000 32) : val_main_v67 (F := Ideal) a0 = cI a0 := rfl
theorem v107_eq (p : IVec S400000x2 32) : val_main_v107 (F := Ideal) p = sI p := rfl
theorem v114_eq (p : IVec S400000x2 32) : val_main_v114 (F := Ideal) p = dI p := rfl
theorem v137_eq (p : IVec S400000x2 32) : val_main_v137 (F := Ideal) p = sI p := rfl
theorem v144_eq (p : IVec S400000x2 32) : val_main_v144 (F := Ideal) p = dI p := rfl
theorem v152_eq (p : IVec S400000x2 32) : val_main_v152 (F := Ideal) p = sI p := rfl
theorem v159_eq (p : IVec S400000x2 32) : val_main_v159 (F := Ideal) p = dI p := rfl

/-! ## The gathers and the scatter-add read at an element -/

/-- An element of the node vector gathered by an edge column. -/
theorem gatherV (x : FVec Ideal S50000 .f32) (idx : IVec S1000000x1 32) (e : Fin 1000000) :
    Host.gather gather_S50000_S1000000x1_S1000000_n_0_n_n_0_1_1 x idx (ix1 e)
      = x (ix1 (node (idx (ix2 e (0 : Fin 1))))) :=
  Cert.Gat.Vecs.gather_vec_apply (N := 50000) (E := 1000000) (by decide)
    gather_S50000_S1000000x1_S1000000_n_0_n_n_0_1_1.wf x idx e

/-- A row of a node array gathered by an edge column. -/
theorem gatherE (x : FVec Ideal S50000x128 .f32) (idx : IVec S1000000x1 32) (e : Fin 1000000) (c : Fin 128) :
    Host.gather gather_S50000x128_S1000000x1_S1000000x128_1_0_n_n_0_1_1128 x idx (ix2 e c)
      = x (ix2 (node (idx (ix2 e (0 : Fin 1)))) c) :=
  Cert.Gat.Rows.gather_row_apply (N := 50000) (C := 128) (E := 1000000) (by decide)
    gather_S50000x128_S1000000x1_S1000000x128_1_0_n_n_0_1_1128.wf x idx e c

/-- A row of a node array gathered by a pair column. -/
theorem gatherP (x : FVec Ideal S50000x128 .f32) (idx : IVec S400000x1 32) (e : Fin 400000) (c : Fin 128) :
    Host.gather gather_S50000x128_S400000x1_S400000x128_1_0_n_n_0_1_1128 x idx (ix2 e c)
      = x (ix2 (node (idx (ix2 e (0 : Fin 1)))) c) :=
  Cert.Gat.Rows.gather_row_apply (N := 50000) (C := 128) (E := 400000) (by decide)
    gather_S50000x128_S400000x1_S400000x128_1_0_n_n_0_1_1128.wf x idx e c

/-- The edges' rows added into the nodes their destination words name. -/
theorem scatterE (z : FVec Ideal S50000x128 .f32) (idx : IVec S1000000x1 32) (u : FVec Ideal S1000000x128 .f32)
    (n : Fin 50000) (c : Fin 128) :
    Host.scatterAdd (F := Ideal) scatter_S50000x128_S1000000x1_S1000000x128_1_0_0_1 z idx u (ix2 n c)
      = z (ix2 n c) + ∑ e ∈ hit idx n, u (ix2 e c) := by
  rw [Cert.Hits.scatterAdd_at]
  exact congrArg (HAdd.hAdd (z (ix2 n c))) (Cert.Gat.Rows.sum_lands (N := 50000) (C := 128) (E := 1000000)
    scatter_S50000x128_S1000000x1_S1000000x128_1_0_0_1.wf idx u n c)

end Cert.LinkPred.Ref

end
-- ==== Proof.RefLayers.lean ====
/-
  The two graph-convolution layers and the chemistry projection of the reference program, as whole arrays.

  One layer: project the node rows by a 128 x 128 matrix; for every edge take the source node's projected row and
  multiply it by the edge's weight d(src) * d(dst); add the edges' rows into the rows of their destination nodes,
  starting from zero; add the bias and take the maximum with zero.  The weight of an edge is the product of the node
  vector gathered at its two ends.  The chemistry projection is a 768 x 128 projection, bias, rectifier, and a per-node
  mask.
-/
import proofs.«100846_j62912680952407_2_alg».proof.Proof.RefTerms

noncomputable section

open scoped BigOperators

namespace Cert.LinkPred.Ref

open Cert.ReferenceIdeal Cert.ReferenceIdeal.Gen Cert.ReferenceIdeal.ReadP Cert.LinkPred Idealize.ShloMosaic Idealize.ShloMosaic.TcCoe Idealize.ShloMosaic.ValueIdx Idealize.ShloMosaic.StableHlo

/-! ## The per-edge weight -/

/-- The product of the node vector gathered at the two ends of an edge. -/
theorem nrm_eq (a0 : IVec S2x1000000 32) (e : Fin 1000000) :
    val_main_v30 (F := Ideal) a0 (ix1 e) = nrm (rI a0) (cnI a0) (dv a0) e := by
  rw [val_main_v30_apply]
  unfold val_main_v22 val_main_v29
  rw [gatherV, gatherV]
  rfl

/-- The weight spread over the 128 columns, first layer's copy. -/
theorem nb42 (a0 : IVec S2x1000000 32) (e : Fin 1000000) (c : Fin 128) :
    val_main_v42 (F := Ideal) a0 (ix2 e c) = nrm (rI a0) (cnI a0) (dv a0) e := by
  have e1 : idx_main_v41 (idx_main_v42 (ix2 e c)) = ix1 e :=
    funext fun a => Fin.ext (by match a with | ⟨0, _⟩ => rfl)
  rw [val_main_v42_apply, val_main_v41_apply, e1, nrm_eq]

/-- The weight spread over the 128 columns, second layer's copy. -/
theorem nb64 (a0 : IVec S2x1000000 32) (e : Fin 1000000) (c : Fin 128) :
    val_main_v64 (F := Ideal) a0 (ix2 e c) = nrm (rI a0) (cnI a0) (dv a0) e := by
  have e1 : idx_main_v63 (idx_main_v64 (ix2 e c)) = ix1 e :=
    funext fun a => Fin.ext (by match a with | ⟨0, _⟩ => rfl)
  rw [val_main_v64_apply, val_main_v63_apply, e1, nrm_eq]

/-! ## One aggregation -/

/-- Gathering the source rows, weighting them, and adding them into a zero array at the destination words is the
    weighted aggregation. -/
theorem agg_eq (rIx cIx cnIx : IVec S1000000x1 32) (d : FVec Ideal S50000 .f32) (h : FVec Ideal S50000x128 .f32)
    (zz : FVec Ideal S50000x128 .f32) (hz : ∀ i, zz i = 0)
    (nb : FVec Ideal S1000000x128 .f32) (hnb : ∀ (e : Fin 1000000) (c : Fin 128), nb (ix2 e c) = nrm rIx cnIx d e) :
    Host.scatterAdd (F := Ideal) scatter_S50000x128_S1000000x1_S1000000x128_1_0_0_1 zz cIx
      (mulf (Host.gather gather_S50000x128_S1000000x1_S1000000x128_1_0_n_n_0_1_1128 h rIx) nb)
      = aggR rIx cIx cnIx d h := by
  funext i
  obtain ⟨n, c, rfl⟩ : ∃ (n : Fin 50000) (c : Fin 128), i = ix2 n c := ⟨i 0, i 1, eq_ix2 i⟩
  rw [scatterE, hz]
  unfold aggR
  show (0 : EReal) + _ = 0 + ∑ e ∈ hit cIx n, h (ix2 (node (rIx (ix2 e (0 : Fin 1)))) c) * nrm rIx cnIx d e
  refine congrArg (HAdd.hAdd (0 : EReal)) ?_
  refine Finset.sum_congr rfl fun e _ => ?_
  show Host.gather gather_S50000x128_S1000000x1_S1000000x128_1_0_n_n_0_1_1128 h rIx (ix2 e c) * nb (ix2 e c) = _
  rw [gatherE, hnb]

/-- A broadcast zero is zero everywhere. -/
theorem zero44 (i : S50000x128.Idx) : val_main_v44 (F := Ideal) i = 0 := by
  rw [val_main_v44_apply, val_main_cst_10_apply, Ideal.ofBits_def, Ideal.ofBits_zero_f32]
theorem zero66 (i : S50000x128.Idx) : val_main_v66 (F := Ideal) i = 0 := by
  rw [val_main_v66_apply, val_main_cst_13_apply, Ideal.ofBits_def, Ideal.ofBits_zero_f32]

/-! ## The first layer -/

theorem lidx33 (i : S50000x128.Idx) (k : Fin 128) : lidx_main_v33 i k = ix2 (i 0) k :=
  funext fun a => Fin.ext (by match a with | ⟨0, _⟩ => rfl | ⟨1, _⟩ => rfl)
theorem ridx33 (i : S50000x128.Idx) (k : Fin 128) : ridx_main_v33 i k = ix2 k (i 1) :=
  funext fun a => Fin.ext (by match a with | ⟨0, _⟩ => rfl | ⟨1, _⟩ => rfl)

theorem mm0_eq (a5 : FVec Ideal S50000x128 .f32) (a6 : FVec Ideal S2x128x128 .f32) :
    val_main_v33 (F := Ideal) a5 a6 = mm a5 (w0 a6) := by
  funext i
  rw [val_main_v33_apply]
  show _ = ∑ k : Fin 128, a5 (ix2 (i 0) k) * w0 a6 (ix2 k (i 1))
  exact Finset.sum_congr rfl fun k _ => by rw [lidx33, ridx33]; rfl

theorem agg0_eq (a0 : IVec S2x1000000 32) (a5 : FVec Ideal S50000x128 .f32) (a6 : FVec Ideal S2x128x128 .f32) :
    val_main_v46 (F := Ideal) a0 a5 a6 = aggR (rI a0) (cI a0) (cnI a0) (dv a0) (val_main_v33 (F := Ideal) a5 a6) := by
  unfold val_main_v46 val_main_v43 val_main_v40
  rw [v39_eq]
  exact agg_eq (rI a0) (cI a0) (cnI a0) (dv a0) _ _ zero44 _ (nb42 a0)

theorem relu0_eq (a0 : IVec S2x1000000 32) (a5 : FVec Ideal S50000x128 .f32) (a6 : FVec Ideal S2x128x128 .f32)
    (a7 : FVec Ideal S2x128 .f32) :
    val_main_v52 (F := Ideal) a0 a5 a6 a7 = biasRelu (val_main_v46 (F := Ideal) a0 a5 a6) (b0 a7) := by
  funext i
  rw [val_main_v52_apply, val_main_v51_apply, val_main_call1_v0_apply, val_main_call1_cst_apply, val_main_v50_apply,
    val_main_v49_apply]
  have e : idx_main_v49 (idx_main_v50 i) = ix1 (i 1) := funext fun a => Fin.ext (by match a with | ⟨0, _⟩ => rfl)
  rw [e]
  simp only [Ideal.maximumf_def, Ideal.addf_def, Ideal.ofBits_def, Ideal.ofBits_zero_f32]
  rfl

/-- The first layer: projection, weighted aggregation, bias and rectifier. -/
theorem layer0_eq (a0 : IVec S2x1000000 32) (a5 : FVec Ideal S50000x128 .f32) (a6 : FVec Ideal S2x128x128 .f32)
    (a7 : FVec Ideal S2x128 .f32) :
    val_main_v52 (F := Ideal) a0 a5 a6 a7
      = biasRelu (aggR (rI a0) (cI a0) (cnI a0) (dv a0) (mm a5 (w0 a6))) (b0 a7) := by
  rw [relu0_eq, agg0_eq, mm0_eq]

/-! ## The second layer -/

theorem lidx55 (i : S50000x128.Idx) (k : Fin 128) : lidx_main_v55 i k = ix2 (i 0) k :=
  funext fun a => Fin.ext (by match a with | ⟨0, _⟩ => rfl | ⟨1, _⟩ => rfl)
theorem ridx55 (i : S50000x128.Idx) (k : Fin 128) : ridx_main_v55 i k = ix2 k (i 1) :=
  funext fun a => Fin.ext (by match a with | ⟨0, _⟩ => rfl | ⟨1, _⟩ => rfl)

theorem mm1_eq (a0 : IVec S2x1000000 32) (a5 : FVec Ideal S50000x128 .f32) (a6 : FVec Ideal S2x128x128 .f32)
    (a7 : FVec Ideal S2x128 .f32) :
    val_main_v55 (F := Ideal) a0 a5 a6 a7 = mm (val_main_v52 (F := Ideal) a0 a5 a6 a7) (w1 a6) := by
  funext i
  rw [val_main_v55_apply]
  show _ = ∑ k : Fin 128, val_main_v52 (F := Ideal) a0 a5 a6 a7 (ix2 (i 0) k) * w1 a6 (ix2 k (i 1))
  exact Finset.sum_congr rfl fun k _ => by rw [lidx55, ridx55]; rfl

theorem agg1_eq (a0 : IVec S2x1000000 32) (a5 : FVec Ideal S50000x128 .f32) (a6 : FVec Ideal S2x128x128 .f32)
    (a7 : FVec Ideal S2x128 .f32) :
    val_main_v68 (F := Ideal) a0 a5 a6 a7
      = aggR (rI a0) (cI a0) (cnI a0) (dv a0) (val_main_v55 (F := Ideal) a0 a5 a6 a7) := by
  unfold val_main_v68 val_main_v65 val_main_v62
  rw [v61_eq, v67_eq]
  exact agg_eq (rI a0) (cI a0) (cnI a0) (dv a0) _ _ zero66 _ (nb64 a0)

theorem relu1_eq (a0 : IVec S2x1000000 32) (a5 : FVec Ideal S50000x128 .f32) (a6 : FVec Ideal S2x128x128 .f32)
    (a7 : FVec Ideal S2x128 .f32) :
    val_main_v74 (F := Ideal) a0 a5 a6 a7 = biasRelu (val_main_v68 (F := Ideal) a0 a5 a6 a7) (b1 a7) := by
  funext i
  rw [val_main_v74_apply, val_main_v73_apply, val_main_call2_v0_apply, val_main_call2_cst_apply, val_main_v72_apply,
    val_main_v71_apply]
  have e : idx_main_v71 (idx_main_v72 i) = ix1 (i 1) := funext fun a => Fin.ext (by match a with | ⟨0, _⟩ => rfl)
  rw [e]
  simp only [Ideal.maximumf_def, Ideal.addf_def, Ideal.ofBits_def, Ideal.ofBits_zero_f32]
  rfl

/-- The two layers composed: the node embeddings the decoder reads. -/
theorem layer1_eq (a0 : IVec S2x1000000 32) (a5 : FVec Ideal S50000x128 .f32) (a6 : FVec Ideal S2x128x128 .f32)
    (a7 : FVec Ideal S2x128 .f32) :
    val_main_v74 (F := Ideal) a0 a5 a6 a7
      = biasRelu (aggR (rI a0) (cI a0) (cnI a0) (dv a0)
          (mm (biasRelu (aggR (rI a0) (cI a0) (cnI a0) (dv a0) (mm a5 (w0 a6))) (b0 a7)) (w1 a6))) (b1 a7) := by
  rw [relu1_eq, agg1_eq, mm1_eq, layer0_eq]

/-! ## The chemistry projection -/

theorem lidx75 (i : S50000x128.Idx) (k : Fin 768) : lidx_main_v75 i k = ix2 (i 0) k :=
  funext fun a => Fin.ext (by match a with | ⟨0, _⟩ => rfl | ⟨1, _⟩ => rfl)
theorem ridx75 (i : S50000x128.Idx) (k : Fin 768) : ridx_main_v75 i k = ix2 k (i 1) :=
  funext fun a => Fin.ext (by match a with | ⟨0, _⟩ => rfl | ⟨1, _⟩ => rfl)

/-- Projection, bias, rectifier, and the mask spread over the columns. -/
theorem chem_eq (a1 : FVec Ideal S50000x768 .f32) (a4 : FVec Ideal S50000 .f32) (a8 : FVec Ideal S768x128 .f32)
    (a9 : FVec Ideal S128 .f32) :
    val_main_v82 (F := Ideal) a1 a4 a8 a9 = chemR a1 a8 a9 a4 := by
  funext i
  rw [val_main_v82_apply, val_main_v79_apply, val_main_v78_apply, val_main_v75_apply, val_main_v77_apply,
    val_main_v76_apply, val_main_call3_v0_apply, val_main_call3_cst_apply, val_main_v81_apply, val_main_v80_apply]
  have e1 : idx_main_v76 (idx_main_v77 i) = ix1 (i 1) := funext fun a => Fin.ext (by match a with | ⟨0, _⟩ => rfl)
  have e2 : idx_main_v80 (idx_main_v81 i) = ix1 (i 0) := funext fun a => Fin.ext (by match a with | ⟨0, _⟩ => rfl)
  have hs : (∑ k : Fin 768, a1 (lidx_main_v75 i k) * a8 (ridx_main_v75 i k))
      = ∑ k : Fin 768, a1 (ix2 (i 0) k) * a8 (ix2 k (i 1)) :=
    Finset.sum_congr rfl fun k _ => by rw [lidx75, ridx75] <;> rfl
  simp only [e1, e2, hs, Ideal.maximumf_def, Ideal.addf_def, Ideal.mulf_def, Ideal.ofBits_def, Ideal.ofBits_zero_f32]
  rfl

end Cert.LinkPred.Ref

end
-- ==== Proof.RefOut.lean ====
/-
  The decoder of the reference program and its two results.

  For a list of node pairs the decoder gathers the rows of the two nodes of each pair from the embeddings and from the
  chemistry projection, multiplies them elementwise, sets the two 128-column products side by side, and applies a
  256 x 128 layer with bias and rectifier followed by a 128 x 1 layer with bias.  The program does this once for each of
  its two pair lists; the two results are the specification's function of the argument arrays.
-/
import proofs.«100846_j62912680952407_2_alg».proof.Proof.RefLayers

noncomputable section

open scoped BigOperators

namespace Cert.LinkPred.Ref

open Cert.ReferenceIdeal Cert.ReferenceIdeal.Gen Cert.ReferenceIdeal.ReadP Cert.LinkPred Idealize.ShloMosaic Idealize.ShloMosaic.TcCoe Idealize.ShloMosaic.ValueIdx Idealize.ShloMosaic.StableHlo

/-! ## Two blocks side by side -/

/-- The concatenation of two 128-column blocks along the columns, read at an element. -/
theorem cat_eq (a b : FVec Ideal S400000x128 .f32) :
    concatenate S400000x256 1 [⟨S400000x128, a⟩, ⟨S400000x128, b⟩] concatenates_S400000x128_S400000x128_S400000x256_d1
      = cat a b := by
  funext i
  unfold cat
  split
  · next h =>
    exact concatenate_pair_apply_left (t := S400000x256) (s₁ := S400000x128) (s₂ := S400000x128) 1 a b
      concatenates_S400000x128_S400000x128_S400000x256_d1 i rfl (ix2 (i 0) ⟨(i 1).val, h⟩)
      (fun q => by match q with | ⟨0, _⟩ => rfl | ⟨1, _⟩ => rfl)
  · next h =>
    have h256 : (i 1).val < 256 := (i 1).isLt
    exact concatenate_pair_apply_right (t := S400000x256) (s₁ := S400000x128) (s₂ := S400000x128) 1 a b
      concatenates_S400000x128_S400000x128_S400000x256_d1 i rfl rfl (ix2 (i 0) ⟨(i 1).val - 128, by omega⟩)
      (fun q hq => by
        match q with
        | ⟨0, _⟩ => rfl
        | ⟨1, _⟩ => exact absurd rfl hq)
      (by show (i 1).val - 128 + 128 = (i 1).val; omega)

/-- The decoder from its hidden layer on: the stages' values at an element, put together. -/
theorem dec_of_stages (zp cp : FVec Ideal S400000x128 .f32) (a10 : FVec Ideal S256x128 .f32) (a11 : FVec Ideal S128 .f32)
    (a12 : FVec Ideal S128x1 .f32) (a13 : FVec Ideal S1 .f32)
    (u : FVec Ideal S400000x256 .f32) (hu : u = cat zp cp)
    (hd : FVec Ideal S400000x128 .f32)
    (hhd : ∀ (e : Fin 400000) (k : Fin 128),
      hd (ix2 e k) = max ((∑ j : Fin 256, u (ix2 e j) * a10 (ix2 j k)) + a11 (ix1 k)) 0)
    (o : FVec Ideal S400000 .f32)
    (ho : ∀ e : Fin 400000, o (ix1 e) = (∑ k : Fin 128, hd (ix2 e k) * a12 (ix2 k (0 : Fin 1))) + a13 (ix1 (0 : Fin 1))) :
    o = decR zp cp a10 a11 a12 a13 := by
  funext i
  obtain ⟨e, rfl⟩ : ∃ e : Fin 400000, i = ix1 e := ⟨i 0, eq_ix1 i⟩
  rw [ho]
  subst hu
  show _ = (∑ k : Fin 128, max ((∑ j : Fin 256, cat zp cp (ix2 e j) * a10 (ix2 j k)) + a11 (ix1 k)) 0 * a12 (ix2 k (0 : Fin 1)))
    + a13 (ix1 (0 : Fin 1))
  congr 1
  exact Finset.sum_congr rfl fun k _ => by rw [hhd]

/-! ## The decoder over the first pair list -/

theorem zp0_eq (a0 : IVec S2x1000000 32) (p : IVec S400000x2 32) (a5 : FVec Ideal S50000x128 .f32)
    (a6 : FVec Ideal S2x128x128 .f32) (a7 : FVec Ideal S2x128 .f32) :
    val_main_v101 (F := Ideal) a0 p a5 a6 a7 = pairs (sI p) (dI p) (val_main_v74 (F := Ideal) a0 a5 a6 a7) := by
  funext i
  obtain ⟨e, c, rfl⟩ : ∃ (e : Fin 400000) (c : Fin 128), i = ix2 e c := ⟨i 0, i 1, eq_ix2 i⟩
  rw [val_main_v101_apply]
  unfold val_main_v93 val_main_v100
  rw [gatherP, gatherP]
  rfl

theorem cp0_eq (a1 : FVec Ideal S50000x768 .f32) (p : IVec S400000x2 32) (a4 : FVec Ideal S50000 .f32)
    (a8 : FVec Ideal S768x128 .f32) (a9 : FVec Ideal S128 .f32) :
    val_main_v116 (F := Ideal) a1 p a4 a8 a9 = pairs (sI p) (dI p) (val_main_v82 (F := Ideal) a1 a4 a8 a9) := by
  funext i
  obtain ⟨e, c, rfl⟩ : ∃ (e : Fin 400000) (c : Fin 128), i = ix2 e c := ⟨i 0, i 1, eq_ix2 i⟩
  rw [val_main_v116_apply]
  unfold val_main_v108 val_main_v115
  rw [v107_eq, v114_eq, gatherP, gatherP]
  rfl

theorem lidx_v118 (e : Fin 400000) (k : Fin 128) (j : Fin 256) : lidx_main_v118 (ix2 e k) j = ix2 e j :=
  funext fun a => Fin.ext (by match a with | ⟨0, _⟩ => rfl | ⟨1, _⟩ => rfl)
theorem ridx_v118 (e : Fin 400000) (k : Fin 128) (j : Fin 256) : ridx_main_v118 (ix2 e k) j = ix2 j k :=
  funext fun a => Fin.ext (by match a with | ⟨0, _⟩ => rfl | ⟨1, _⟩ => rfl)
theorem lidx_v123 (e : Fin 400000) (k : Fin 128) : lidx_main_v123 (idx_main_v127 (ix1 e)) k = ix2 e k :=
  funext fun a => Fin.ext (by
    match a with
    | ⟨0, _⟩ => exact Nat.div_one _
    | ⟨1, _⟩ => rfl)
theorem ridx_v123 (e : Fin 400000) (k : Fin 128) : ridx_main_v123 (idx_main_v127 (ix1 e)) k = ix2 k (0 : Fin 1) :=
  funext fun a => Fin.ext (by match a with | ⟨0, _⟩ => rfl | ⟨1, _⟩ => rfl)

theorem dec0_eq (a0 : IVec S2x1000000 32) (a1 : FVec Ideal S50000x768 .f32) (p : IVec S400000x2 32)
    (a4 : FVec Ideal S50000 .f32) (a5 : FVec Ideal S50000x128 .f32) (a6 : FVec Ideal S2x128x128 .f32)
    (a7 : FVec Ideal S2x128 .f32) (a8 : FVec Ideal S768x128 .f32) (a9 : FVec Ideal S128 .f32)
    (a10 : FVec Ideal S256x128 .f32) (a11 : FVec Ideal S128 .f32) (a12 : FVec Ideal S128x1 .f32) (a13 : FVec Ideal S1 .f32) :
    val_main_v127 (F := Ideal) a0 a1 p a4 a5 a6 a7 a8 a9 a10 a11 a12 a13
      = decR (pairs (sI p) (dI p) (val_main_v74 (F := Ideal) a0 a5 a6 a7))
          (pairs (sI p) (dI p) (val_main_v82 (F := Ideal) a1 a4 a8 a9)) a10 a11 a12 a13 := by
  refine dec_of_stages _ _ a10 a11 a12 a13 (val_main_v117 (F := Ideal) a0 a1 p a4 a5 a6 a7 a8 a9) ?_
    (val_main_v122 (F := Ideal) a0 a1 p a4 a5 a6 a7 a8 a9 a10 a11) ?_ _ ?_
  · unfold val_main_v117
    rw [cat_eq, zp0_eq, cp0_eq]
  · intro e k
    rw [val_main_v122_apply, val_main_v121_apply, val_main_v118_apply, val_main_v120_apply, val_main_v119_apply,
      val_main_call4_v0_apply, val_main_call4_cst_apply]
    have e1 : idx_main_v119 (idx_main_v120 (ix2 e k)) = ix1 k :=
      funext fun a => Fin.ext (by match a with | ⟨0, _⟩ => rfl)
    have hs : (∑ j : Fin 256, (val_main_v117 (F := Ideal) a0 a1 p a4 a5 a6 a7 a8 a9) (lidx_main_v118 (ix2 e k) j)
          * a10 (ridx_main_v118 (ix2 e k) j))
        = ∑ j : Fin 256, (val_main_v117 (F := Ideal) a0 a1 p a4 a5 a6 a7 a8 a9) (ix2 e j) * a10 (ix2 j k) :=
      Finset.sum_congr rfl fun j _ => by rw [lidx_v118, ridx_v118] <;> rfl
    simp only [e1, hs, Ideal.maximumf_def, Ideal.addf_def, Ideal.ofBits_def, Ideal.ofBits_zero_f32]
  · intro e
    rw [val_main_v127_apply, val_main_v126_apply, val_main_v123_apply, val_main_v125_apply, val_main_v124_apply]
    have e1 : idx_main_v124 (idx_main_v125 (idx_main_v127 (ix1 e))) = ix1 (0 : Fin 1) :=
      funext fun a => Fin.ext (by match a with | ⟨0, _⟩ => rfl)
    have hs : (∑ k : Fin 128, (val_main_v122 (F := Ideal) a0 a1 p a4 a5 a6 a7 a8 a9 a10 a11)
          (lidx_main_v123 (idx_main_v127 (ix1 e)) k) * a12 (ridx_main_v123 (idx_main_v127 (ix1 e)) k))
        = ∑ k : Fin 128, (val_main_v122 (F := Ideal) a0 a1 p a4 a5 a6 a7 a8 a9 a10 a11) (ix2 e k)
          * a12 (ix2 k (0 : Fin 1)) :=
      Finset.sum_congr rfl fun k _ => by rw [lidx_v123, ridx_v123] <;> rfl
    simp only [e1, hs, Ideal.addf_def]

/-! ## The decoder over the second pair list -/

theorem zp1_eq (a0 : IVec S2x1000000 32) (p : IVec S400000x2 32) (a5 : FVec Ideal S50000x128 .f32)
    (a6 : FVec Ideal S2x128x128 .f32) (a7 : FVec Ideal S2x128 .f32) :
    val_main_v146 (F := Ideal) a0 p a5 a6 a7 = pairs (sI p) (dI p) (val_main_v74 (F := Ideal) a0 a5 a6 a7) := by
  funext i
  obtain ⟨e, c, rfl⟩ : ∃ (e : Fin 400000) (c : Fin 128), i = ix2 e c := ⟨i 0, i 1, eq_ix2 i⟩
  rw [val_main_v146_apply]
  unfold val_main_v138 val_main_v145
  rw [v137_eq, v144_eq, gatherP, gatherP]
  rfl

theorem cp1_eq (a1 : FVec Ideal S50000x768 .f32) (p : IVec S400000x2 32) (a4 : FVec Ideal S50000 .f32)
    (a8 : FVec Ideal S768x128 .f32) (a9 : FVec Ideal S128 .f32) :
    val_main_v161 (F := Ideal) a1 p a4 a8 a9 = pairs (sI p) (dI p) (val_main_v82 (F := Ideal) a1 a4 a8 a9) := by
  funext i
  obtain ⟨e, c, rfl⟩ : ∃ (e : Fin 400000) (c : Fin 128), i = ix2 e c := ⟨i 0, i 1, eq_ix2 i⟩
  rw [val_main_v161_apply]
  unfold val_main_v153 val_main_v160
  rw [v152_eq, v159_eq, gatherP, gatherP]
  rfl

theorem lidx_v163 (e : Fin 400000) (k : Fin 128) (j : Fin 256) : lidx_main_v163 (ix2 e k) j = ix2 e j :=
  funext fun a => Fin.ext (by match a with | ⟨0, _⟩ => rfl | ⟨1, _⟩ => rfl)
theorem ridx_v163 (e : Fin 400000) (k : Fin 128) (j : Fin 256) : ridx_main_v163 (ix2 e k) j = ix2 j k :=
  funext fun a => Fin.ext (by match a with | ⟨0, _⟩ => rfl | ⟨1, _⟩ => rfl)
theorem lidx_v168 (e : Fin 400000) (k : Fin 128) : lidx_main_v168 (idx_main_v172 (ix1 e)) k = ix2 e k :=
  funext fun a => Fin.ext (by
    match a with
    | ⟨0, _⟩ => exact Nat.div_one _
    | ⟨1, _⟩ => rfl)
theorem ridx_v168 (e : Fin 400000) (k : Fin 128) : ridx_main_v168 (idx_main_v172 (ix1 e)) k = ix2 k (0 : Fin 1) :=
  funext fun a => Fin.ext (by match a with | ⟨0, _⟩ => rfl | ⟨1, _⟩ => rfl)

theorem dec1_eq (a0 : IVec S2x1000000 32) (a1 : FVec Ideal S50000x768 .f32) (p : IVec S400000x2 32)
    (a4 : FVec Ideal S50000 .f32) (a5 : FVec Ideal S50000x128 .f32) (a6 : FVec Ideal S2x128x128 .f32)
    (a7 : FVec Ideal S2x128 .f32) (a8 : FVec Ideal S768x128 .f32) (a9 : FVec Ideal S128 .f32)
    (a10 : FVec Ideal S256x128 .f32) (a11 : FVec Ideal S128 .f32) (a12 : FVec Ideal S128x1 .f32) (a13 : FVec Ideal S1 .f32) :
    val_main_v172 (F := Ideal) a0 a1 p a4 a5 a6 a7 a8 a9 a10 a11 a12 a13
      = decR (pairs (sI p) (dI p) (val_main_v74 (F := Ideal) a0 a5 a6 a7))
          (pairs (sI p) (dI p) (val_main_v82 (F := Ideal) a1 a4 a8 a9)) a10 a11 a12 a13 := by
  refine dec_of_stages _ _ a10 a11 a12 a13 (val_main_v162 (F := Ideal) a0 a1 p a4 a5 a6 a7 a8 a9) ?_
    (val_main_v167 (F := Ideal) a0 a1 p a4 a5 a6 a7 a8 a9 a10 a11) ?_ _ ?_
  · unfold val_main_v162
    rw [cat_eq, zp1_eq, cp1_eq]
  · intro e k
    rw [val_main_v167_apply, val_main_v166_apply, val_main_v163_apply, val_main_v165_apply, val_main_v164_apply,
      val_main_call5_v0_apply, val_main_call5_cst_apply]
    have e1 : idx_main_v164 (idx_main_v165 (ix2 e k)) = ix1 k :=
      funext fun a => Fin.ext (by match a with | ⟨0, _⟩ => rfl)
    have hs : (∑ j : Fin 256, (val_main_v162 (F := Ideal) a0 a1 p a4 a5 a6 a7 a8 a9) (lidx_main_v163 (ix2 e k) j)
          * a10 (ridx_main_v163 (ix2 e k) j))
        = ∑ j : Fin 256, (val_main_v162 (F := Ideal) a0 a1 p a4 a5 a6 a7 a8 a9) (ix2 e j) * a10 (ix2 j k) :=
      Finset.sum_congr rfl fun j _ => by rw [lidx_v163, ridx_v163] <;> rfl
    simp only [e1, hs, Ideal.maximumf_def, Ideal.addf_def, Ideal.ofBits_def, Ideal.ofBits_zero_f32]
  · intro e
    rw [val_main_v172_apply, val_main_v171_apply, val_main_v168_apply, val_main_v170_apply, val_main_v169_apply]
    have e1 : idx_main_v169 (idx_main_v170 (idx_main_v172 (ix1 e))) = ix1 (0 : Fin 1) :=
      funext fun a => Fin.ext (by match a with | ⟨0, _⟩ => rfl)
    have hs : (∑ k : Fin 128, (val_main_v167 (F := Ideal) a0 a1 p a4 a5 a6 a7 a8 a9 a10 a11)
          (lidx_main_v168 (idx_main_v172 (ix1 e)) k) * a12 (ridx_main_v168 (idx_main_v172 (ix1 e)) k))
        = ∑ k : Fin 128, (val_main_v167 (F := Ideal) a0 a1 p a4 a5 a6 a7 a8 a9 a10 a11) (ix2 e k)
          * a12 (ix2 k (0 : Fin 1)) :=
      Finset.sum_congr rfl fun k _ => by rw [lidx_v168, ridx_v168] <;> rfl
    simp only [e1, hs, Ideal.addf_def]

/-! ## The two results -/

/-- The first result's stage, over any arguments, is the specification over the columns, the node vector and the slices
    computed from them. -/
theorem out0_val (a0 : IVec S2x1000000 32) (a1 : FVec Ideal S50000x768 .f32) (p : IVec S400000x2 32)
    (a4 : FVec Ideal S50000 .f32) (a5 : FVec Ideal S50000x128 .f32) (a6 : FVec Ideal S2x128x128 .f32)
    (a7 : FVec Ideal S2x128 .f32) (a8 : FVec Ideal S768x128 .f32) (a9 : FVec Ideal S128 .f32)
    (a10 : FVec Ideal S256x128 .f32) (a11 : FVec Ideal S128 .f32) (a12 : FVec Ideal S128x1 .f32) (a13 : FVec Ideal S1 .f32) :
    val_main_v127 (F := Ideal) a0 a1 p a4 a5 a6 a7 a8 a9 a10 a11 a12 a13
      = rOut (rI a0) (cI a0) (cnI a0) (dv a0) a5 (w0 a6) (b0 a7) (w1 a6) (b1 a7)
        a1 a8 a9 a4 (sI p) (dI p) a10 a11 a12 a13 := by
  rw [dec0_eq, layer1_eq, chem_eq]
  rfl

/-- The second result's stage likewise, over the second pair list. -/
theorem out1_val (a0 : IVec S2x1000000 32) (a1 : FVec Ideal S50000x768 .f32) (p : IVec S400000x2 32)
    (a4 : FVec Ideal S50000 .f32) (a5 : FVec Ideal S50000x128 .f32) (a6 : FVec Ideal S2x128x128 .f32)
    (a7 : FVec Ideal S2x128 .f32) (a8 : FVec Ideal S768x128 .f32) (a9 : FVec Ideal S128 .f32)
    (a10 : FVec Ideal S256x128 .f32) (a11 : FVec Ideal S128 .f32) (a12 : FVec Ideal S128x1 .f32) (a13 : FVec Ideal S1 .f32) :
    val_main_v172 (F := Ideal) a0 a1 p a4 a5 a6 a7 a8 a9 a10 a11 a12 a13
      = rOut (rI a0) (cI a0) (cnI a0) (dv a0) a5 (w0 a6) (b0 a7) (w1 a6) (b1 a7)
        a1 a8 a9 a4 (sI p) (dI p) a10 a11 a12 a13 := by
  rw [dec1_eq, layer1_eq, chem_eq]
  rfl

theorem out0_eq (m : (ℓ : Loc nD τ sig) → Buf (Elt Ideal) ℓ) (c : Dev nD) :
    Cert.ReferenceIdeal.ValueP.res_out0 (F := Ideal) m c
      = rOut (rI (m ((c.tc : Thread nD τ).loc main_arg0))) (cI (m ((c.tc : Thread nD τ).loc main_arg0))) (cnI (m ((c.tc : Thread nD τ).loc main_arg0))) (dv (m ((c.tc : Thread nD τ).loc main_arg0))) (m ((c.tc : Thread nD τ).loc main_arg5)) (w0 (m ((c.tc : Thread nD τ).loc main_arg6))) (b0 (m ((c.tc : Thread nD τ).loc main_arg7))) (w1 (m ((c.tc : Thread nD τ).loc main_arg6))) (b1 (m ((c.tc : Thread nD τ).loc main_arg7)))
        (m ((c.tc : Thread nD τ).loc main_arg1)) (m ((c.tc : Thread nD τ).loc main_arg8)) (m ((c.tc : Thread nD τ).loc main_arg9)) (m ((c.tc : Thread nD τ).loc main_arg4)) (sI (m ((c.tc : Thread nD τ).loc main_arg2))) (dI (m ((c.tc : Thread nD τ).loc main_arg2))) (m ((c.tc : Thread nD τ).loc main_arg10)) (m ((c.tc : Thread nD τ).loc main_arg11)) (m ((c.tc : Thread nD τ).loc main_arg12)) (m ((c.tc : Thread nD τ).loc main_arg13)) :=
  (val_main_v127_eq (F := Ideal) m c).trans (out0_val _ _ _ _ _ _ _ _ _ _ _ _ _)

theorem out1_eq (m : (ℓ : Loc nD τ sig) → Buf (Elt Ideal) ℓ) (c : Dev nD) :
    Cert.ReferenceIdeal.ValueP.res_out1 (F := Ideal) m c
      = rOut (rI (m ((c.tc : Thread nD τ).loc main_arg0))) (cI (m ((c.tc : Thread nD τ).loc main_arg0))) (cnI (m ((c.tc : Thread nD τ).loc main_arg0))) (dv (m ((c.tc : Thread nD τ).loc main_arg0))) (m ((c.tc : Thread nD τ).loc main_arg5)) (w0 (m ((c.tc : Thread nD τ).loc main_arg6))) (b0 (m ((c.tc : Thread nD τ).loc main_arg7))) (w1 (m ((c.tc : Thread nD τ).loc main_arg6))) (b1 (m ((c.tc : Thread nD τ).loc main_arg7)))
        (m ((c.tc : Thread nD τ).loc main_arg1)) (m ((c.tc : Thread nD τ).loc main_arg8)) (m ((c.tc : Thread nD τ).loc main_arg9)) (m ((c.tc : Thread nD τ).loc main_arg4)) (sI (m ((c.tc : Thread nD τ).loc main_arg3))) (dI (m ((c.tc : Thread nD τ).loc main_arg3))) (m ((c.tc : Thread nD τ).loc main_arg10)) (m ((c.tc : Thread nD τ).loc main_arg11)) (m ((c.tc : Thread nD τ).loc main_arg12)) (m ((c.tc : Thread nD τ).loc main_arg13)) :=
  (val_main_v172_eq (F := Ideal) m c).trans (out1_val _ _ _ _ _ _ _ _ _ _ _ _ _)

end Cert.LinkPred.Ref

end
-- ==== Proof.lean ====
/-
  A link-prediction network: two graph-convolution layers over learned node embeddings, a masked dense projection
  of chemistry features, and a two-layer decoder over pairs of nodes.

  The kernel program factors the symmetric normalization d(src)·d(dst) per NODE: each projection is scaled by
  d at the source node inside its dense block, and the aggregated sum is scaled by d at the destination node in the
  next block; its decoder takes the two halves of its input separately, splits the first weight accordingly, and
  widens the last layer to eight columns of which column 0 is kept.  The reference multiplies every edge's message
  by the product of the two gathered scales, concatenates the decoder's input, and uses the undivided weights.

  On the extended reals the two agree element by element: d(n) = 1/sqrt(max(deg n, 1)) (or 0) is a nonnegative real
  whatever deg n is, so it distributes over the sum of the messages arriving at n; every edge arriving at n has n as
  its wrapped, clamped destination; a sum over the 256 joined columns is the sum of the two half sums; and a zero
  pad's column 0 is the unpadded column.  Nothing is assumed finite: the precondition is not used by the value claim.

  The three frames: the two kernel programs' are the generated frame certificates; the reference's is its run with
  the results dropped.  The kernel is its own idealization (no rewrite was applied), so that claim is trivial.
-/
import proofs.«100846_j62912680952407_2_alg».proof.Defs
import proofs.«100846_j62912680952407_2_alg».proof.Proof.Gen.Kernel
import proofs.«100846_j62912680952407_2_alg».proof.Proof.Gen.Kernel.Skeleton
import proofs.«100846_j62912680952407_2_alg».proof.Proof.Gen.Kernel.Launch
import proofs.«100846_j62912680952407_2_alg».proof.Proof.Gen.Kernel.Points
import proofs.«100846_j62912680952407_2_alg».proof.Proof.Gen.Kernel.Frame
import proofs.«100846_j62912680952407_2_alg».proof.Proof.Gen.KernelIdeal
import proofs.«100846_j62912680952407_2_alg».proof.Proof.Gen.KernelIdeal.Skeleton
import proofs.«100846_j62912680952407_2_alg».proof.Proof.Gen.KernelIdeal.Launch
import proofs.«100846_j62912680952407_2_alg».proof.Proof.Gen.KernelIdeal.Points
import proofs.«100846_j62912680952407_2_alg».proof.Proof.Gen.KernelIdeal.Frame
import proofs.«100846_j62912680952407_2_alg».proof.Proof.Gen.ReferenceIdeal
import proofs.«100846_j62912680952407_2_alg».proof.Proof.Gen.Pre_finite_inputs
import Idealize.ShloMosaic.Adequacy
import Idealize.ShloMosaic.Init
import proofs.«100846_j62912680952407_2_alg».proof.Proof.RefRun
import proofs.«100846_j62912680952407_2_alg».proof.Proof.Bridge
import proofs.«100846_j62912680952407_2_alg».proof.Proof.KRun
import proofs.«100846_j62912680952407_2_alg».proof.Proof.KOut
import proofs.«100846_j62912680952407_2_alg».proof.Proof.RefOut

set_option maxRecDepth 16384

noncomputable section

namespace Cert.Proof

open Idealize.ShloMosaic Idealize.ShloMosaic.TcCoe Idealize.SL.Sem Idealize.ShloMosaic.ValueIdx
open Cert.LinkPred

/-! ## The two programs compute their index columns, node scale and weight slices by the same operations -/

theorem rI_eq (a0) : Ref.rI a0 = K.rI a0 := rfl
theorem cI_eq (a0) : Ref.cI a0 = K.cI a0 := rfl
theorem dv_eq (a0) : Ref.dv a0 = K.dv a0 := rfl
theorem w0_eq (a6) : Ref.w0 a6 = K.w0 a6 := rfl
theorem w1_eq (a6) : Ref.w1 a6 = K.w1 a6 := rfl
theorem b0_eq (a7) : Ref.b0 a7 = K.b0 a7 := rfl
theorem b1_eq (a7) : Ref.b1 a7 = K.b1 a7 := rfl
theorem sI_eq (p) : Ref.sI p = KT.sI p := rfl
theorem dI_eq (p) : Ref.dI p = KT.dI p := rfl

/-- The reference's arrangement over the reference's terms is the kernel's arrangement over the kernel's terms. -/
theorem rOut_ref_eq_kOut (a0 a5 a6 a7 a1 a8 a9 a4 p a10 a11 a12 a13) :
    rOut (Ref.rI a0) (Ref.cI a0) (Ref.cnI a0) (Ref.dv a0) a5 (Ref.w0 a6) (Ref.b0 a7) (Ref.w1 a6) (Ref.b1 a7) a1 a8 a9 a4
        (Ref.sI p) (Ref.dI p) a10 a11 a12 a13
      = kOut (K.rI a0) (K.cI a0) (K.dv a0) a5 (K.w0 a6) (K.b0 a7) (K.w1 a6) (K.b1 a7) a1 a8 a9 a4 (KT.sI p) (KT.dI p)
          a10 a11 a12 a13 := by
  rw [← rI_eq, ← cI_eq, ← dv_eq, ← w0_eq, ← w1_eq, ← b0_eq, ← b1_eq, ← sI_eq, ← dI_eq]
  exact (kOut_eq_rOut (Ref.rI a0) (Ref.cI a0) (Ref.cnI a0) (Ref.dv a0) (Ref.dv_real a0) (Ref.cnI_wrap a0)
    a5 (Ref.w0 a6) (Ref.b0 a7) (Ref.w1 a6) (Ref.b1 a7) a1 a8 a9 a4 (Ref.sI p) (Ref.dI p) a10 a11 a12 a13).symm

/-! ## The claims -/

theorem frame_k : Cert.frame_Kernel := fun m ρ _ => Cert.Kernel.Gen.frame m ρ
theorem frame_ki : Cert.frame_KernelIdeal := fun m ρ _ => Cert.KernelIdeal.Gen.frame m ρ
theorem frame_r : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both idealized programs end with the per-node arrangement of the specification at the arguments' launch contents. -/
theorem algebraic : Cert.algebraic_KernelIdeal_ReferenceIdeal := by
  intro m ρ m' ρ' _ hagree
  refine ⟨fun c => kOut (K.rI (m ((c.tc : Thread Cert.KernelIdeal.nD Cert.KernelIdeal.τ).loc Cert.KernelIdeal.main_arg0))) (K.cI (m ((c.tc : Thread Cert.KernelIdeal.nD Cert.KernelIdeal.τ).loc Cert.KernelIdeal.main_arg0))) (K.dv (m ((c.tc : Thread Cert.KernelIdeal.nD Cert.KernelIdeal.τ).loc Cert.KernelIdeal.main_arg0))) (m ((c.tc : Thread Cert.KernelIdeal.nD Cert.KernelIdeal.τ).loc Cert.KernelIdeal.main_arg5)) (K.w0 (m ((c.tc : Thread Cert.KernelIdeal.nD Cert.KernelIdeal.τ).loc Cert.KernelIdeal.main_arg6))) (K.b0 (m ((c.tc : Thread Cert.KernelIdeal.nD Cert.KernelIdeal.τ).loc Cert.KernelIdeal.main_arg7))) (K.w1 (m ((c.tc : Thread Cert.KernelIdeal.nD Cert.KernelIdeal.τ).loc Cert.KernelIdeal.main_arg6))) (K.b1 (m ((c.tc : Thread Cert.KernelIdeal.nD Cert.KernelIdeal.τ).loc Cert.KernelIdeal.main_arg7)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg4)) (KT.sI (m ((c.tc : Thread Cert.KernelIdeal.nD Cert.KernelIdeal.τ).loc Cert.KernelIdeal.main_arg2))) (KT.dI (m ((c.tc : Thread Cert.KernelIdeal.nD Cert.KernelIdeal.τ).loc Cert.KernelIdeal.main_arg2))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => kOut (K.rI (m ((c.tc : Thread Cert.KernelIdeal.nD Cert.KernelIdeal.τ).loc Cert.KernelIdeal.main_arg0))) (K.cI (m ((c.tc : Thread Cert.KernelIdeal.nD Cert.KernelIdeal.τ).loc Cert.KernelIdeal.main_arg0))) (K.dv (m ((c.tc : Thread Cert.KernelIdeal.nD Cert.KernelIdeal.τ).loc Cert.KernelIdeal.main_arg0))) (m ((c.tc : Thread Cert.KernelIdeal.nD Cert.KernelIdeal.τ).loc Cert.KernelIdeal.main_arg5)) (K.w0 (m ((c.tc : Thread Cert.KernelIdeal.nD Cert.KernelIdeal.τ).loc Cert.KernelIdeal.main_arg6))) (K.b0 (m ((c.tc : Thread Cert.KernelIdeal.nD Cert.KernelIdeal.τ).loc Cert.KernelIdeal.main_arg7))) (K.w1 (m ((c.tc : Thread Cert.KernelIdeal.nD Cert.KernelIdeal.τ).loc Cert.KernelIdeal.main_arg6))) (K.b1 (m ((c.tc : Thread Cert.KernelIdeal.nD Cert.KernelIdeal.τ).loc Cert.KernelIdeal.main_arg7)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg4)) (KT.sI (m ((c.tc : Thread Cert.KernelIdeal.nD Cert.KernelIdeal.τ).loc Cert.KernelIdeal.main_arg3))) (KT.dI (m ((c.tc : Thread Cert.KernelIdeal.nD Cert.KernelIdeal.τ).loc Cert.KernelIdeal.main_arg3))) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (K.res0 m ρ c), (h c).2.1.trans (K.res1 m ρ c), (h c).2.2⟩)
      (KRun.run_results (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · refine (Ref.out0_eq m' c).trans ?_
      obtain ⟨e0, e1, e2, e3, e4, e5, e6, e7, e8, e9, e10, e11, e12, e13⟩ := hagree c
      rw [e0, e1, e2, e4, e5, e6, e7, e8, e9, e10, e11, e12, e13]
      exact rOut_ref_eq_kOut _ _ _ _ _ _ _ _ _ _ _ _ _
    · refine (Ref.out1_eq m' c).trans ?_
      obtain ⟨e0, e1, e2, e3, e4, e5, e6, e7, e8, e9, e10, e11, e12, e13⟩ := hagree c
      rw [e0, e1, e3, e4, e5, e6, e7, e8, e9, e10, e11, e12, e13]
      exact rOut_ref_eq_kOut _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
